-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S_ : Shape := ⟨0, ![]⟩

class Facts : Prop where
  bcast_S_S16384x128 : S_.BroadcastsInDim S16384x128 (![] : Fin 0 → Fin S16384x128.rank)
  reducesTo_S16384x128_S_d0_1 : S16384x128.ReducesTo [0, 1] S_
  h_S_ : 0 < S_.numel
  bcast_S_S16384x16384 : S_.BroadcastsInDim S16384x16384 (![] : Fin 0 → Fin S16384x16384.rank)
  reducesTo_S16384x16384_S_d0_1 : S16384x16384.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S128x128 .f32) (main_arg5 : FVec F S128 .f32) (main_arg6 : FVec F S128x2 .f32) (main_arg7 : FVec F S2 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x2 .f32 := Host.absf main_arg6
  let main_cst_10 : FVec F S_ .f32 := constant S_ .f32 0x7F800000#32
  let main_v30 : FVec F S128x2 .f32 := broadcastInDim S128x2 ![] bcast_S_S128x2 main_cst_10
  let main_v31 : IVec S128x2 1 := cmpf .olt main_v29 main_v30
  let main_c_11 : IVec S_ 1 := constantI S_ 1 1#1
  let main_v32 : IVec S_ 1 := (fun x v => Host.reduce IntOp.andi x v reducesTo_S128x2_S_d0_1 h_S_) main_v31 main_c_11
  let main_v33 : IVec S_ 1 := andi main_v28 main_v32
  fn_part2 (F := F) main_arg7 main_v33

def fn {F : FTy → Type} [FloatOps F] (main_arg0 : FVec F S16384x128 .f32) (main_arg1 : FVec F S16384x16384 .f32) (main_arg2 : FVec F S128x128 .f32) (main_arg3 : FVec F S128 .f32) (main_arg4 : FVec F S128x128 .f32) (main_arg5 : FVec F S128 .f32) (main_arg6 : FVec F S128x2 .f32) (main_arg7 : FVec F S2 .f32) : IVec S_ 1 :=
  let main_v0 : FVec F S16384x128 .f32 := Host.absf main_arg0
  let main_cst : FVec F S_ .f32 := constant S_ .f32 0x7F800000#32
  let main_v1 : FVec F S16384x128 .f32 := broadcastInDim S16384x128 ![] bcast_S_S16384x128 main_cst
  let main_v2 : IVec S16384x128 1 := cmpf .olt main_v0 main_v1
  let main_c : IVec S_ 1 := constantI S_ 1 1#1
  let main_v3 : IVec S_ 1 := (fun x v => Host.reduce IntOp.andi x v reducesTo_S16384x128_S_d0_1 h_S_) main_v2 main_c
  let main_v4 : FVec F S16384x16384 .f32 := Host.absf main_arg1
  let main_cst_0 : FVec F S_ .f32 := constant S_ .f32 0x7F800000#32
  let main_v5 : FVec F S16384x16384 .f32 := broadcastInDim S16384x16384 ![] bcast_S_S16384x16384 main_cst_0
  let main_v6 : IVec S16384x16384 1 := cmpf .olt main_v4 main_v5
  let main_c_1 : IVec S_ 1 := constantI S_ 1 1#1
  let main_v7 : IVec S_ 1 := (fun x v => Host.reduce IntOp.andi x v reducesTo_S16384x16384_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S4096x1024 : Shape := ⟨2, ![4096, 1024]⟩
abbrev S4096x128 : Shape := ⟨2, ![4096, 128]⟩
abbrev S1024x128 : Shape := ⟨2, ![1024, 128]⟩
abbrev S16384x2 : Shape := ⟨2, ![16384, 2]⟩
abbrev S1x2 : Shape := ⟨2, ![1, 2]⟩

abbrev nBuf : Space → Nat
  | .hbm => 18
  | .vmem => 14
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S16384x128, .f32⟩
  | .hbm, ⟨9, _⟩ => ⟨S1x128, .f32⟩
  | .hbm, ⟨10, _⟩ => ⟨S16384x128, .f32⟩
  | .hbm, ⟨11, _⟩ => ⟨S16384x128, .f32⟩
  | .hbm, ⟨12, _⟩ => ⟨S1x128, .f32⟩
  | .hbm, ⟨13, _⟩ => ⟨S16384x128, .f32⟩
  | .hbm, ⟨14, _⟩ => ⟨S16384x2, .f32⟩
  | .hbm, ⟨15, _⟩ => ⟨S1x2, .f32⟩
  | .hbm, ⟨16, _⟩ => ⟨S16384x2, .f32⟩
  | .hbm, ⟨17, _⟩ => ⟨S16384x2, .f32⟩
  | .local _ .vmem, ⟨0, _⟩ => ⟨S4096x1024, .f32⟩
  | .local _ .vmem, ⟨1, _⟩ => ⟨S4096x1024, .f32⟩
  | .local _ .vmem, ⟨2, _⟩ => ⟨S16384x128, .f32⟩
  | .local _ .vmem, ⟨3, _⟩ => ⟨S1x128, .f32⟩
  | .local _ .vmem, ⟨4, _⟩ => ⟨S4096x128, .f32⟩
  | .local _ .vmem, ⟨5, _⟩ => ⟨S4096x128, .f32⟩
  | .local _ .vmem, ⟨6, _⟩ => ⟨S4096x128, .f32⟩
  | .local _ .vmem, ⟨7, _⟩ => ⟨S4096x1024, .f32⟩
  | .local _ .vmem, ⟨8, _⟩ => ⟨S4096x1024, .f32⟩
  | .local _ .vmem, ⟨9, _⟩ => ⟨S16384x128, .f32⟩
  | .local _ .vmem, ⟨10, _⟩ => ⟨S1x128, .f32⟩
  | .local _ .vmem, ⟨11, _⟩ => ⟨S4096x128, .f32⟩
  | .local _ .vmem, ⟨12, _⟩ => ⟨S4096x128, .f32⟩
  | .local _ .vmem, ⟨13, _⟩ => ⟨S4096x128, .f32⟩
  | _, _ => ⟨S16384x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c1024_i32 : BitVec 32 := 1024#32
  let v3 : BitVec 32 := Scalar.muli arg1 c1024_i32
  v3
def k0_off1 (i : grid0.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k0_cond2 (i : grid0.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_7 : BitVec 32 := 0#32
  let v17 : BitVec 1 := Scalar.cmpi .ne v16 c0_i32_7
  v17

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S4096x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S16384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨2, ![4, 16], ![false, false]⟩

def k1_mult1 (i : grid1.Coords) : BitVec 32 :=
  let arg1 : BitVec 32 := BitVec.ofNat 32 (i 1).val
  let c1024_i32 : BitVec 32 := 1024#32
  let v3 : BitVec 32 := Scalar.muli arg1 c1024_i32
  v3
def k1_off1 (i : grid1.Coords) : Fin 2 → Nat :=
  let arg1 : BitVec 32 := BitVec.ofNat 32 (i 1).val
  let c1024_i32 : BitVec 32 := 1024#32
  let v3 : BitVec 32 := Scalar.muli arg1 c1024_i32
  let v4 : BitVec 32 := v3
  let v5 : Index := Scalar.indexCast v4
  let c0 : Index := 0#32
  ![v5.toNat, 0]
def k1_cond2 (i : grid1.Coords) : BitVec 1 :=
  let arg1 : BitVec 32 := BitVec.ofNat 32 (i 1).val
  let c15_i32 : BitVec 32 := 15#32
  let v15 : BitVec 1 := Scalar.cmpi .eq arg1 c15_i32
  let v16 : BitVec 32 := Scalar.extui v15
  let c0_i32_7 : BitVec 32 := 0#32
  let v17 : BitVec 1 := Scalar.cmpi .ne v16 c0_i32_7
  v17

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S4096x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S16384x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  shapeCasts_S128_S1x128 : S128.ShapeCasts S1x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  h_S1024x128 : 0 < S1024x128.numel
  shapeCasts_S1024x128_S1024x128 : S1024x128.ShapeCasts S1024x128
  inb_S4096x1024_S4096x1024_0_0 : ∀ a, (![0, 0] : Fin 2 → Nat) a + S4096x1024.size a ≤ S4096x1024.size a
  h_S4096x1024 : 0 < S4096x1024.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x128_S128x128_S16384x128_1_0_0_1_n_n_wf : DotDims.WF S16384x128 S128x128 S16384x128 [1] [0] [0] [1] [] []
  dot_S4096x1024_S1024x128_S4096x128_1_0_0_1_n_n_wf : DotDims.WF S4096x1024 S1024x128 S4096x128 [1] [0] [0] [1] [] []
  dot_S16384x128_S128x2_S16384x2_1_0_0_1_n_n_wf : DotDims.WF S16384x128 S128x2 S16384x2 [1] [0] [0] [1] [] []
  hrank0 : 0 < grid0.rank
  k0_mult1_dvd : ∀ i : grid0.Coords, 1024 ∣ (k0_mult1 i).toNat
  k0_off1_inb : ∀ i : grid0.Coords, ∀ a, (k0_off1 i) a + S1024x128.size a ≤ S16384x128.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x1024.size a ≤ S16384x16384.size a
  hwx0_0 : ∀ i : grid0.Coords, EltTy.bits .f32 = 32 ∨ (Rect.block (s := S16384x16384) S4096x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16384x128.size a ≤ S16384x128.size a
  hwx0_1 : ∀ i : grid0.Coords, EltTy.bits .f32 = 32 ∨ (Rect.block (s := S16384x128) S16384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4096x128.size a ≤ S16384x128.size a
  hwx0_3 : ∀ i : grid0.Coords, EltTy.bits .f32 = 32 ∨ (Rect.block (s := S16384x128) S4096x128.size (cc0_transform_3 i) (hinb0_3 i)).WholeWords (EltTy.packing .f32)
  hrank1 : 0 < grid1.rank
  k1_mult1_dvd : ∀ i : grid1.Coords, 1024 ∣ (k1_mult1 i).toNat
  k1_off1_inb : ∀ i : grid1.Coords, ∀ a, (k1_off1 i) a + S1024x128.size a ≤ S16384x128.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x1024.size a ≤ S16384x16384.size a
  hwx1_0 : ∀ i : grid1.Coords, EltTy.bits .f32 = 32 ∨ (Rect.block (s := S16384x16384) S4096x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16384x128.size a ≤ S16384x128.size a
  hwx1_1 : ∀ i : grid1.Coords, EltTy.bits .f32 = 32 ∨ (Rect.block (s := S16384x128) S16384x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S16384x128.size a
  hwx1_3 : ∀ i : grid1.Coords, EltTy.bits .f32 = 32 ∨ (Rect.block (s := S16384x128) S4096x128.size (cc1_transform_3 i) (hinb1_3 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S4096x1024_S1024x128_S4096x128_1_0_0_1_n_n : DotDims S4096x1024 S1024x128 S4096x128 where
  lhsContracting := [1]
  rhsContracting := [0]
  lhsNonContracting := [0]
  rhsNonContracting := [1]
  lhsBatch := []
  rhsBatch := []
  wf := dot_S4096x1024_S1024x128_S4096x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

abbrev win0_0 : Pipeline.Window sig grid0 :=
  Pipeline.Window.ofSpec (Memref.whole main_arg1) S4096x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4096x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

abbrev win1_0 : Pipeline.Window sig grid1 :=
  Pipeline.Window.ofSpec (Memref.whole main_arg1) S4096x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v3) S16384x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v4) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v5) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S16384x128 : Shape := ⟨2, ![16384, 128]⟩
abbrev S16384x16384 : Shape := ⟨2, ![16384, 16384]⟩
abbrev S128x128 : Shape := ⟨2, ![128, 128]⟩
abbrev S128 : Shape := ⟨1, ![128]⟩
abbrev S128x2 : Shape := ⟨2, ![128, 2]⟩
abbrev S2 : Shape := ⟨1, ![2]⟩
abbrev S1x128 : Shape := ⟨2, ![1, 128]⟩
abbrev S_ : Shape := ⟨0, ![]⟩
abbrev S16384x2 : Shape := ⟨2, ![16384, 2]⟩
abbrev S1x2 : Shape := ⟨2, ![1, 2]⟩

abbrev nBuf : Space → Nat
  | .hbm => 28
  | .vmem => 0
  | .smem => 0
  | _ => 0

abbrev bufTy : (tb : Table) → Fin (tcTables nBuf tb) → BufTy
  | .hbm, ⟨0, _⟩ => ⟨S16384x128, .f32⟩
  | .hbm, ⟨1, _⟩ => ⟨S16384x16384, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x2, .f32⟩
  | .hbm, ⟨7, _⟩ => ⟨S2, .f32⟩
  | .hbm, ⟨8, _⟩ => ⟨S16384x128, .f32⟩
  | .hbm, ⟨9, _⟩ => ⟨S16384x128, .f32⟩
  | .hbm, ⟨10, _⟩ => ⟨S1x128, .f32⟩
  | .hbm, ⟨11, _⟩ => ⟨S16384x128, .f32⟩
  | .hbm, ⟨12, _⟩ => ⟨S16384x128, .f32⟩
  | .hbm, ⟨13, _⟩ => ⟨S_, .f32⟩
  | .hbm, ⟨14, _⟩ => ⟨S16384x128, .f32⟩
  | .hbm, ⟨15, _⟩ => ⟨S16384x128, .f32⟩
  | .hbm, ⟨16, _⟩ => ⟨S16384x128, .f32⟩
  | .hbm, ⟨17, _⟩ => ⟨S16384x128, .f32⟩
  | .hbm, ⟨18, _⟩ => ⟨S1x128, .f32⟩
  | .hbm, ⟨19, _⟩ => ⟨S16384x128, .f32⟩
  | .hbm, ⟨20, _⟩ => ⟨S16384x128, .f32⟩
  | .hbm, ⟨21, _⟩ => ⟨S_, .f32⟩
  | .hbm, ⟨22, _⟩ => ⟨S16384x128, .f32⟩
  | .hbm, ⟨23, _⟩ => ⟨S16384x128, .f32⟩
  | .hbm, ⟨24, _⟩ => ⟨S16384x2, .f32⟩
  | .hbm, ⟨25, _⟩ => ⟨S1x2, .f32⟩
  | .hbm, ⟨26, _⟩ => ⟨S16384x2, .f32⟩
  | .hbm, ⟨27, _⟩ => ⟨S16384x2, .f32⟩
  | _, _ => ⟨S16384x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_call0_cst : Ref sig .tc := ⟨.hbm, 13, rfl⟩
abbrev main_call0_v0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call1_cst : Ref sig .tc := ⟨.hbm, 21, rfl⟩
abbrev main_call1_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  bcast_S_S16384x128 : S_.BroadcastsInDim S16384x128 (![] : Fin 0 → Fin S16384x128.rank)
  bcast_S2_S1x2_1 : S2.BroadcastsInDim S1x2 (![1] : Fin 1 → Fin S1x2.rank)
  bcast_S1x2_S16384x2_0_1 : S1x2.BroadcastsInDim S16384x2 (![0, 1] : Fin 2 → Fin S16384x2.rank)
  dot_S16384x128_S128x128_S16384x128_1_0_0_1_n_n_wf : DotDims.WF S16384x128 S128x128 S16384x128 [1] [0] [0] [1] [] []
  dot_S16384x16384_S16384x128_S16384x128_1_0_0_1_n_n_wf : DotDims.WF S16384x16384 S16384x128 S16384x128 [1] [0] [0] [1] [] []
  dot_S16384x128_S128x2_S16384x2_1_0_0_1_n_n_wf : DotDims.WF S16384x128 S128x2 S16384x2 [1] [0] [0] [1] [] []

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x16384_S16384x128_S16384x128_1_0_0_1_n_n : DotDims S16384x16384 S16384x128 S16384x128 where
  lhsContracting := [1]
  rhsContracting := [0]
  lhsNonContracting := [0]
  rhsNonContracting := [1]
  lhsBatch := []
  rhsBatch := []
  wf := dot_S16384x16384_S16384x128_S16384x128_1_0_0_1_n_n_wf
def dot_S16384x128_S128x2_S16384x2_1_0_0_1_n_n : DotDims S16384x128 S128x2 S16384x2 where
  lhsContracting := [1]
  rhsContracting := [0]
  lhsNonContracting := [0]
  rhsNonContracting := [1]
  lhsBatch := []
  rhsBatch := []
  wf := dot_S16384x128_S128x2_S16384x2_1_0_0_1_n_n_wf

class Facts : Prop extends Facts₀ where

variable [Facts]
-- ==== Proof.K.R0Base.lean ====
import proofs.«126341_j35888746725725_2_alg».proof.Proof.Gen.Kernel.Launch
import proofs.«126341_j35888746725725_2_alg».proof.Proof.Gen.Kernel.Skeleton
import proofs.«126341_j35888746725725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of call 0 -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds block (i, k) at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projected features are resident: fetched once, their block index never moves, so the buffer holds the whole
    array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row is resident in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the reduction coordinate -/

/-- "first step of the reduction": the coordinate k is 0. -/
abbrev cond0_0 (i : grid0.Coords) : Prop := (Scalar.cmpi .ne (Scalar.extui (Scalar.cmpi .eq (BitVec.ofNat 32 (i 1).val) 0#32)) 0#32) = 1#1
/-- Over the 64 points in row-major order (i, k) = (t / 16, t % 16): k = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "last step of the reduction": the coordinate k is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last step nothing is stored into the output block, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step the output block is stored. -/
theorem liveAt0_3 : ∀ t : Fin cfg0.N, cond0_1 (grid0.coords t) → cfg0.idle 3 (grid0.coords t) = false := by decide +kernel

/-! ## The buffers the body is called with -/

/-- A staging buffer of the output window, through which its contents are stated. -/
abbrev VO0_3 : View sig .tc .vmem S4096x128 .f32 := (Memref.whole cc0_stg3_0 : Memref sig .tc .vmem S4096x128 .f32).view
abbrev ms0_0 (t : Fin cfg0.N) : Memref sig .tc .vmem S4096x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
/-- The accumulator: a whole scoped buffer of the call's own. -/
abbrev scM0_0 : Memref sig .tc .vmem S4096x128 .f32 := Memref.whole cc0_scratch0
abbrev VS0_0 : View sig .tc .vmem S4096x128 .f32 := scM0_0.view

/-- The core's scoped buffers other than this call's staging buffers and accumulator, each at some contents: they
    belong to the other call and ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the pipeline hands the body beside the windows: the accumulator at some contents, the other call's buffers,
    the generator register. -/
theorem PhiA0_eq (c : Dev nD) :
    (Pipeline.ΦA spec0 c : sProp 𝕄)
      = iprop(((∃ d, owns (c : Thread nD τ) scM0_0 fullShare d) ∗ others0 c) ∗ (∃ r, prngReg c r)) := by
  unfold Pipeline.ΦA others0; rw [scopedRest0_eq]; simp only [scM0_0, owns_whole]
  rfl

theorem PhiA0_to (c : Dev nD) : (Pipeline.ΦA spec0 c : sProp 𝕄) ⊢ iprop(((∃ d, owns (c : Thread nD τ) scM0_0 fullShare d) ∗ others0 c) ∗ (∃ r, prngReg c r)) := by
  rw [PhiA0_eq]
theorem PhiA0_of (c : Dev nD) : iprop(((∃ d, owns (c : Thread nD τ) scM0_0 fullShare d) ∗ others0 c) ∗ (∃ r, prngReg c r)) ⊢ (Pipeline.ΦA spec0 c : sProp 𝕄) := by
  rw [PhiA0_eq]

end Cert.Kernel.Hand

end
-- ==== Proof.K.R0RunA.lean ====
import proofs.«126341_j35888746725725_2_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 0 at the FIRST step of a row block's reduction (k = 0): the accumulator, found at anything, is zeroed and takes the first partial product; nothing is stored into the output block, which is handed back as found. The pieces each written buffer ends with are the witness the symbolic run finds. -/
noncomputable def kernelRun0_A (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i)
    (x0 : Vec F S4096x1024 .f32) (x1 : Vec F S16384x128 .f32) (x2 : Vec F S1x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunB.lean ====
import proofs.«126341_j35888746725725_2_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 0 at a MIDDLE step (0 < k < 15): the accumulator, found at what the step before left, takes one more partial product; the output block is handed back as found. The pieces each written buffer ends with are the witness the symbolic run finds. -/
noncomputable def kernelRun0_B (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R0RunC.lean ====
import proofs.«126341_j35888746725725_2_alg».proof.Proof.K.R0Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 0 at the LAST step (k = 15): the accumulator takes the last partial product and the output block is stored from it. The pieces each written buffer ends with are the witness the symbolic run finds. -/
noncomputable def kernelRun0_C (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R0Frame.lean ====
import proofs.«126341_j35888746725725_2_alg».proof.Proof.K.R0RunA
import proofs.«126341_j35888746725725_2_alg».proof.Proof.K.R0RunB
import proofs.«126341_j35888746725725_2_alg».proof.Proof.K.R0RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each step leaves in the accumulator and in the output block -/

/-- The stores of a step of kind A into the accumulator tile it. -/
theorem scover0_A_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i) (x0 : Vec F S4096x1024 .f32) (x1 : Vec F S16384x128 .f32) (x2 : Vec F S1x128 .f32) (y : S4096x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S4096x128.size (by sl_kernel_rfl) y

/-- What a step of kind A leaves in the accumulator. -/
def sout0_A_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i) (x0 : Vec F S4096x1024 .f32) (x1 : Vec F S16384x128 .f32) (x2 : Vec F S1x128 .f32) : Vec F S4096x128 .f32 :=
  VS0_0.read (Elt F) (VS0_0.writes (Elt F) VS0_0.junk (kernelRun0_A c i arg2 harg2 arg3 harg3 arg4 harg4 arg5 harg5 arg6 harg6 hc0 hc1 x0 x1 x2).2.1)

/-- The stores of a step of kind B into the accumulator tile it. -/
theorem scover0_B_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i) (x0 : Vec F S4096x1024 .f32) (x1 : Vec F S16384x128 .f32) (x2 : Vec F S1x128 .f32) (xs0 : Vec F S4096x128 .f32) (y : S4096x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S4096x128.size (by sl_kernel_rfl) y

/-- What a step of kind B leaves in the accumulator. -/
def sout0_B_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i) (x0 : Vec F S4096x1024 .f32) (x1 : Vec F S16384x128 .f32) (x2 : Vec F S1x128 .f32) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The stores of a step of kind C into the accumulator tile it. -/
theorem scover0_C_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) (y : S4096x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x128.size (by sl_kernel_rfl) y

/-- What a step of kind C leaves in the accumulator. -/
def sout0_C_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- The last step's store into the output block covers it. -/
theorem cover0_C_3 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) (y : S4096x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x128.size (by sl_kernel_rfl) y

/-- What the last step leaves in the output block. -/
def out0_C_3 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) : Vec F S4096x128 .f32 :=
  VO0_3.read (Elt F) (VO0_3.writes (Elt F) VO0_3.junk (kernelRun0_C c i arg2 harg2 arg3 harg3 arg4 harg4 arg5 harg5 arg6 harg6 hc0 hc1 x0 x1 x2 xs0).1)

variable (V : (c : Dev nD) → (b : Ref sig .tc) → Buf (Elt F) ((c : Thread nD τ).loc b))

/-- A value nothing reads: the output block's nominal contents at the steps that do not store it, and the
    accumulator's nominal predecessor at a first step. -/
def unread0 : Vec F S4096x128 .f32 := VO0_3.read (Elt F) VO0_3.junk

/-! ## The accumulation along the grid -/

/-- One grid point: (output block, accumulator) after the body at point `t`, given the accumulator `prev` the point
    before left. The kind of step is read off the reduction coordinate. -/
def stepAt0 (c : Dev nD) (t : Fin cfg0.N) (prev : Vec F S4096x128 .f32) : Vec F S4096x128 .f32 × Vec F S4096x128 .f32 :=
  if h1 : cond0_1 (grid0.coords t) then
    if h0 : cond0_0 (grid0.coords t) then (unread0, unread0)
    else (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev)
  else
    if h0 : cond0_0 (grid0.coords t) then (unread0, sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t))
    else (unread0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev)

/-- (output block, accumulator) after the body at position `n` of the grid, by recursion on the position. -/
def outsAt0 (c : Dev nD) : (n : ℕ) → n < cfg0.N → Vec F S4096x128 .f32 × Vec F S4096x128 .f32
  | 0, hn => stepAt0 V c ⟨0, hn⟩ unread0
  | n + 1, hn => stepAt0 V c ⟨n + 1, hn⟩ (outsAt0 c n (Nat.lt_of_succ_lt hn)).2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2 := by
  obtain ⟨n, hn⟩ := t
  cases n with
  | zero => exact absurd rfl hz
  | succ n => rfl

theorem outsAt0_A (c : Dev nD) (t : Fin cfg0.N) (h0 : cond0_0 (grid0.coords t)) (h1 : ¬cond0_1 (grid0.coords t)) :
    outsAt0 V c t.val t.isLt = (unread0, sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)) := by
  obtain ⟨n, hn⟩ := t
  cases n with
  | zero => exact (dif_neg h1).trans (dif_pos h0)
  | succ n => exact (dif_neg h1).trans (dif_pos h0)

theorem outsAt0_B (c : Dev nD) (t : Fin cfg0.N) (hz : t.val ≠ 0) (h0 : ¬cond0_0 (grid0.coords t)) (h1 : ¬cond0_1 (grid0.coords t)) :
    outsAt0 V c t.val t.isLt = (unread0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2) :=
  (outsAt0_pos V c t hz).trans ((dif_neg h1).trans (dif_neg h0))

theorem outsAt0_C (c : Dev nD) (t : Fin cfg0.N) (hz : t.val ≠ 0) (h0 : ¬cond0_0 (grid0.coords t)) (h1 : cond0_1 (grid0.coords t)) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2) :=
  (outsAt0_pos V c t hz).trans ((dif_pos h1).trans (dif_neg h0))

/-! ## The invariant between grid points -/

/-- Before position `n`: at the start what the pipeline hands over; afterwards the accumulator at what the point
    before left, the other call's buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ others0 c) ∗ (∃ r, prngReg c r)) := by
  cases n with
  | zero => exact absurd rfl hz
  | succ n => rfl

/-! ## The call's proof data -/

/-- Call 0 on core `c`: the arrays as the call finds them; after the body each input's buffer at its block and the
    output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t) : (dat0 V c).owed t = 0 := rfl
theorem recorded0 (c : Dev nD) (t) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any grid point: the reduction coordinate says which kind of step it is; the invariant hands the
    accumulator over at what the point before left (at anything before a first step) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h1 : cond0_1 (grid0.coords t)
  · have h0 : ¬cond0_0 (grid0.coords t) := fun h => by
      have a := (hcond0_0 t).mp h; have b := (hcond0_1 t).mp h1; omega
    have hz : t.val ≠ 0 := fun e => by have b := (hcond0_1 t).mp h1; omega
    rw [show (dat0 V c).leavesExact 3 t = owns (c : Thread nD τ) (ms0_3 t) fullShare ((dat0 V c).after 3 t) from by
      unfold Dat.leavesExact; rw [liveAt0_3 t h1], after0_3]
    rw [outsAt0_C V c t hz h0 h1]
    unfold out0_C_3 sout0_C_0; (try dsimp only)
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t h1) (noFlush0_3 t h1)]
    by_cases h0 : cond0_0 (grid0.coords t)
    · rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩⟩
        ihave HΦ' := (PhiA0_to c) $$ HΦ
        icases HΦ' with ⟨⟨HS0, Hoth⟩, Hg⟩
        iapply ((kernelRun0_A c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun e => h0 ((hcond0_0 t).mpr (by rw [e]))
      rw [outsAt0_B V c t hz h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the pipeline hands the call is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  have h : ∀ x : Vec F S4096x128 .f32, (iprop((owns (c : Thread nD τ) scM0_0 fullShare x ∗ others0 c) ∗ (∃ r, prngReg c r)) : sProp 𝕄)
      ⊢ iprop(((∃ d, owns (c : Thread nD τ) scM0_0 fullShare d) ∗ others0 c) ∗ (∃ r, prngReg c r)) := fun x => by
    iintro ⟨⟨HS0, Hoth⟩, Hg⟩
    isplitl [HS0 Hoth]
    · isplitl [HS0]; · iexists _; iexact HS0
      iexact Hoth
    iexact Hg
  exact (h _).trans (PhiA0_of c)

end Cert.Kernel.Hand

end
-- ==== Proof.K.R1Base.lean ====
import proofs.«126341_j35888746725725_2_alg».proof.Proof.Gen.Kernel.Launch
import proofs.«126341_j35888746725725_2_alg».proof.Proof.Gen.Kernel.Skeleton
import proofs.«126341_j35888746725725_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of call 1 -/

/-- Window `w`'s block at grid point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds block (i, k) at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features are resident: fetched once, their block index never moves, so the buffer holds the whole
    array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row is resident in the same way. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the reduction coordinate -/

/-- "first step of the reduction": the coordinate k is 0. -/
abbrev cond1_0 (i : grid1.Coords) : Prop := (Scalar.cmpi .ne (Scalar.extui (Scalar.cmpi .eq (BitVec.ofNat 32 (i 1).val) 0#32)) 0#32) = 1#1
/-- Over the 64 points in row-major order (i, k) = (t / 16, t % 16): k = 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- "last step of the reduction": the coordinate k is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last step nothing is stored into the output block, and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step the output block is stored. -/
theorem liveAt1_3 : ∀ t : Fin cfg1.N, cond1_1 (grid1.coords t) → cfg1.idle 3 (grid1.coords t) = false := by decide +kernel

/-! ## The buffers the body is called with -/

/-- A staging buffer of the output window, through which its contents are stated. -/
abbrev VO1_3 : View sig .tc .vmem S4096x128 .f32 := (Memref.whole cc1_stg3_0 : Memref sig .tc .vmem S4096x128 .f32).view
abbrev ms1_0 (t : Fin cfg1.N) : Memref sig .tc .vmem S4096x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1_0 : Memref sig .tc .vmem S4096x128 .f32 := Memref.whole cc1_scratch0
abbrev VS1_0 : View sig .tc .vmem S4096x128 .f32 := scM1_0.view

/-- The core's scoped buffers other than this call's staging buffers and accumulator, each at some contents: they
    belong to the other call and ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the pipeline hands the body beside the windows: the accumulator at some contents, the other call's buffers,
    the generator register — the same resources in another order. -/
theorem PhiA1_to (c : Dev nD) : (Pipeline.ΦA spec1 c : sProp 𝕄) ⊢ iprop(((∃ d, owns (c : Thread nD τ) scM1_0 fullShare d) ∗ others1 c) ∗ (∃ r, prngReg c r)) := by
  unfold Pipeline.ΦA others1; rw [scopedRest1_eq]; simp only [scM1_0, owns_whole]
  iintro ⟨⟨H1, H2, H3, H4, H5, H6, H7, HA⟩, Hp⟩
  isplitr [Hp]
  · isplitl [HA]; · iexact HA
    isplitl [H1]; · iexact H1
    isplitl [H2]; · iexact H2
    isplitl [H3]; · iexact H3
    isplitl [H4]; · iexact H4
    isplitl [H5]; · iexact H5
    isplitl [H6]; · iexact H6
    iexact H7
  iexact Hp
theorem PhiA1_of (c : Dev nD) : iprop(((∃ d, owns (c : Thread nD τ) scM1_0 fullShare d) ∗ others1 c) ∗ (∃ r, prngReg c r)) ⊢ (Pipeline.ΦA spec1 c : sProp 𝕄) := by
  unfold Pipeline.ΦA others1; rw [scopedRest1_eq]; simp only [scM1_0, owns_whole]
  iintro ⟨⟨HA, H1, H2, H3, H4, H5, H6, H7⟩, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HA
  iexact Hp

end Cert.Kernel.Hand

end
-- ==== Proof.K.R1RunA.lean ====
import proofs.«126341_j35888746725725_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 1 at the FIRST step of a row block's reduction (k = 0): the accumulator, found at anything, is zeroed and takes the first partial product; nothing is stored into the output block, which is handed back as found. The pieces each written buffer ends with are the witness the symbolic run finds. -/
noncomputable def kernelRun1_A (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i)
    (x0 : Vec F S4096x1024 .f32) (x1 : Vec F S16384x128 .f32) (x2 : Vec F S1x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunB.lean ====
import proofs.«126341_j35888746725725_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 1 at a MIDDLE step (0 < k < 15): the accumulator, found at what the step before left, takes one more partial product; the output block is handed back as found. The pieces each written buffer ends with are the witness the symbolic run finds. -/
noncomputable def kernelRun1_B (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Hand

end
-- ==== Proof.K.R1RunC.lean ====
import proofs.«126341_j35888746725725_2_alg».proof.Proof.K.R1Base

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body of call 1 at the LAST step (k = 15): the accumulator takes the last partial product and the output block is stored from it. The pieces each written buffer ends with are the witness the symbolic run finds. -/
noncomputable def kernelRun1_C (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Hand

end
-- ==== Proof.K.R1Frame.lean ====
import proofs.«126341_j35888746725725_2_alg».proof.Proof.K.R1RunA
import proofs.«126341_j35888746725725_2_alg».proof.Proof.K.R1RunB
import proofs.«126341_j35888746725725_2_alg».proof.Proof.K.R1RunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## What each step leaves in the accumulator and in the output block -/

/-- The stores of a step of kind A into the accumulator tile it. -/
theorem scover1_A_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i) (x0 : Vec F S4096x1024 .f32) (x1 : Vec F S16384x128 .f32) (x2 : Vec F S1x128 .f32) (y : S4096x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S4096x128.size (by sl_kernel_rfl) y

/-- What a step of kind A leaves in the accumulator. -/
def sout1_A_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i) (x0 : Vec F S4096x1024 .f32) (x1 : Vec F S16384x128 .f32) (x2 : Vec F S1x128 .f32) : Vec F S4096x128 .f32 :=
  VS1_0.read (Elt F) (VS1_0.writes (Elt F) VS1_0.junk (kernelRun1_A c i arg2 harg2 arg3 harg3 arg4 harg4 arg5 harg5 arg6 harg6 hc0 hc1 x0 x1 x2).2.1)

/-- The stores of a step of kind B into the accumulator tile it. -/
theorem scover1_B_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i) (x0 : Vec F S4096x1024 .f32) (x1 : Vec F S16384x128 .f32) (x2 : Vec F S1x128 .f32) (xs0 : Vec F S4096x128 .f32) (y : S4096x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S4096x128.size (by sl_kernel_rfl) y

/-- What a step of kind B leaves in the accumulator. -/
def sout1_B_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i) (x0 : Vec F S4096x1024 .f32) (x1 : Vec F S16384x128 .f32) (x2 : Vec F S1x128 .f32) (xs0 : Vec F S4096x128 .f32) : Vec F S4096x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The stores of a step of kind C into the accumulator tile it. -/
theorem scover1_C_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) (y : S4096x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S4096x128.size (by sl_kernel_rfl) y

/-- What a step of kind C leaves in the accumulator. -/
def sout1_C_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) : Vec F S4096x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- The last step's store into the output block covers it. -/
theorem cover1_C_3 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) (y : S4096x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S4096x128.size (by sl_kernel_rfl) y

/-- What the last step leaves in the output block. -/
def out1_C_3 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) : Vec F S4096x128 .f32 :=
  VO1_3.read (Elt F) (VO1_3.writes (Elt F) VO1_3.junk (kernelRun1_C c i arg2 harg2 arg3 harg3 arg4 harg4 arg5 harg5 arg6 harg6 hc0 hc1 x0 x1 x2 xs0).1)

variable (V : (c : Dev nD) → (b : Ref sig .tc) → Buf (Elt F) ((c : Thread nD τ).loc b))

/-- A value nothing reads: the output block's nominal contents at the steps that do not store it, and the
    accumulator's nominal predecessor at a first step. -/
def unread1 : Vec F S4096x128 .f32 := VO1_3.read (Elt F) VO1_3.junk

/-! ## The accumulation along the grid -/

/-- One grid point: (output block, accumulator) after the body at point `t`, given the accumulator `prev` the point
    before left. The kind of step is read off the reduction coordinate. -/
def stepAt1 (c : Dev nD) (t : Fin cfg1.N) (prev : Vec F S4096x128 .f32) : Vec F S4096x128 .f32 × Vec F S4096x128 .f32 :=
  if h1 : cond1_1 (grid1.coords t) then
    if h0 : cond1_0 (grid1.coords t) then (unread1, unread1)
    else (out1_C_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev, sout1_C_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)
  else
    if h0 : cond1_0 (grid1.coords t) then (unread1, sout1_A_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t))
    else (unread1, sout1_B_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)

/-- (output block, accumulator) after the body at position `n` of the grid, by recursion on the position. -/
def outsAt1 (c : Dev nD) : (n : ℕ) → n < cfg1.N → Vec F S4096x128 .f32 × Vec F S4096x128 .f32
  | 0, hn => stepAt1 V c ⟨0, hn⟩ unread1
  | n + 1, hn => stepAt1 V c ⟨n + 1, hn⟩ (outsAt1 c n (Nat.lt_of_succ_lt hn)).2

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl

theorem outsAt1_A (c : Dev nD) (t : Fin cfg1.N) (h0 : cond1_0 (grid1.coords t)) (h1 : ¬cond1_1 (grid1.coords t)) :
    outsAt1 V c t.val t.isLt = (unread1, sout1_A_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)) := by
  obtain ⟨n, hn⟩ := t
  cases n with
  | zero => exact (dif_neg h1).trans (dif_pos h0)
  | succ n => exact (dif_neg h1).trans (dif_pos h0)

theorem outsAt1_B (c : Dev nD) (t : Fin cfg1.N) (hz : t.val ≠ 0) (h0 : ¬cond1_0 (grid1.coords t)) (h1 : ¬cond1_1 (grid1.coords t)) :
    outsAt1 V c t.val t.isLt = (unread1, sout1_B_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2) :=
  (outsAt1_pos V c t hz).trans ((dif_neg h1).trans (dif_neg h0))

theorem outsAt1_C (c : Dev nD) (t : Fin cfg1.N) (hz : t.val ≠ 0) (h0 : ¬cond1_0 (grid1.coords t)) (h1 : cond1_1 (grid1.coords t)) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2) :=
  (outsAt1_pos V c t hz).trans ((dif_pos h1).trans (dif_neg h0))

/-! ## The invariant between grid points -/

/-- Before position `n`: at the start what the pipeline hands over; afterwards the accumulator at what the point
    before left, the other call's buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ others1 c) ∗ (∃ r, prngReg c r)) := by
  cases n with
  | zero => exact absurd rfl hz
  | succ n => rfl

/-! ## The call's proof data -/

/-- Call 1 on core `c`: the arrays as the call finds them; after the body each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t) : (dat1 V c).owed t = 0 := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any grid point: the reduction coordinate says which kind of step it is; the invariant hands the
    accumulator over at what the point before left (at anything before a first step) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h1 : cond1_1 (grid1.coords t)
  · have h0 : ¬cond1_0 (grid1.coords t) := fun h => by
      have a := (hcond1_0 t).mp h; have b := (hcond1_1 t).mp h1; omega
    have hz : t.val ≠ 0 := fun e => by have b := (hcond1_1 t).mp h1; omega
    rw [show (dat1 V c).leavesExact 3 t = owns (c : Thread nD τ) (ms1_3 t) fullShare ((dat1 V c).after 3 t) from by
      unfold Dat.leavesExact; rw [liveAt1_3 t h1], after1_3]
    rw [outsAt1_C V c t hz h0 h1]
    unfold out1_C_3 sout1_C_0; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩⟩
    iapply ((kernelRun1_C c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_C_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat1 V c) 3 t (idleAt1_3 t h1) (noFlush1_3 t h1)]
    by_cases h0 : cond1_0 (grid1.coords t)
    · rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_to c) $$ HΦ
        icases HΦ' with ⟨⟨HS0, Hoth⟩, Hg⟩
        iapply ((kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun e => h0 ((hcond1_0 t).mpr (by rw [e]))
      rw [outsAt1_B V c t hz h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the pipeline hands the call is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the accumulator's contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  have h : ∀ x : Vec F S4096x128 .f32, (iprop((owns (c : Thread nD τ) scM1_0 fullShare x ∗ others1 c) ∗ (∃ r, prngReg c r)) : sProp 𝕄)
      ⊢ iprop(((∃ d, owns (c : Thread nD τ) scM1_0 fullShare d) ∗ others1 c) ∗ (∃ r, prngReg c r)) := fun x => by
    iintro ⟨⟨HS0, Hoth⟩, Hg⟩
    isplitl [HS0 Hoth]
    · isplitl [HS0]; · iexists _; iexact HS0
      iexact Hoth
    iexact Hg
  exact (h _).trans (PhiA1_of c)

end Cert.Kernel.Hand

end
-- ==== Proof.K.Segs.lean ====
import proofs.«126341_j35888746725725_2_alg».proof.Proof.Gen.Kernel.Launch
import proofs.«126341_j35888746725725_2_alg».proof.Proof.Gen.Kernel.Skeleton
import proofs.«126341_j35888746725725_2_alg».proof.Proof.Gen.Kernel.Points
import proofs.«126341_j35888746725725_2_alg».proof.Proof.Gen.Kernel.Regions
import proofs.«126341_j35888746725725_2_alg».proof.Proof.K.R0Frame
import proofs.«126341_j35888746725725_2_alg».proof.Proof.K.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is five items: a stretch of host operations, the first kernel region, a second stretch, the second
kernel region, a last stretch. Between two items a core's unscoped buffers hold a definite valuation, a fold
from the launch memory `m`: a stretch applies its operations in order (`StableHlo.after`), a region leaves
each of its windows' arrays at what its write-backs make of it (`Dat.arrAt … N`: an input array as entered,
the output array with every flushed block written) and every other buffer as entered (`Pipeline.withArrays`). -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: what the program returns from. -/
abbrev W5 : Dev nD → Valuation τ sig (Elt F) := fun c => StableHlo.after hostOps2 (W4 m ρ c)

/-! ## One level of the fold at a time

A stretch leaves alone every buffer it does not write; a region leaves alone every buffer that is not one of
its windows' arrays, and its input windows' arrays too. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-! ## The arguments at every level

No stretch writes an argument and no region has one as an output window's array (the adjacency matrix
`main_arg1` is an input window's array of both regions): at every boundary each argument's buffer holds its
launch contents. -/

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (W2_in m ρ c 0 rfl).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_in m ρ c 0 rfl).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)

/-! ## The computed buffers, one level at a time

Each lemma opens ONE level of the fold: a stretch's result buffer as its operation applied to the level
below, a region's output array as the fold of its write-backs over its proof data at the level below. -/

/-- Region 0's output array at its exit: every block its grid wrote back. -/
theorem W2_main_v2 (c : Dev nD) : W2 m ρ c (Proc.devRef .tc main_v2) = (dat0 (V1 m ρ) c).arrAt 3 cfg0.N := W2_arr m ρ c 3
/-- Region 1's output array at its exit. -/
theorem W4_main_v5 (c : Dev nD) : W4 m ρ c (Proc.devRef .tc main_v5) = (dat1 (V3 m ρ) c).arrAt 3 cfg1.N := W4_arr m ρ c 3

/-- The first stretch's product: the features times the first weight matrix. -/
theorem W1_main_v0 (c : Dev nD) : W1 m ρ c (Proc.devRef .tc main_v0)
    = Host.dotGeneral dot_S16384x128_S128x128_S16384x128_1_0_0_1_n_n (some .fp32)
        (m ((c : Thread nD τ).loc main_arg0)) (m ((c : Thread nD τ).loc main_arg2)) := by
  show StableHlo.after hostOps0 _ (Proc.devRef .tc main_v0) = _
  after_results
/-- The first stretch's reshape: the first bias as one row. -/
theorem W1_main_v1 (c : Dev nD) : W1 m ρ c (Proc.devRef .tc main_v1)
    = shapeCast S1x128 (m ((c : Thread nD τ).loc main_arg3)) shapeCasts_S128_S1x128 := by
  show StableHlo.after hostOps0 _ (Proc.devRef .tc main_v1) = _
  after_results; rfl
/-- The second stretch's product: region 0's output times the second weight matrix. -/
theorem W3_main_v3 (c : Dev nD) : W3 m ρ c (Proc.devRef .tc main_v3)
    = Host.dotGeneral dot_S16384x128_S128x128_S16384x128_1_0_0_1_n_n (some .fp32)
        (W2 m ρ c (Proc.devRef .tc main_v2)) (W2 m ρ c (Proc.devRef .tc main_arg4)) := by
  show StableHlo.after hostOps1 _ (Proc.devRef .tc main_v3) = _
  after_results
/-- The second stretch's reshape: the second bias as one row. -/
theorem W3_main_v4 (c : Dev nD) : W3 m ρ c (Proc.devRef .tc main_v4)
    = shapeCast S1x128 (W2 m ρ c (Proc.devRef .tc main_arg5)) shapeCasts_S128_S1x128 := by
  show StableHlo.after hostOps1 _ (Proc.devRef .tc main_v4) = _
  after_results; rfl
/-- The last stretch: region 1's output times the third weight matrix, plus the third bias broadcast over the rows. -/
theorem W5_main_v9 (c : Dev nD) : W5 m ρ c (Proc.devRef .tc main_v9)
    = addf (Host.dotGeneral dot_S16384x128_S128x2_S16384x2_1_0_0_1_n_n (some .fp32)
          (W4 m ρ c (Proc.devRef .tc main_v5)) (W4 m ρ c (Proc.devRef .tc main_arg6)))
        (broadcastInDim S16384x2 ![0, 1] bcast_S1x2_S16384x2_0_1
          (broadcastInDim S1x2 ![1] bcast_S2_S1x2_1 (W4 m ρ c (Proc.devRef .tc main_arg7)))) := by
  show StableHlo.after hostOps2 _ (Proc.devRef .tc main_v9) = _
  after_results

/-! ### The same, at the references the regions' proof data read, with the arguments at their launch contents -/

theorem V1_main_arg1 (c : Dev nD) : V1 m ρ c main_arg1 = m ((c : Thread nD τ).loc main_arg1) := W1_main_arg1 m ρ c
theorem V1_main_v0 (c : Dev nD) : V1 m ρ c main_v0
    = Host.dotGeneral dot_S16384x128_S128x128_S16384x128_1_0_0_1_n_n (some .fp32)
        (m ((c : Thread nD τ).loc main_arg0)) (m ((c : Thread nD τ).loc main_arg2)) := W1_main_v0 m ρ c
theorem V1_main_v1 (c : Dev nD) : V1 m ρ c main_v1
    = shapeCast S1x128 (m ((c : Thread nD τ).loc main_arg3)) shapeCasts_S128_S1x128 := W1_main_v1 m ρ c
theorem V3_main_arg1 (c : Dev nD) : V3 m ρ c main_arg1 = m ((c : Thread nD τ).loc main_arg1) := W3_main_arg1 m ρ c
theorem V3_main_v3 (c : Dev nD) : V3 m ρ c main_v3
    = Host.dotGeneral dot_S16384x128_S128x128_S16384x128_1_0_0_1_n_n (some .fp32)
        ((dat0 (V1 m ρ) c).arrAt 3 cfg0.N) (m ((c : Thread nD τ).loc main_arg4)) := by
  rw [← W2_main_v2 m ρ c, ← W2_main_arg4 m ρ c]; exact W3_main_v3 m ρ c
theorem V3_main_v4 (c : Dev nD) : V3 m ρ c main_v4
    = shapeCast S1x128 (m ((c : Thread nD τ).loc main_arg5)) shapeCasts_S128_S1x128 := by
  rw [← W2_main_arg5 m ρ c]; exact W3_main_v4 m ρ c
/-- The returned buffer, with region 1's output array named and the last two arguments at their launch contents. -/
theorem W5_main_v9_eq (c : Dev nD) : W5 m ρ c (Proc.devRef .tc main_v9)
    = addf (Host.dotGeneral dot_S16384x128_S128x2_S16384x2_1_0_0_1_n_n (some .fp32)
          ((dat1 (V3 m ρ) c).arrAt 3 cfg1.N) (m ((c : Thread nD τ).loc main_arg6)))
        (broadcastInDim S16384x2 ![0, 1] bcast_S1x2_S16384x2_0_1
          (broadcastInDim S1x2 ![1] bcast_S2_S1x2_1 (m ((c : Thread nD τ).loc main_arg7)))) := by
  rw [← W4_main_v5 m ρ c, ← W4_main_arg6 m ρ c, ← W4_main_arg7 m ρ c]; exact W5_main_v9 m ρ c

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

omit m ρ in
/-- A core that owes nothing, whatever pairs it has recorded, owes what proof data owing nothing at a point with no
    bound on the recorded pairs say there. -/
theorem owesAt_of_zero {cfg : Pipeline.Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (show x ∈ dat.recorded t by rw [hr]; exact Set.mem_univ x)
  iexact HO
omit m ρ in
/-- and back. -/
theorem owes_of_owesAt {cfg : Pipeline.Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! # The regions as segments -/

set_option backward.isDefEq.respectTransparency.types false in
/-- REGION 0 over the thread state: entered from every unscoped buffer at `W1`, left at `W2`. Its windows'
    arrays are split out of the unscoped buffers at the entry and put back, at what the write-backs left, at the
    exit; the generator register and the scoped buffers no window stages go into the body's invariant at the first
    point and come back from it at the last; the core owes nothing throughout. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      (fun w => share0 (V1 m ρ) c w) (V1 m ρ c) fun w => A_eq0 (V1 m ρ) c w
    rw [Pipeline.unscopedBufs_held] at hsplit
    have howes := owesAt_of_zero (pdats m ρ 0 c) 0 (owed0 (V1 m ρ) c 0) (recorded0 (V1 m ρ) c 0)
    iintro ⟨⟨Hub, Hp, HO⟩, -, -⟩
    ihave H := hsplit $$ Hub
    icases H with ⟨Ha, Hrest⟩
    ihave HO' := howes $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) (fun w => share0 (V1 m ρ) c w)
      (V1 m ρ c) (V2 m ρ c) ((pdats m ρ 0 c).arrAt · cfg0.N) (hF0 m ρ c) (hrest0 m ρ c)
    rw [Pipeline.unscopedBufs_held] at hjoin
    have howes := owes_of_owesAt (pdats m ρ 0 c) (Fin.last _) (owed0 (V1 m ρ) c _)
    iintro ⟨Ha, HO, HY, Hrest⟩
    ihave HO' := howes $$ HO
    imodintro
    isplitl [Ha Hrest]
    · iapply hjoin; isplitl [Ha] <;> iassumption
    isplitl [HY]; · iexact HY
    iexact HO'

set_option backward.isDefEq.respectTransparency.types false in
/-- REGION 1 over the thread state: entered from every unscoped buffer at `W3`, left at `W4`. Its windows'
    arrays are split out of the unscoped buffers at the entry and put back, at what the write-backs left, at the
    exit; the generator register and the scoped buffers no window stages go into the body's invariant at the first
    point and come back from it at the last; the core owes nothing throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      (fun w => share1 (V3 m ρ) c w) (V3 m ρ c) fun w => A_eq1 (V3 m ρ) c w
    rw [Pipeline.unscopedBufs_held] at hsplit
    have howes := owesAt_of_zero (pdats m ρ 1 c) 0 (owed1 (V3 m ρ) c 0) (recorded1 (V3 m ρ) c 0)
    iintro ⟨⟨Hub, Hp, HO⟩, -, -⟩
    ihave H := hsplit $$ Hub
    icases H with ⟨Ha, Hrest⟩
    ihave HO' := howes $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) (fun w => share1 (V3 m ρ) c w)
      (V3 m ρ c) (V4 m ρ c) ((pdats m ρ 1 c).arrAt · cfg1.N) (hF1 m ρ c) (hrest1 m ρ c)
    rw [Pipeline.unscopedBufs_held] at hjoin
    have howes := owes_of_owesAt (pdats m ρ 1 c) (Fin.last _) (owed1 (V3 m ρ) c _)
    iintro ⟨Ha, HO, HY, Hrest⟩
    ihave HO' := howes $$ HO
    imodintro
    isplitl [Ha Hrest]
    · iapply hjoin; isplitl [Ha] <;> iassumption
    isplitl [HY]; · iexact HY
    iexact HO'

/-! # @main as segments, and the launch -/

/-- @main's five items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each core's unscoped buffers hold the last boundary's contents `W5`
    — whatever is then read off them (`hQ`). -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE FRAME: every weakly fair execution of @main from `m` with zero counters terminates, nothing faulting, and every
    final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reads m ρ fun s h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩

/-- THE RUN WITH ITS VALUE: the same, and the returned buffer `main_v9` ends at the last boundary's contents. -/
theorem run_value : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reads m ρ fun s h c =>
    ⟨h c _ (mem_uc main_v9 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩

end Cert.Kernel.Hand

end
-- ==== Proof.KI.R0Base.lean ====
import proofs.«126341_j35888746725725_2_alg».proof.Proof.Gen.KernelIdeal.Launch
import proofs.«126341_j35888746725725_2_alg».proof.Proof.Gen.KernelIdeal.Skeleton
import proofs.«126341_j35888746725725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of call 0 -/

/-- Window `w`'s block at grid point `t`, read off its array as the call finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The adjacency tile's staging buffer holds block (i, k) at every point: it is fetched at every point. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The projected features are resident: fetched once, their block index never moves, so the buffer holds the whole
    array at every point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The bias row is resident in the same way. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The two conditions on the reduction coordinate -/

/-- "first step of the reduction": the coordinate k is 0. -/
abbrev cond0_0 (i : grid0.Coords) : Prop := (Scalar.cmpi .ne (Scalar.extui (Scalar.cmpi .eq (BitVec.ofNat 32 (i 1).val) 0#32)) 0#32) = 1#1
/-- Over the 64 points in row-major order (i, k) = (t / 16, t % 16): k = 0. -/
theorem hcond0_0 : ∀ t : Fin cfg0.N, cond0_0 (grid0.coords t) ↔ t.val % 16 = 0 :=
  (by decide +kernel : ∀ t : Fin grid0.N, cond0_0 (grid0.coords t) ↔ t.val % 16 = 0)

/-- "last step of the reduction": the coordinate k is 15. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

/-! ## Where the windows are live -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
/-- Before the last step nothing is stored into the output block, and it is not written back. -/
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
/-- At the last step the output block is stored. -/
theorem liveAt0_3 : ∀ t : Fin cfg0.N, cond0_1 (grid0.coords t) → cfg0.idle 3 (grid0.coords t) = false := by decide +kernel

/-! ## The buffers the body is called with -/

/-- A staging buffer of the output window, through which its contents are stated. -/
abbrev VO0_3 : View sig .tc .vmem S4096x128 .f32 := (Memref.whole cc0_stg3_0 : Memref sig .tc .vmem S4096x128 .f32).view
abbrev ms0_0 (t : Fin cfg0.N) : Memref sig .tc .vmem S4096x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S16384x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x128 .f32 := win0_3.stage (cfg0.slots t 3)
abbrev hs0_3 (t : Fin cfg0.N) : (ms0_3 t).IsWhole := hstage0_3 ((cfg0.slots t 3).cast nbuf0_3)
/-- The accumulator: a whole scoped buffer of the call's own. -/
abbrev scM0_0 : Memref sig .tc .vmem S4096x128 .f32 := Memref.whole cc0_scratch0
abbrev VS0_0 : View sig .tc .vmem S4096x128 .f32 := scM0_0.view

/-- The core's scoped buffers other than this call's staging buffers and accumulator, each at some contents: they
    belong to the other call and ride along untouched. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f))

/-- What the pipeline hands the body beside the windows: the accumulator at some contents, the other call's buffers,
    the generator register. -/
theorem PhiA0_eq (c : Dev nD) :
    (Pipeline.ΦA spec0 c : sProp 𝕄)
      = iprop(((∃ d, owns (c : Thread nD τ) scM0_0 fullShare d) ∗ others0 c) ∗ (∃ r, prngReg c r)) := by
  unfold Pipeline.ΦA others0; rw [scopedRest0_eq]; simp only [scM0_0, owns_whole]
  rfl

theorem PhiA0_to (c : Dev nD) : (Pipeline.ΦA spec0 c : sProp 𝕄) ⊢ iprop(((∃ d, owns (c : Thread nD τ) scM0_0 fullShare d) ∗ others0 c) ∗ (∃ r, prngReg c r)) := by
  rw [PhiA0_eq]
theorem PhiA0_of (c : Dev nD) : iprop(((∃ d, owns (c : Thread nD τ) scM0_0 fullShare d) ∗ others0 c) ∗ (∃ r, prngReg c r)) ⊢ (Pipeline.ΦA spec0 c : sProp 𝕄) := by
  rw [PhiA0_eq]

end Cert.KernelIdeal.Hand

end
-- ==== Proof.KI.R0RunA.lean ====
import proofs.«126341_j35888746725725_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 0 at the FIRST step of a row block's reduction (k = 0): the accumulator, found at anything, is zeroed and takes the first partial product; nothing is stored into the output block, which is handed back as found. The pieces each written buffer ends with are the witness the symbolic run finds. -/
noncomputable def kernelRun0_A (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i)
    (x0 : Vec F S4096x1024 .f32) (x1 : Vec F S16384x128 .f32) (x2 : Vec F S1x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunB.lean ====
import proofs.«126341_j35888746725725_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 0 at a MIDDLE step (0 < k < 15): the accumulator, found at what the step before left, takes one more partial product; the output block is handed back as found. The pieces each written buffer ends with are the witness the symbolic run finds. -/
noncomputable def kernelRun0_B (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨[], ?_, fun xi3 E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R0RunC.lean ====
import proofs.«126341_j35888746725725_2_alg».proof.Proof.KI.R0Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 0 at the LAST step (k = 15): the accumulator takes the last partial product and the output block is stored from it. The pieces each written buffer ends with are the witness the symbolic run finds. -/
noncomputable def kernelRun0_C (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc0_kernel i arg2 harg2 arg3 harg3 arg4 harg4 arg5 harg5 arg6 harg6) K } := by
  refine ⟨?_, ?_, fun E K => ?run⟩
  case run =>
    simp only [cc0_kernel_eq_skeleton]; unfold cc0_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R0Frame.lean ====
import proofs.«126341_j35888746725725_2_alg».proof.Proof.KI.R0RunA
import proofs.«126341_j35888746725725_2_alg».proof.Proof.KI.R0RunB
import proofs.«126341_j35888746725725_2_alg».proof.Proof.KI.R0RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each step leaves in the accumulator and in the output block -/

/-- The stores of a step of kind A into the accumulator tile it. -/
theorem scover0_A_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i) (x0 : Vec F S4096x1024 .f32) (x1 : Vec F S16384x128 .f32) (x2 : Vec F S1x128 .f32) (y : S4096x128.Idx) :
    ∃ pc ∈ (kernelRun0_A c i arg2 harg2 arg3 harg3 arg4 harg4 arg5 harg5 arg6 harg6 hc0 hc1 x0 x1 x2).2.1, y ∈ pc.1.set :=
  View.cover_of_tiledL (kernelRun0_A c i arg2 harg2 arg3 harg3 arg4 harg4 arg5 harg5 arg6 harg6 hc0 hc1 x0 x1 x2).2.1 S4096x128.size (by sl_kernel_rfl) y

/-- What a step of kind A leaves in the accumulator. -/
def sout0_A_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i) (x0 : Vec F S4096x1024 .f32) (x1 : Vec F S16384x128 .f32) (x2 : Vec F S1x128 .f32) : Vec F S4096x128 .f32 :=
  VS0_0.read (Elt F) (VS0_0.writes (Elt F) VS0_0.junk (kernelRun0_A c i arg2 harg2 arg3 harg3 arg4 harg4 arg5 harg5 arg6 harg6 hc0 hc1 x0 x1 x2).2.1)

/-- The stores of a step of kind B into the accumulator tile it. -/
theorem scover0_B_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i) (x0 : Vec F S4096x1024 .f32) (x1 : Vec F S16384x128 .f32) (x2 : Vec F S1x128 .f32) (xs0 : Vec F S4096x128 .f32) (y : S4096x128.Idx) :
    ∃ pc ∈ (kernelRun0_B c i arg2 harg2 arg3 harg3 arg4 harg4 arg5 harg5 arg6 harg6 hc0 hc1 x0 x1 x2 xs0).2.1, y ∈ pc.1.set :=
  View.cover_of_tiledL (kernelRun0_B c i arg2 harg2 arg3 harg3 arg4 harg4 arg5 harg5 arg6 harg6 hc0 hc1 x0 x1 x2 xs0).2.1 S4096x128.size (by sl_kernel_rfl) y

/-- What a step of kind B leaves in the accumulator. -/
def sout0_B_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i) (x0 : Vec F S4096x1024 .f32) (x1 : Vec F S16384x128 .f32) (x2 : Vec F S1x128 .f32) (xs0 : Vec F S4096x128 .f32) : Vec F S4096x128 .f32 :=
  VS0_0.read (Elt F) (VS0_0.writes (Elt F) VS0_0.junk (kernelRun0_B c i arg2 harg2 arg3 harg3 arg4 harg4 arg5 harg5 arg6 harg6 hc0 hc1 x0 x1 x2 xs0).2.1)

/-- The stores of a step of kind C into the accumulator tile it. -/
theorem scover0_C_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) (y : S4096x128.Idx) :
    ∃ pc ∈ (kernelRun0_C c i arg2 harg2 arg3 harg3 arg4 harg4 arg5 harg5 arg6 harg6 hc0 hc1 x0 x1 x2 xs0).2.1, y ∈ pc.1.set :=
  View.cover_of_tiledL (kernelRun0_C c i arg2 harg2 arg3 harg3 arg4 harg4 arg5 harg5 arg6 harg6 hc0 hc1 x0 x1 x2 xs0).2.1 S4096x128.size (by sl_kernel_rfl) y

/-- What a step of kind C leaves in the accumulator. -/
def sout0_C_0 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) : Vec F S4096x128 .f32 :=
  VS0_0.read (Elt F) (VS0_0.writes (Elt F) VS0_0.junk (kernelRun0_C c i arg2 harg2 arg3 harg3 arg4 harg4 arg5 harg5 arg6 harg6 hc0 hc1 x0 x1 x2 xs0).2.1)

/-- The last step's store into the output block covers it. -/
theorem cover0_C_3 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) (y : S4096x128.Idx) :
    ∃ pc ∈ (kernelRun0_C c i arg2 harg2 arg3 harg3 arg4 harg4 arg5 harg5 arg6 harg6 hc0 hc1 x0 x1 x2 xs0).1, y ∈ pc.1.set :=
  View.cover_of_tiledL (kernelRun0_C c i arg2 harg2 arg3 harg3 arg4 harg4 arg5 harg5 arg6 harg6 hc0 hc1 x0 x1 x2 xs0).1 S4096x128.size (by sl_kernel_rfl) y

/-- What the last step leaves in the output block. -/
def out0_C_3 (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) : Vec F S4096x128 .f32 :=
  VO0_3.read (Elt F) (VO0_3.writes (Elt F) VO0_3.junk (kernelRun0_C c i arg2 harg2 arg3 harg3 arg4 harg4 arg5 harg5 arg6 harg6 hc0 hc1 x0 x1 x2 xs0).1)

variable (V : (c : Dev nD) → (b : Ref sig .tc) → Buf (Elt F) ((c : Thread nD τ).loc b))

/-- A value nothing reads: the output block's nominal contents at the steps that do not store it, and the
    accumulator's nominal predecessor at a first step. -/
def unread0 : Vec F S4096x128 .f32 := VO0_3.read (Elt F) VO0_3.junk

/-! ## The accumulation along the grid -/

/-- One grid point: (output block, accumulator) after the body at point `t`, given the accumulator `prev` the point
    before left. The kind of step is read off the reduction coordinate. -/
def stepAt0 (c : Dev nD) (t : Fin cfg0.N) (prev : Vec F S4096x128 .f32) : Vec F S4096x128 .f32 × Vec F S4096x128 .f32 :=
  if h1 : cond0_1 (grid0.coords t) then
    if h0 : cond0_0 (grid0.coords t) then (unread0, unread0)
    else (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev)
  else
    if h0 : cond0_0 (grid0.coords t) then (unread0, sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t))
    else (unread0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) prev)

/-- (output block, accumulator) after the body at position `n` of the grid, by recursion on the position. -/
def outsAt0 (c : Dev nD) : (n : ℕ) → n < cfg0.N → Vec F S4096x128 .f32 × Vec F S4096x128 .f32
  | 0, hn => stepAt0 V c ⟨0, hn⟩ unread0
  | n + 1, hn => stepAt0 V c ⟨n + 1, hn⟩ (outsAt0 c n (Nat.lt_of_succ_lt hn)).2

theorem outsAt0_pos (c : Dev nD) (t : Fin cfg0.N) (hz : t.val ≠ 0) :
    outsAt0 V c t.val t.isLt = stepAt0 V c t (outsAt0 V c (t.val - 1) (Nat.lt_of_le_of_lt (Nat.sub_le _ _) t.isLt)).2 := by
  obtain ⟨n, hn⟩ := t
  cases n with
  | zero => exact absurd rfl hz
  | succ n => rfl

theorem outsAt0_A (c : Dev nD) (t : Fin cfg0.N) (h0 : cond0_0 (grid0.coords t)) (h1 : ¬cond0_1 (grid0.coords t)) :
    outsAt0 V c t.val t.isLt = (unread0, sout0_A_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)) := by
  obtain ⟨n, hn⟩ := t
  cases n with
  | zero => exact (dif_neg h1).trans (dif_pos h0)
  | succ n => exact (dif_neg h1).trans (dif_pos h0)

theorem outsAt0_B (c : Dev nD) (t : Fin cfg0.N) (hz : t.val ≠ 0) (h0 : ¬cond0_0 (grid0.coords t)) (h1 : ¬cond0_1 (grid0.coords t)) :
    outsAt0 V c t.val t.isLt = (unread0, sout0_B_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2) :=
  (outsAt0_pos V c t hz).trans ((dif_neg h1).trans (dif_neg h0))

theorem outsAt0_C (c : Dev nD) (t : Fin cfg0.N) (hz : t.val ≠ 0) (h0 : ¬cond0_0 (grid0.coords t)) (h1 : cond0_1 (grid0.coords t)) :
    outsAt0 V c t.val t.isLt = (out0_C_3 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) (outsAt0 V c (t.val - 1) (Nat.lt_of_le_of_lt (Nat.sub_le _ _) t.isLt)).2) :=
  (outsAt0_pos V c t hz).trans ((dif_pos h1).trans (dif_neg h0))

/-! ## The invariant between grid points -/

/-- Before position `n`: at the start what the pipeline hands over; afterwards the accumulator at what the point
    before left, the other call's buffers at anything, the generator register at some state. -/
def PhiS0 (c : Dev nD) : (n : ℕ) → n ≤ cfg0.N → sProp 𝕄
  | 0, _ => Pipeline.ΦA spec0 c
  | n + 1, hn => iprop((owns (c : Thread nD τ) scM0_0 fullShare ((outsAt0 V c n hn).2) ∗ others0 c) ∗ (∃ r, prngReg c r))

theorem PhiS0_zero (c : Dev nD) (n : ℕ) (h : n ≤ cfg0.N) (hz : n = 0) : PhiS0 V c n h = Pipeline.ΦA spec0 c := by
  subst hz; rfl

theorem PhiS0_succ (c : Dev nD) (n : ℕ) (hn : n < cfg0.N) :
    PhiS0 V c (n + 1) hn = iprop((owns (c : Thread nD τ) scM0_0 fullShare ((outsAt0 V c n hn).2) ∗ others0 c) ∗ (∃ r, prngReg c r)) := rfl

theorem PhiS0_pos (c : Dev nD) (n : ℕ) (h : n ≤ cfg0.N) (hz : n ≠ 0) :
    PhiS0 V c n h = iprop((owns (c : Thread nD τ) scM0_0 fullShare ((outsAt0 V c (n - 1) (by omega)).2) ∗ others0 c) ∗ (∃ r, prngReg c r)) := by
  cases n with
  | zero => exact absurd rfl hz
  | succ n => rfl

/-! ## The call's proof data -/

/-- Call 0 on core `c`: the arrays as the call finds them; after the body each input's buffer at its block and the
    output's at `outsAt0`; the invariant `PhiS0`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem share0 (c : Dev nD) (w : Fin cfg0.W) : (dat0 V c).share w = fullShare :=
  (dat0 V c).share_full (fun _ => rfl) w
theorem owed0 (c : Dev nD) (t) : (dat0 V c).owed t = 0 := rfl
theorem recorded0 (c : Dev nD) (t) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem leaves0_0 (c : Dev nD) (t : Fin cfg0.N) : (dat0 V c).leavesExact 0 t = owns (c : Thread nD τ) (ms0_0 t) fullShare (iblk0 V c 0 t) := by
  unfold Dat.leavesExact; rw [liveAt0_0 t, after0_0]
theorem leaves0_1 (c : Dev nD) (t : Fin cfg0.N) : (dat0 V c).leavesExact 1 t = owns (c : Thread nD τ) (ms0_1 t) fullShare (iblk0 V c 1 t) := by
  unfold Dat.leavesExact; rw [liveAt0_1 t, after0_1]
theorem leaves0_2 (c : Dev nD) (t : Fin cfg0.N) : (dat0 V c).leavesExact 2 t = owns (c : Thread nD τ) (ms0_2 t) fullShare (iblk0 V c 2 t) := by
  unfold Dat.leavesExact; rw [liveAt0_2 t, after0_2]

set_option maxHeartbeats 4800000 in
/-- The body at any grid point: the reduction coordinate says which kind of step it is; the invariant hands the
    accumulator over at what the point before left (at anything before a first step) and takes it back at this
    point's contents. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ]
  rw [leaves0_0, leaves0_1, leaves0_2]
  have hN : t.val < 64 := lt_of_lt_of_eq t.isLt (show cfg0.N = 64 from N_0)
  by_cases h1 : cond0_1 (grid0.coords t)
  · have h0 : ¬cond0_0 (grid0.coords t) := fun h => by
      have a := (hcond0_0 t).mp h; have b := (hcond0_1 t).mp h1; omega
    have hz : t.val ≠ 0 := fun e => by have b := (hcond0_1 t).mp h1; omega
    rw [show (dat0 V c).leavesExact 3 t = owns (c : Thread nD τ) (ms0_3 t) fullShare ((dat0 V c).after 3 t) from by
      unfold Dat.leavesExact; rw [liveAt0_3 t h1], after0_3]
    rw [outsAt0_C V c t hz h0 h1]
    unfold out0_C_3 sout0_C_0; (try dsimp only)
    rw [PhiS0_castSucc V c t, PhiS0_pos V c _ _ hz]
    iintro ⟨⟨⟨HS0, Hoth⟩, Hg⟩, Ho, ⟨%d0, H0⟩, ⟨%d1, H1⟩, ⟨%d2, H2⟩, ⟨%d3, H3⟩⟩
    iapply ((kernelRun0_C c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover0_C_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover0_C_3 c _ _ _ _ _ _ _ _ _ _ _ _ _ _ _ _ _)
  · rw [Dat.leavesExact_idle (dat0 V c) 3 t (idleAt0_3 t h1) (noFlush0_3 t h1)]
    by_cases h0 : cond0_0 (grid0.coords t)
    · rw [outsAt0_A V c t h0 h1]
      unfold sout0_A_0; (try dsimp only)
      by_cases hz : t.val = 0
      · rw [PhiS0_castSucc V c t, PhiS0_zero V c _ _ hz]
        iintro ⟨HΦ, Ho, ⟨%d0, H0⟩, ⟨%d1, H1⟩, ⟨%d2, H2⟩, ⟨%d3, H3⟩⟩
        ihave HΦ' := (PhiA0_to c) $$ HΦ
        icases HΦ' with ⟨⟨HS0, Hoth⟩, Hg⟩
        iapply ((kernelRun0_A c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS0_castSucc V c t, PhiS0_pos V c _ _ hz]
        iintro ⟨⟨⟨HS0, Hoth⟩, Hg⟩, Ho, ⟨%d0, H0⟩, ⟨%d1, H1⟩, ⟨%d2, H2⟩, ⟨%d3, H3⟩⟩
        iapply ((kernelRun0_A c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover0_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun e => h0 ((hcond0_0 t).mpr (by rw [e]))
      rw [outsAt0_B V c t hz h0 h1]
      unfold sout0_B_0; (try dsimp only)
      rw [PhiS0_castSucc V c t, PhiS0_pos V c _ _ hz]
      iintro ⟨⟨⟨HS0, Hoth⟩, Hg⟩, Ho, ⟨%d0, H0⟩, ⟨%d1, H1⟩, ⟨%d2, H2⟩, ⟨%d3, H3⟩⟩
      iapply ((kernelRun0_B c (grid0.coords t) (ms0_0 t) (hs0_0 t) (ms0_1 t) (hs0_1 t) (ms0_2 t) (hs0_2 t) (ms0_3 t) (hs0_3 t) scM0_0 (Memref.isWhole_whole _) h0 h1 (iblk0 V c 0 t) (iblk0 V c 1 t) (iblk0 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover0_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation0 (c : Dev nD) : BodyObligation (dat0 (F := F) V c) (defs₀ (F := F)) Variants.none () Set.univ := fun t => by
  rw [bigSep_W0, bigSep_W0]
  exact sound_body0 V c t

/-- What the pipeline hands the call is the invariant before the first point. -/
theorem hin0 (c : Dev nD) : (Pipeline.ΦA spec0 c : sProp 𝕄) ⊢ (dat0 V c).Φ 0 := by
  rw [show (dat0 V c).Φ 0 = PhiS0 V c 0 (Nat.zero_le _) from rfl, PhiS0_zero V c 0 _ rfl]

/-- After the last point the accumulator's contents are forgotten. -/
theorem hout0 (c : Dev nD) : (dat0 V c).Φ (Fin.last cfg0.N) ⊢ (Pipeline.ΦA spec0 c : sProp 𝕄) := by
  have ht : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl, PhiS0_pos V c _ _ ht]
  have h : ∀ x : Vec F S4096x128 .f32, (iprop((owns (c : Thread nD τ) scM0_0 fullShare x ∗ others0 c) ∗ (∃ r, prngReg c r)) : sProp 𝕄)
      ⊢ iprop(((∃ d, owns (c : Thread nD τ) scM0_0 fullShare d) ∗ others0 c) ∗ (∃ r, prngReg c r)) := fun x => by
    iintro ⟨⟨HS0, Hoth⟩, Hg⟩
    isplitl [HS0 Hoth]
    · isplitl [HS0]; · iexists _; iexact HS0
      iexact Hoth
    iexact Hg
  exact (h _).trans (PhiA0_of c)

end Cert.KernelIdeal.Hand

end
-- ==== Proof.KI.R1Base.lean ====
import proofs.«126341_j35888746725725_2_alg».proof.Proof.Gen.KernelIdeal.Launch
import proofs.«126341_j35888746725725_2_alg».proof.Proof.Gen.KernelIdeal.Skeleton
import proofs.«126341_j35888746725725_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks of call 1 -/

/-- Window `w`'s block at grid point `t`, read off its array as the call finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The adjacency tile's staging buffer holds block (i, k) at every point: it is fetched at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The projected features are resident: fetched once, their block index never moves, so the buffer holds the whole
    array at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- The bias row is resident in the same way. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The two conditions on the reduction coordinate -/

/-- "first step of the reduction": the coordinate k is 0. -/
abbrev cond1_0 (i : grid1.Coords) : Prop := (Scalar.cmpi .ne (Scalar.extui (Scalar.cmpi .eq (BitVec.ofNat 32 (i 1).val) 0#32)) 0#32) = 1#1
/-- Over the 64 points in row-major order (i, k) = (t / 16, t % 16): k = 0. -/
theorem hcond1_0 : ∀ t : Fin cfg1.N, cond1_0 (grid1.coords t) ↔ t.val % 16 = 0 :=
  (by decide +kernel : ∀ t : Fin grid1.N, cond1_0 (grid1.coords t) ↔ t.val % 16 = 0)

/-- "last step of the reduction": the coordinate k is 15. -/
abbrev cond1_1 (i : grid1.Coords) : Prop := k1_cond2 i = 1#1
theorem hcond1_1 : ∀ t : Fin cfg1.N, cond1_1 (grid1.coords t) ↔ t.val % 16 = 15 :=
  (by decide +kernel : ∀ t : Fin grid1.N, cond1_1 (grid1.coords t) ↔ t.val % 16 = 15)

/-! ## Where the windows are live -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Before the last step nothing is stored into the output block, and it is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At the last step the output block is stored. -/
theorem liveAt1_3 : ∀ t : Fin cfg1.N, cond1_1 (grid1.coords t) → cfg1.idle 3 (grid1.coords t) = false := by decide +kernel

/-! ## The buffers the body is called with -/

/-- A staging buffer of the output window, through which its contents are stated. -/
abbrev VO1_3 : View sig .tc .vmem S4096x128 .f32 := (Memref.whole cc1_stg3_0 : Memref sig .tc .vmem S4096x128 .f32).view
abbrev ms1_0 (t : Fin cfg1.N) : Memref sig .tc .vmem S4096x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16384x128 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x128 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S4096x128 .f32 := win1_3.stage (cfg1.slots t 3)
abbrev hs1_3 (t : Fin cfg1.N) : (ms1_3 t).IsWhole := hstage1_3 ((cfg1.slots t 3).cast nbuf1_3)
/-- The accumulator: a whole scoped buffer of the call's own. -/
abbrev scM1_0 : Memref sig .tc .vmem S4096x128 .f32 := Memref.whole cc1_scratch0
abbrev VS1_0 : View sig .tc .vmem S4096x128 .f32 := scM1_0.view

/-- The core's scoped buffers other than this call's staging buffers and accumulator, each at some contents: they
    belong to the other call and ride along untouched. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f))

/-- What the pipeline hands the body beside the windows: the accumulator at some contents, the other call's buffers,
    the generator register — the same resources in another order. -/
theorem PhiA1_to (c : Dev nD) : (Pipeline.ΦA spec1 c : sProp 𝕄) ⊢ iprop(((∃ d, owns (c : Thread nD τ) scM1_0 fullShare d) ∗ others1 c) ∗ (∃ r, prngReg c r)) := by
  unfold Pipeline.ΦA others1; rw [scopedRest1_eq]; simp only [scM1_0, owns_whole]
  iintro ⟨⟨H1, H2, H3, H4, H5, H6, H7, HA⟩, Hp⟩
  isplitr [Hp]
  · isplitl [HA]; · iexact HA
    isplitl [H1]; · iexact H1
    isplitl [H2]; · iexact H2
    isplitl [H3]; · iexact H3
    isplitl [H4]; · iexact H4
    isplitl [H5]; · iexact H5
    isplitl [H6]; · iexact H6
    iexact H7
  iexact Hp
theorem PhiA1_of (c : Dev nD) : iprop(((∃ d, owns (c : Thread nD τ) scM1_0 fullShare d) ∗ others1 c) ∗ (∃ r, prngReg c r)) ⊢ (Pipeline.ΦA spec1 c : sProp 𝕄) := by
  unfold Pipeline.ΦA others1; rw [scopedRest1_eq]; simp only [scM1_0, owns_whole]
  iintro ⟨⟨HA, H1, H2, H3, H4, H5, H6, H7⟩, Hp⟩
  isplitr [Hp]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact HA
  iexact Hp

end Cert.KernelIdeal.Hand

end
-- ==== Proof.KI.R1RunA.lean ====
import proofs.«126341_j35888746725725_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 1 at the FIRST step of a row block's reduction (k = 0): the accumulator, found at anything, is zeroed and takes the first partial product; nothing is stored into the output block, which is handed back as found. The pieces each written buffer ends with are the witness the symbolic run finds. -/
noncomputable def kernelRun1_A (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i)
    (x0 : Vec F S4096x1024 .f32) (x1 : Vec F S16384x128 .f32) (x2 : Vec F S1x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunB.lean ====
import proofs.«126341_j35888746725725_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 1 at a MIDDLE step (0 < k < 15): the accumulator, found at what the step before left, takes one more partial product; the output block is handed back as found. The pieces each written buffer ends with are the witness the symbolic run finds. -/
noncomputable def kernelRun1_B (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (xi3 : Vec F S4096x128 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨[], ?_, fun xi3 E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Hand

end
-- ==== Proof.KI.R1RunC.lean ====
import proofs.«126341_j35888746725725_2_alg».proof.Proof.KI.R1Base

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body of call 1 at the LAST step (k = 15): the accumulator takes the last partial product and the output block is stored from it. The pieces each written buffer ends with are the witness the symbolic run finds. -/
noncomputable def kernelRun1_C (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i)
    (x0 : Vec F S4096x1024 .f32) (x1 : Vec F S16384x128 .f32) (x2 : Vec F S1x128 .f32) (xs0 : Vec F S4096x128 .f32) :
    Σ' (L3 : List (View.Piece (Elt F) S4096x128 .f32)), { LS0 : List (View.Piece (Elt F) S4096x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_kernel i arg2 harg2 arg3 harg3 arg4 harg4 arg5 harg5 arg6 harg6) K } := by
  refine ⟨?_, ?_, fun E K => ?run⟩
  case run =>
    simp only [cc1_kernel_eq_skeleton]; unfold cc1_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Hand

end
-- ==== Proof.KI.R1Frame.lean ====
import proofs.«126341_j35888746725725_2_alg».proof.Proof.KI.R1RunA
import proofs.«126341_j35888746725725_2_alg».proof.Proof.KI.R1RunB
import proofs.«126341_j35888746725725_2_alg».proof.Proof.KI.R1RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## What each step leaves in the accumulator and in the output block -/

/-- The stores of a step of kind A into the accumulator tile it. -/
theorem scover1_A_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i) (x0 : Vec F S4096x1024 .f32) (x1 : Vec F S16384x128 .f32) (x2 : Vec F S1x128 .f32) (y : S4096x128.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S4096x128.size (by sl_kernel_rfl) y

/-- What a step of kind A leaves in the accumulator. -/
def sout1_A_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i) (x0 : Vec F S4096x1024 .f32) (x1 : Vec F S16384x128 .f32) (x2 : Vec F S1x128 .f32) : Vec F S4096x128 .f32 :=
  VS1_0.read (Elt F) (VS1_0.writes (Elt F) VS1_0.junk (kernelRun1_A c i arg2 harg2 arg3 harg3 arg4 harg4 arg5 harg5 arg6 harg6 hc0 hc1 x0 x1 x2).2.1)

/-- The stores of a step of kind B into the accumulator tile it. -/
theorem scover1_B_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i) (x0 : Vec F S4096x1024 .f32) (x1 : Vec F S16384x128 .f32) (x2 : Vec F S1x128 .f32) (xs0 : Vec F S4096x128 .f32) (y : S4096x128.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S4096x128.size (by sl_kernel_rfl) y

/-- What a step of kind B leaves in the accumulator. -/
def sout1_B_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i) (x0 : Vec F S4096x1024 .f32) (x1 : Vec F S16384x128 .f32) (x2 : Vec F S1x128 .f32) (xs0 : Vec F S4096x128 .f32) : Vec F S4096x128 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- The stores of a step of kind C into the accumulator tile it. -/
theorem scover1_C_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) (y : S4096x128.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S4096x128.size (by sl_kernel_rfl) y

/-- What a step of kind C leaves in the accumulator. -/
def sout1_C_0 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) : Vec F S4096x128 .f32 :=
  VS1_0.read (Elt F) (VS1_0.writes (Elt F) VS1_0.junk (kernelRun1_C c i arg2 harg2 arg3 harg3 arg4 harg4 arg5 harg5 arg6 harg6 hc0 hc1 x0 x1 x2 xs0).2.1)

/-- The last step's store into the output block covers it. -/
theorem cover1_C_3 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) (y : S4096x128.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S4096x128.size (by sl_kernel_rfl) y

/-- What the last step leaves in the output block. -/
def out1_C_3 (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) : Vec F S4096x128 .f32 :=
  VO1_3.read (Elt F) (VO1_3.writes (Elt F) VO1_3.junk (kernelRun1_C c i arg2 harg2 arg3 harg3 arg4 harg4 arg5 harg5 arg6 harg6 hc0 hc1 x0 x1 x2 xs0).1)

variable (V : (c : Dev nD) → (b : Ref sig .tc) → Buf (Elt F) ((c : Thread nD τ).loc b))

/-- A value nothing reads: the output block's nominal contents at the steps that do not store it, and the
    accumulator's nominal predecessor at a first step. -/
def unread1 : Vec F S4096x128 .f32 := VO1_3.read (Elt F) VO1_3.junk

/-! ## The accumulation along the grid -/

/-- One grid point: (output block, accumulator) after the body at point `t`, given the accumulator `prev` the point
    before left. The kind of step is read off the reduction coordinate. -/
def stepAt1 (c : Dev nD) (t : Fin cfg1.N) (prev : Vec F S4096x128 .f32) : Vec F S4096x128 .f32 × Vec F S4096x128 .f32 :=
  if h1 : cond1_1 (grid1.coords t) then
    if h0 : cond1_0 (grid1.coords t) then (unread1, unread1)
    else (out1_C_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev, sout1_C_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)
  else
    if h0 : cond1_0 (grid1.coords t) then (unread1, sout1_A_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t))
    else (unread1, sout1_B_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) prev)

/-- (output block, accumulator) after the body at position `n` of the grid, by recursion on the position. -/
def outsAt1 (c : Dev nD) : (n : ℕ) → n < cfg1.N → Vec F S4096x128 .f32 × Vec F S4096x128 .f32
  | 0, hn => stepAt1 V c ⟨0, hn⟩ unread1
  | n + 1, hn => stepAt1 V c ⟨n + 1, hn⟩ (outsAt1 c n (Nat.lt_of_succ_lt hn)).2

theorem outsAt1_pos (c : Dev nD) (t : Fin cfg1.N) (hz : t.val ≠ 0) :
    outsAt1 V c t.val t.isLt = stepAt1 V c t (outsAt1 V c (t.val - 1) (Nat.lt_of_le_of_lt (Nat.sub_le _ _) t.isLt)).2 := by
  obtain ⟨n, hn⟩ := t
  cases n with
  | zero => exact absurd rfl hz
  | succ n => rfl

theorem outsAt1_A (c : Dev nD) (t : Fin cfg1.N) (h0 : cond1_0 (grid1.coords t)) (h1 : ¬cond1_1 (grid1.coords t)) :
    outsAt1 V c t.val t.isLt = (unread1, sout1_A_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)) := by
  obtain ⟨n, hn⟩ := t
  cases n with
  | zero => exact (dif_neg h1).trans (dif_pos h0)
  | succ n => exact (dif_neg h1).trans (dif_pos h0)

theorem outsAt1_B (c : Dev nD) (t : Fin cfg1.N) (hz : t.val ≠ 0) (h0 : ¬cond1_0 (grid1.coords t)) (h1 : ¬cond1_1 (grid1.coords t)) :
    outsAt1 V c t.val t.isLt = (unread1, sout1_B_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2) :=
  (outsAt1_pos V c t hz).trans ((dif_neg h1).trans (dif_neg h0))

theorem outsAt1_C (c : Dev nD) (t : Fin cfg1.N) (hz : t.val ≠ 0) (h0 : ¬cond1_0 (grid1.coords t)) (h1 : cond1_1 (grid1.coords t)) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) (outsAt1 V c (t.val - 1) (Nat.lt_of_le_of_lt (Nat.sub_le _ _) t.isLt)).2) :=
  (outsAt1_pos V c t hz).trans ((dif_pos h1).trans (dif_neg h0))

/-! ## The invariant between grid points -/

/-- Before position `n`: at the start what the pipeline hands over; afterwards the accumulator at what the point
    before left, the other call's buffers at anything, the generator register at some state. -/
def PhiS1 (c : Dev nD) : (n : ℕ) → n ≤ cfg1.N → sProp 𝕄
  | 0, _ => Pipeline.ΦA spec1 c
  | n + 1, hn => iprop((owns (c : Thread nD τ) scM1_0 fullShare ((outsAt1 V c n hn).2) ∗ others1 c) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop((owns (c : Thread nD τ) scM1_0 fullShare ((outsAt1 V c n hn).2) ∗ others1 c) ∗ (∃ r, prngReg c r)) := rfl

theorem PhiS1_pos (c : Dev nD) (n : ℕ) (h : n ≤ cfg1.N) (hz : n ≠ 0) :
    PhiS1 V c n h = iprop((owns (c : Thread nD τ) scM1_0 fullShare ((outsAt1 V c (n - 1) (by omega)).2) ∗ others1 c) ∗ (∃ r, prngReg c r)) := by
  cases n with
  | zero => exact absurd rfl hz
  | succ n => rfl

/-! ## The call's proof data -/

/-- Call 1 on core `c`: the arrays as the call finds them; after the body each input's buffer at its block and the
    output's at `outsAt1`; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem share1 (c : Dev nD) (w : Fin cfg1.W) : (dat1 V c).share w = fullShare :=
  (dat1 V c).share_full (fun _ => rfl) w
theorem owed1 (c : Dev nD) (t) : (dat1 V c).owed t = 0 := rfl
theorem recorded1 (c : Dev nD) (t) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

theorem leaves1_0 (c : Dev nD) (t : Fin cfg1.N) : (dat1 V c).leavesExact 0 t = owns (c : Thread nD τ) (ms1_0 t) fullShare (iblk1 V c 0 t) := by
  unfold Dat.leavesExact; rw [liveAt1_0 t, after1_0]
theorem leaves1_1 (c : Dev nD) (t : Fin cfg1.N) : (dat1 V c).leavesExact 1 t = owns (c : Thread nD τ) (ms1_1 t) fullShare (iblk1 V c 1 t) := by
  unfold Dat.leavesExact; rw [liveAt1_1 t, after1_1]
theorem leaves1_2 (c : Dev nD) (t : Fin cfg1.N) : (dat1 V c).leavesExact 2 t = owns (c : Thread nD τ) (ms1_2 t) fullShare (iblk1 V c 2 t) := by
  unfold Dat.leavesExact; rw [liveAt1_2 t, after1_2]

set_option maxHeartbeats 4800000 in
/-- The body at any grid point: the reduction coordinate says which kind of step it is; the invariant hands the
    accumulator over at what the point before left (at anything before a first step) and takes it back at this
    point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [leaves1_0, leaves1_1, leaves1_2]
  have hN : t.val < 64 := lt_of_lt_of_eq t.isLt (show cfg1.N = 64 from N_1)
  by_cases h1 : cond1_1 (grid1.coords t)
  · have h0 : ¬cond1_0 (grid1.coords t) := fun h => by
      have a := (hcond1_0 t).mp h; have b := (hcond1_1 t).mp h1; omega
    have hz : t.val ≠ 0 := fun e => by have b := (hcond1_1 t).mp h1; omega
    rw [show (dat1 V c).leavesExact 3 t = owns (c : Thread nD τ) (ms1_3 t) fullShare ((dat1 V c).after 3 t) from by
      unfold Dat.leavesExact; rw [liveAt1_3 t h1], after1_3]
    rw [outsAt1_C V c t hz h0 h1]
    unfold out1_C_3 sout1_C_0; (try dsimp only)
    rw [PhiS1_castSucc V c t, PhiS1_pos V c _ _ hz]
    iintro ⟨⟨⟨HS0, Hoth⟩, Hg⟩, Ho, ⟨%d0, H0⟩, ⟨%d1, H1⟩, ⟨%d2, H2⟩, ⟨%d3, H3⟩⟩
    iapply ((kernelRun1_C c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hoth Hg]
    · isplitl [HS0 Hoth]
      · isplitl [HS0]
        · unfold owns; iexists _; isplitr
          swap; · iexact HS0
          ipureintro; exact View.read_writes_of_cover _ _ _ _ _ (scover1_C_0 c _ _ _ _ _ _ _ _ _ _ _ _ _ _ _ _ _)
        iexact Hoth
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C_3 c _ _ _ _ _ _ _ _ _ _ _ _ _ _ _ _ _)
  · rw [Dat.leavesExact_idle (dat1 V c) 3 t (idleAt1_3 t h1) (noFlush1_3 t h1)]
    by_cases h0 : cond1_0 (grid1.coords t)
    · rw [outsAt1_A V c t h0 h1]
      unfold sout1_A_0; (try dsimp only)
      by_cases hz : t.val = 0
      · rw [PhiS1_castSucc V c t, PhiS1_zero V c _ _ hz]
        iintro ⟨HΦ, Ho, ⟨%d0, H0⟩, ⟨%d1, H1⟩, ⟨%d2, H2⟩, ⟨%d3, H3⟩⟩
        ihave HΦ' := (PhiA1_to c) $$ HΦ
        icases HΦ' with ⟨⟨HS0, Hoth⟩, Hg⟩
        iapply ((kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hoth⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hoth Hg]
        · isplitl [HS0 Hoth]
          · isplitl [HS0]
            · unfold owns; iexists _; isplitr
              swap; · iexact HS0
              ipureintro; exact View.read_writes_of_cover _ _ _ _ _ (scover1_A_0 c _ _ _ _ _ _ _ _ _ _ _ _ _ _ _ _)
            iexact Hoth
          iexact Hg
        isplitl [Ho]; · iexact Ho
        isplitl [H0]; · iexact H0
        isplitl [H1]; · iexact H1
        isplitl [H2]; · iexact H2
        iexists _; iexact H3
    · have hz : t.val ≠ 0 := fun e => h0 ((hcond1_0 t).mpr (by rw [e]))
      rw [outsAt1_B V c t hz h0 h1]
      unfold sout1_B_0; (try dsimp only)
      rw [PhiS1_castSucc V c t, PhiS1_pos V c _ _ hz]
      iintro ⟨⟨⟨HS0, Hoth⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1_0 (Memref.isWhole_whole _) h0 h1 (iblk1 V c 0 t) (iblk1 V c 1 t) (iblk1 V c 2 t) _).2.2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hoth Hg]
      · isplitl [HS0 Hoth]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hoth
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the pipeline hands the call is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

/-- After the last point the accumulator's contents are forgotten. -/
theorem hout1 (c : Dev nD) : (dat1 V c).Φ (Fin.last cfg1.N) ⊢ (Pipeline.ΦA spec1 c : sProp 𝕄) := by
  have ht : (Fin.last cfg1.N).val ≠ 0 := by rw [Fin.val_last]; have : cfg1.N = 64 := N_1; omega
  rw [show (dat1 V c).Φ (Fin.last cfg1.N) = PhiS1 V c (Fin.last cfg1.N).val (Nat.le_of_lt_succ (Fin.last cfg1.N).isLt) from rfl, PhiS1_pos V c _ _ ht]
  have h : ∀ x : Vec F S4096x128 .f32, (iprop((owns (c : Thread nD τ) scM1_0 fullShare x ∗ others1 c) ∗ (∃ r, prngReg c r)) : sProp 𝕄)
      ⊢ iprop(((∃ d, owns (c : Thread nD τ) scM1_0 fullShare d) ∗ others1 c) ∗ (∃ r, prngReg c r)) := fun x => by
    iintro ⟨⟨HS0, Hoth⟩, Hg⟩
    isplitl [HS0 Hoth]
    · isplitl [HS0]; · iexists _; iexact HS0
      iexact Hoth
    iexact Hg
  exact (h _).trans (PhiA1_of c)

end Cert.KernelIdeal.Hand

end
-- ==== Proof.KI.Segs.lean ====
import proofs.«126341_j35888746725725_2_alg».proof.Proof.Gen.KernelIdeal.Launch
import proofs.«126341_j35888746725725_2_alg».proof.Proof.Gen.KernelIdeal.Skeleton
import proofs.«126341_j35888746725725_2_alg».proof.Proof.Gen.KernelIdeal.Points
import proofs.«126341_j35888746725725_2_alg».proof.Proof.Gen.KernelIdeal.Regions
import proofs.«126341_j35888746725725_2_alg».proof.Proof.KI.R0Frame
import proofs.«126341_j35888746725725_2_alg».proof.Proof.KI.R1Frame
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # The buffers' contents at each boundary of @main

@main is five items: a stretch of host operations, the first kernel region, a second stretch, the second
kernel region, a last stretch. Between two items a core's unscoped buffers hold a definite valuation, a fold
from the launch memory `m`: a stretch applies its operations in order (`StableHlo.after`), a region leaves
each of its windows' arrays at what its write-backs make of it (`Dat.arrAt … N`: an input array as entered,
the output array with every flushed block written) and every other buffer as entered (`Pipeline.withArrays`). -/

/-- Core `c`'s buffers at launch. -/
abbrev W0 : Dev nD → Valuation τ sig (Elt F) := fun c b => (s₀ m ρ).mem ((c : Dev nD), b)
/-- After the first stretch (region 0's entry). -/
abbrev W1 : Dev nD → Valuation τ sig (Elt F) := fun c => StableHlo.after hostOps0 (W0 m ρ c)
/-- The same read at the TensorCore's references: what region 0's proof data take. -/
abbrev V1 : (c : Dev nD) → (b : Ref sig .tc) → Buf (Elt F) ((c : Thread nD τ).loc b) := fun c b => W1 m ρ c b
/-- At region 0's exit. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- Region 0's exit contents read at the TensorCore's references. -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the second stretch (region 1's entry). -/
abbrev W3 : Dev nD → Valuation τ sig (Elt F) := fun c => StableHlo.after hostOps1 (W2 m ρ c)
/-- The same read at the TensorCore's references: what region 1's proof data take. -/
abbrev V3 : (c : Dev nD) → (b : Ref sig .tc) → Buf (Elt F) ((c : Thread nD τ).loc b) := fun c b => W3 m ρ c b
/-- At region 1's exit. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- Region 1's exit contents read at the TensorCore's references. -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After the last stretch: what the program returns from. -/
abbrev W5 : Dev nD → Valuation τ sig (Elt F) := fun c => StableHlo.after hostOps2 (W4 m ρ c)

/-! ## One level of the fold at a time

A stretch leaves alone every buffer it does not write; a region leaves alone every buffer that is not one of
its windows' arrays, and its input windows' arrays too. -/

theorem W1_of (c : Dev nD) (r : Ref sig .tc) (h : r ∉ hostOps0_W) :
    W1 m ρ c (Proc.devRef .tc r) = W0 m ρ c (Proc.devRef .tc r) :=
  StableHlo.after_of_writes_sub hostOps0 _ hostOps0_writes h
theorem W3_of (c : Dev nD) (r : Ref sig .tc) (h : r ∉ hostOps1_W) :
    W3 m ρ c (Proc.devRef .tc r) = W2 m ρ c (Proc.devRef .tc r) :=
  StableHlo.after_of_writes_sub hostOps1 _ hostOps1_writes h
theorem W5_of (c : Dev nD) (r : Ref sig .tc) (h : r ∉ hostOps2_W) :
    W5 m ρ c (Proc.devRef .tc r) = W4 m ρ c (Proc.devRef .tc r) :=
  StableHlo.after_of_writes_sub hostOps2 _ hostOps2_writes h
/-- An input window's array leaves region 0 as it entered. -/
theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
/-- An input window's array leaves region 1 as it entered. -/
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))

/-! ## The arguments at every level

No stretch writes an argument and no region has one as an output window's array (the adjacency matrix
`main_arg1` is an input window's array of both regions): at every boundary each argument's buffer holds its
launch contents. -/

theorem W1_main_arg0 (c : Dev nD) : W1 m ρ c (Proc.devRef .tc main_arg0) = m ((c : Thread nD τ).loc main_arg0) :=
  (W1_of m ρ c main_arg0 (by decide)).trans rfl
theorem W2_main_arg0 (c : Dev nD) : W2 m ρ c (Proc.devRef .tc main_arg0) = m ((c : Thread nD τ).loc main_arg0) :=
  (W2_of_ne m ρ c main_arg0 (by decide)).trans (W1_main_arg0 m ρ c)
theorem W3_main_arg0 (c : Dev nD) : W3 m ρ c (Proc.devRef .tc main_arg0) = m ((c : Thread nD τ).loc main_arg0) :=
  (W3_of m ρ c main_arg0 (by decide)).trans (W2_main_arg0 m ρ c)
theorem W4_main_arg0 (c : Dev nD) : W4 m ρ c (Proc.devRef .tc main_arg0) = m ((c : Thread nD τ).loc main_arg0) :=
  (W4_of_ne m ρ c main_arg0 (by decide)).trans (W3_main_arg0 m ρ c)
theorem W5_main_arg0 (c : Dev nD) : W5 m ρ c (Proc.devRef .tc main_arg0) = m ((c : Thread nD τ).loc main_arg0) :=
  (W5_of m ρ c main_arg0 (by decide)).trans (W4_main_arg0 m ρ c)
theorem W1_main_arg1 (c : Dev nD) : W1 m ρ c (Proc.devRef .tc main_arg1) = m ((c : Thread nD τ).loc main_arg1) :=
  (W1_of m ρ c main_arg1 (by decide)).trans rfl
theorem W2_main_arg1 (c : Dev nD) : W2 m ρ c (Proc.devRef .tc main_arg1) = m ((c : Thread nD τ).loc main_arg1) :=
  (W2_in m ρ c 0 rfl).trans (W1_main_arg1 m ρ c)
theorem W3_main_arg1 (c : Dev nD) : W3 m ρ c (Proc.devRef .tc main_arg1) = m ((c : Thread nD τ).loc main_arg1) :=
  (W3_of m ρ c main_arg1 (by decide)).trans (W2_main_arg1 m ρ c)
theorem W4_main_arg1 (c : Dev nD) : W4 m ρ c (Proc.devRef .tc main_arg1) = m ((c : Thread nD τ).loc main_arg1) :=
  (W4_in m ρ c 0 rfl).trans (W3_main_arg1 m ρ c)
theorem W5_main_arg1 (c : Dev nD) : W5 m ρ c (Proc.devRef .tc main_arg1) = m ((c : Thread nD τ).loc main_arg1) :=
  (W5_of m ρ c main_arg1 (by decide)).trans (W4_main_arg1 m ρ c)
theorem W1_main_arg2 (c : Dev nD) : W1 m ρ c (Proc.devRef .tc main_arg2) = m ((c : Thread nD τ).loc main_arg2) :=
  (W1_of m ρ c main_arg2 (by decide)).trans rfl
theorem W2_main_arg2 (c : Dev nD) : W2 m ρ c (Proc.devRef .tc main_arg2) = m ((c : Thread nD τ).loc main_arg2) :=
  (W2_of_ne m ρ c main_arg2 (by decide)).trans (W1_main_arg2 m ρ c)
theorem W3_main_arg2 (c : Dev nD) : W3 m ρ c (Proc.devRef .tc main_arg2) = m ((c : Thread nD τ).loc main_arg2) :=
  (W3_of m ρ c main_arg2 (by decide)).trans (W2_main_arg2 m ρ c)
theorem W4_main_arg2 (c : Dev nD) : W4 m ρ c (Proc.devRef .tc main_arg2) = m ((c : Thread nD τ).loc main_arg2) :=
  (W4_of_ne m ρ c main_arg2 (by decide)).trans (W3_main_arg2 m ρ c)
theorem W5_main_arg2 (c : Dev nD) : W5 m ρ c (Proc.devRef .tc main_arg2) = m ((c : Thread nD τ).loc main_arg2) :=
  (W5_of m ρ c main_arg2 (by decide)).trans (W4_main_arg2 m ρ c)
theorem W1_main_arg3 (c : Dev nD) : W1 m ρ c (Proc.devRef .tc main_arg3) = m ((c : Thread nD τ).loc main_arg3) :=
  (W1_of m ρ c main_arg3 (by decide)).trans rfl
theorem W2_main_arg3 (c : Dev nD) : W2 m ρ c (Proc.devRef .tc main_arg3) = m ((c : Thread nD τ).loc main_arg3) :=
  (W2_of_ne m ρ c main_arg3 (by decide)).trans (W1_main_arg3 m ρ c)
theorem W3_main_arg3 (c : Dev nD) : W3 m ρ c (Proc.devRef .tc main_arg3) = m ((c : Thread nD τ).loc main_arg3) :=
  (W3_of m ρ c main_arg3 (by decide)).trans (W2_main_arg3 m ρ c)
theorem W4_main_arg3 (c : Dev nD) : W4 m ρ c (Proc.devRef .tc main_arg3) = m ((c : Thread nD τ).loc main_arg3) :=
  (W4_of_ne m ρ c main_arg3 (by decide)).trans (W3_main_arg3 m ρ c)
theorem W5_main_arg3 (c : Dev nD) : W5 m ρ c (Proc.devRef .tc main_arg3) = m ((c : Thread nD τ).loc main_arg3) :=
  (W5_of m ρ c main_arg3 (by decide)).trans (W4_main_arg3 m ρ c)
theorem W1_main_arg4 (c : Dev nD) : W1 m ρ c (Proc.devRef .tc main_arg4) = m ((c : Thread nD τ).loc main_arg4) :=
  (W1_of m ρ c main_arg4 (by decide)).trans rfl
theorem W2_main_arg4 (c : Dev nD) : W2 m ρ c (Proc.devRef .tc main_arg4) = m ((c : Thread nD τ).loc main_arg4) :=
  (W2_of_ne m ρ c main_arg4 (by decide)).trans (W1_main_arg4 m ρ c)
theorem W3_main_arg4 (c : Dev nD) : W3 m ρ c (Proc.devRef .tc main_arg4) = m ((c : Thread nD τ).loc main_arg4) :=
  (W3_of m ρ c main_arg4 (by decide)).trans (W2_main_arg4 m ρ c)
theorem W4_main_arg4 (c : Dev nD) : W4 m ρ c (Proc.devRef .tc main_arg4) = m ((c : Thread nD τ).loc main_arg4) :=
  (W4_of_ne m ρ c main_arg4 (by decide)).trans (W3_main_arg4 m ρ c)
theorem W5_main_arg4 (c : Dev nD) : W5 m ρ c (Proc.devRef .tc main_arg4) = m ((c : Thread nD τ).loc main_arg4) :=
  (W5_of m ρ c main_arg4 (by decide)).trans (W4_main_arg4 m ρ c)
theorem W1_main_arg5 (c : Dev nD) : W1 m ρ c (Proc.devRef .tc main_arg5) = m ((c : Thread nD τ).loc main_arg5) :=
  (W1_of m ρ c main_arg5 (by decide)).trans rfl
theorem W2_main_arg5 (c : Dev nD) : W2 m ρ c (Proc.devRef .tc main_arg5) = m ((c : Thread nD τ).loc main_arg5) :=
  (W2_of_ne m ρ c main_arg5 (by decide)).trans (W1_main_arg5 m ρ c)
theorem W3_main_arg5 (c : Dev nD) : W3 m ρ c (Proc.devRef .tc main_arg5) = m ((c : Thread nD τ).loc main_arg5) :=
  (W3_of m ρ c main_arg5 (by decide)).trans (W2_main_arg5 m ρ c)
theorem W4_main_arg5 (c : Dev nD) : W4 m ρ c (Proc.devRef .tc main_arg5) = m ((c : Thread nD τ).loc main_arg5) :=
  (W4_of_ne m ρ c main_arg5 (by decide)).trans (W3_main_arg5 m ρ c)
theorem W5_main_arg5 (c : Dev nD) : W5 m ρ c (Proc.devRef .tc main_arg5) = m ((c : Thread nD τ).loc main_arg5) :=
  (W5_of m ρ c main_arg5 (by decide)).trans (W4_main_arg5 m ρ c)
theorem W1_main_arg6 (c : Dev nD) : W1 m ρ c (Proc.devRef .tc main_arg6) = m ((c : Thread nD τ).loc main_arg6) :=
  (W1_of m ρ c main_arg6 (by decide)).trans rfl
theorem W2_main_arg6 (c : Dev nD) : W2 m ρ c (Proc.devRef .tc main_arg6) = m ((c : Thread nD τ).loc main_arg6) :=
  (W2_of_ne m ρ c main_arg6 (by decide)).trans (W1_main_arg6 m ρ c)
theorem W3_main_arg6 (c : Dev nD) : W3 m ρ c (Proc.devRef .tc main_arg6) = m ((c : Thread nD τ).loc main_arg6) :=
  (W3_of m ρ c main_arg6 (by decide)).trans (W2_main_arg6 m ρ c)
theorem W4_main_arg6 (c : Dev nD) : W4 m ρ c (Proc.devRef .tc main_arg6) = m ((c : Thread nD τ).loc main_arg6) :=
  (W4_of_ne m ρ c main_arg6 (by decide)).trans (W3_main_arg6 m ρ c)
theorem W5_main_arg6 (c : Dev nD) : W5 m ρ c (Proc.devRef .tc main_arg6) = m ((c : Thread nD τ).loc main_arg6) :=
  (W5_of m ρ c main_arg6 (by decide)).trans (W4_main_arg6 m ρ c)
theorem W1_main_arg7 (c : Dev nD) : W1 m ρ c (Proc.devRef .tc main_arg7) = m ((c : Thread nD τ).loc main_arg7) :=
  (W1_of m ρ c main_arg7 (by decide)).trans rfl
theorem W2_main_arg7 (c : Dev nD) : W2 m ρ c (Proc.devRef .tc main_arg7) = m ((c : Thread nD τ).loc main_arg7) :=
  (W2_of_ne m ρ c main_arg7 (by decide)).trans (W1_main_arg7 m ρ c)
theorem W3_main_arg7 (c : Dev nD) : W3 m ρ c (Proc.devRef .tc main_arg7) = m ((c : Thread nD τ).loc main_arg7) :=
  (W3_of m ρ c main_arg7 (by decide)).trans (W2_main_arg7 m ρ c)
theorem W4_main_arg7 (c : Dev nD) : W4 m ρ c (Proc.devRef .tc main_arg7) = m ((c : Thread nD τ).loc main_arg7) :=
  (W4_of_ne m ρ c main_arg7 (by decide)).trans (W3_main_arg7 m ρ c)
theorem W5_main_arg7 (c : Dev nD) : W5 m ρ c (Proc.devRef .tc main_arg7) = m ((c : Thread nD τ).loc main_arg7) :=
  (W5_of m ρ c main_arg7 (by decide)).trans (W4_main_arg7 m ρ c)

/-! ## The computed buffers, one level at a time

Each lemma opens ONE level of the fold: a stretch's result buffer as its operation applied to the level
below, a region's output array as the fold of its write-backs over its proof data at the level below. -/

/-- Region 0's output array at its exit: every block its grid wrote back. -/
theorem W2_main_v2 (c : Dev nD) : W2 m ρ c (Proc.devRef .tc main_v2) = (dat0 (V1 m ρ) c).arrAt 3 cfg0.N := W2_arr m ρ c 3
/-- Region 1's output array at its exit. -/
theorem W4_main_v5 (c : Dev nD) : W4 m ρ c (Proc.devRef .tc main_v5) = (dat1 (V3 m ρ) c).arrAt 3 cfg1.N := W4_arr m ρ c 3

/-- The first stretch's product: the features times the first weight matrix. -/
theorem W1_main_v0 (c : Dev nD) : W1 m ρ c (Proc.devRef .tc main_v0)
    = Host.dotGeneral dot_S16384x128_S128x128_S16384x128_1_0_0_1_n_n (some .fp32)
        (m ((c : Thread nD τ).loc main_arg0)) (m ((c : Thread nD τ).loc main_arg2)) := by
  show StableHlo.after hostOps0 _ (Proc.devRef .tc main_v0) = _
  after_results
/-- The first stretch's reshape: the first bias as one row. -/
theorem W1_main_v1 (c : Dev nD) : W1 m ρ c (Proc.devRef .tc main_v1)
    = shapeCast S1x128 (m ((c : Thread nD τ).loc main_arg3)) shapeCasts_S128_S1x128 := by
  show StableHlo.after hostOps0 _ (Proc.devRef .tc main_v1) = _
  after_results; rfl
/-- The second stretch's product: region 0's output times the second weight matrix. -/
theorem W3_main_v3 (c : Dev nD) : W3 m ρ c (Proc.devRef .tc main_v3)
    = Host.dotGeneral dot_S16384x128_S128x128_S16384x128_1_0_0_1_n_n (some .fp32)
        (W2 m ρ c (Proc.devRef .tc main_v2)) (W2 m ρ c (Proc.devRef .tc main_arg4)) := by
  show StableHlo.after hostOps1 _ (Proc.devRef .tc main_v3) = _
  after_results
/-- The second stretch's reshape: the second bias as one row. -/
theorem W3_main_v4 (c : Dev nD) : W3 m ρ c (Proc.devRef .tc main_v4)
    = shapeCast S1x128 (W2 m ρ c (Proc.devRef .tc main_arg5)) shapeCasts_S128_S1x128 := by
  show StableHlo.after hostOps1 _ (Proc.devRef .tc main_v4) = _
  after_results; rfl
/-- The last stretch: region 1's output times the third weight matrix, plus the third bias broadcast over the rows. -/
theorem W5_main_v9 (c : Dev nD) : W5 m ρ c (Proc.devRef .tc main_v9)
    = addf (Host.dotGeneral dot_S16384x128_S128x2_S16384x2_1_0_0_1_n_n (some .fp32)
          (W4 m ρ c (Proc.devRef .tc main_v5)) (W4 m ρ c (Proc.devRef .tc main_arg6)))
        (broadcastInDim S16384x2 ![0, 1] bcast_S1x2_S16384x2_0_1
          (broadcastInDim S1x2 ![1] bcast_S2_S1x2_1 (W4 m ρ c (Proc.devRef .tc main_arg7)))) := by
  show StableHlo.after hostOps2 _ (Proc.devRef .tc main_v9) = _
  after_results

/-! ### The same, at the references the regions' proof data read, with the arguments at their launch contents -/

theorem V1_main_arg1 (c : Dev nD) : V1 m ρ c main_arg1 = m ((c : Thread nD τ).loc main_arg1) := W1_main_arg1 m ρ c
theorem V1_main_v0 (c : Dev nD) : V1 m ρ c main_v0
    = Host.dotGeneral dot_S16384x128_S128x128_S16384x128_1_0_0_1_n_n (some .fp32)
        (m ((c : Thread nD τ).loc main_arg0)) (m ((c : Thread nD τ).loc main_arg2)) := W1_main_v0 m ρ c
theorem V1_main_v1 (c : Dev nD) : V1 m ρ c main_v1
    = shapeCast S1x128 (m ((c : Thread nD τ).loc main_arg3)) shapeCasts_S128_S1x128 := W1_main_v1 m ρ c
theorem V3_main_arg1 (c : Dev nD) : V3 m ρ c main_arg1 = m ((c : Thread nD τ).loc main_arg1) := W3_main_arg1 m ρ c
theorem V3_main_v3 (c : Dev nD) : V3 m ρ c main_v3
    = Host.dotGeneral dot_S16384x128_S128x128_S16384x128_1_0_0_1_n_n (some .fp32)
        ((dat0 (V1 m ρ) c).arrAt 3 cfg0.N) (m ((c : Thread nD τ).loc main_arg4)) := by
  rw [← W2_main_v2 m ρ c, ← W2_main_arg4 m ρ c]; exact W3_main_v3 m ρ c
theorem V3_main_v4 (c : Dev nD) : V3 m ρ c main_v4
    = shapeCast S1x128 (m ((c : Thread nD τ).loc main_arg5)) shapeCasts_S128_S1x128 := by
  rw [← W2_main_arg5 m ρ c]; exact W3_main_v4 m ρ c
/-- The returned buffer, with region 1's output array named and the last two arguments at their launch contents. -/
theorem W5_main_v9_eq (c : Dev nD) : W5 m ρ c (Proc.devRef .tc main_v9)
    = addf (Host.dotGeneral dot_S16384x128_S128x2_S16384x2_1_0_0_1_n_n (some .fp32)
          ((dat1 (V3 m ρ) c).arrAt 3 cfg1.N) (m ((c : Thread nD τ).loc main_arg6)))
        (broadcastInDim S16384x2 ![0, 1] bcast_S1x2_S16384x2_0_1
          (broadcastInDim S1x2 ![1] bcast_S2_S1x2_1 (m ((c : Thread nD τ).loc main_arg7)))) := by
  rw [← W4_main_v5 m ρ c, ← W4_main_arg6 m ρ c, ← W4_main_arg7 m ρ c]; exact W5_main_v9 m ρ c

/-! # The proof data family and the thread state -/

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state and its `owes`,
    at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along:
    it ends with those references at `StableHlo.after ops (W c)`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`: every unscoped buffer at the last boundary's contents, the generator
    register at some state. -/
abbrev Tₙ (c : Dev nD) : sProp 𝕄 := iprop(StableHlo.held (c : Thread nD τ) (Pipeline.ucRefs τ sig) (W5 m ρ c) ∗ ∃ r, prngReg c r)

omit m ρ in
/-- A core that owes nothing, whatever pairs it has recorded, owes what proof data owing nothing at a point with no
    bound on the recorded pairs say there. -/
theorem owesAt_of_zero {cfg : Pipeline.Cfg sig Λ₀} {c : Dev nD} (dat : Dat τ (Elt F) Unit ℕ (UR sig nD τ) ℕ cfg c) (t : Fin (cfg.N + 1))
    (ho : dat.owed t = 0) (hr : dat.recorded t = Set.univ) :
    (iprop(∃ W, owes (c : Thread nD τ) (0 : CellTallies nD τ sig Unit) W) : sProp 𝕄) ⊢ dat.owesAt () t := by
  unfold Pipeline.Dat.owesAt Pipeline.owesWithin
  rw [ho]
  iintro ⟨%W, HO⟩; iexists W; isplitr
  · ipureintro; exact fun x _ => Or.inl (show x ∈ dat.recorded t by rw [hr]; exact Set.mem_univ x)
  iexact HO
omit m ρ in
/-- and back. -/
theorem owes_of_owesAt {cfg : Pipeline.Cfg sig Λ₀} {c : Dev nD} (dat : Dat τ (Elt F) Unit ℕ (UR sig nD τ) ℕ cfg c) (t : Fin (cfg.N + 1))
    (ho : dat.owed t = 0) :
    dat.owesAt () t ⊢ (iprop(∃ W, owes (c : Thread nD τ) (0 : CellTallies nD τ sig Unit) W) : sProp 𝕄) := by
  unfold Pipeline.Dat.owesAt Pipeline.owesWithin
  rw [ho]
  iintro ⟨%W, -, HO⟩; iexists W; iexact HO

/-! # The regions as segments -/

set_option backward.isDefEq.respectTransparency.types false in
/-- REGION 0 over the thread state: entered from every unscoped buffer at `W1`, left at `W2`. Its windows'
    arrays are split out of the unscoped buffers at the entry and put back, at what the write-backs left, at the
    exit; the generator register and the scoped buffers no window stages go into the body's invariant at the first
    point and come back from it at the last; the core owes nothing throughout. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun c t => owed0 (V1 m ρ) c t
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      (fun w => share0 (V1 m ρ) c w) (V1 m ρ c) fun w => A_eq0 (V1 m ρ) c w
    rw [Pipeline.unscopedBufs_held] at hsplit
    have howes := owesAt_of_zero (pdats m ρ 0 c) 0 (owed0 (V1 m ρ) c 0) (recorded0 (V1 m ρ) c 0)
    iintro ⟨⟨Hub, Hp, HO⟩, -, -⟩
    ihave H := hsplit $$ Hub
    icases H with ⟨Ha, Hrest⟩
    ihave HO' := howes $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexact Hrest
  hin c := by
    refine BIBase.Entails.trans ?_ (hin0 (V1 m ρ) c)
    unfold Pipeline.ΦA
    iintro ⟨Hp, -, Hr⟩
    isplitl [Hr]; · iexact Hr
    iexact Hp
  hout c := by
    rw [Pipeline.ownSems0_none]
    refine BIBase.Entails.trans (hout0 (V1 m ρ) c) ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) (fun w => share0 (V1 m ρ) c w)
      (V1 m ρ c) (V2 m ρ c) ((pdats m ρ 0 c).arrAt · cfg0.N) (hF0 m ρ c) (hrest0 m ρ c)
    rw [Pipeline.unscopedBufs_held] at hjoin
    have howes := owes_of_owesAt (pdats m ρ 0 c) (Fin.last _) (owed0 (V1 m ρ) c _)
    iintro ⟨Ha, HO, HY, Hrest⟩
    ihave HO' := howes $$ HO
    imodintro
    isplitl [Ha Hrest]
    · iapply hjoin; isplitl [Ha] <;> iassumption
    isplitl [HY]; · iexact HY
    iexact HO'

set_option backward.isDefEq.respectTransparency.types false in
/-- REGION 1 over the thread state: entered from every unscoped buffer at `W3`, left at `W4`. Its windows'
    arrays are split out of the unscoped buffers at the entry and put back, at what the write-backs left, at the
    exit; the generator register and the scoped buffers no window stages go into the body's invariant at the first
    point and come back from it at the last; the core owes nothing throughout. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun c t => owed1 (V3 m ρ) c t
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      (fun w => share1 (V3 m ρ) c w) (V3 m ρ c) fun w => A_eq1 (V3 m ρ) c w
    rw [Pipeline.unscopedBufs_held] at hsplit
    have howes := owesAt_of_zero (pdats m ρ 1 c) 0 (owed1 (V3 m ρ) c 0) (recorded1 (V3 m ρ) c 0)
    iintro ⟨⟨Hub, Hp, HO⟩, -, -⟩
    ihave H := hsplit $$ Hub
    icases H with ⟨Ha, Hrest⟩
    ihave HO' := howes $$ HO
    imodintro
    isplitl [Ha]; · iexact Ha
    isplitr; · unfold Pipeline.prefHeld; rw [show (Finset.univ : Finset (Fin 0)) = ∅ from rfl, BI.bigSep_empty]; iempintro
    isplitl [HO']; · iexact HO'
    isplitl [Hp]; · iexact Hp
    iexact Hrest
  hin c := by
    refine BIBase.Entails.trans ?_ (hin1 (V3 m ρ) c)
    unfold Pipeline.ΦA
    iintro ⟨Hp, -, Hr⟩
    isplitl [Hr]; · iexact Hr
    iexact Hp
  hout c := by
    rw [Pipeline.ownSems0_none]
    refine BIBase.Entails.trans (hout1 (V3 m ρ) c) ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) (fun w => share1 (V3 m ρ) c w)
      (V3 m ρ c) (V4 m ρ c) ((pdats m ρ 1 c).arrAt · cfg1.N) (hF1 m ρ c) (hrest1 m ρ c)
    rw [Pipeline.unscopedBufs_held] at hjoin
    have howes := owes_of_owesAt (pdats m ρ 1 c) (Fin.last _) (owed1 (V3 m ρ) c _)
    iintro ⟨Ha, HO, HY, Hrest⟩
    ihave HO' := howes $$ HO
    imodintro
    isplitl [Ha Hrest]
    · iapply hjoin; isplitl [Ha] <;> iassumption
    isplitl [HY]; · iexact HY
    iexact HO'

/-! # @main as segments, and the launch -/

/-- @main's five items in order: a host segment per stretch from its boundary's contents, a region per kernel call. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)) ]
/-- @main is the run of the segments. -/
theorem main_run (c : Dev nD) : main (F := F) c = Pipeline.Seg.run (segs m ρ) := (main_chain c).trans (by chain_rfl)

set_option backward.isDefEq.respectTransparency.types false in
/-- THE RUN: from any memory with zero counters every weakly fair execution of @main on the TensorCores terminates,
    nothing faulting, and in every final state each core's unscoped buffers hold the last boundary's contents `W5`
    — whatever is then read off them (`hQ`). -/
theorem run_reads {Q : PUnit × MemSt nD τ sig (Elt F) → Prop}
    (hQ : ∀ s : MemSt nD τ sig (Elt F),
      (∀ c : Dev nD, ∀ b ∈ Pipeline.ucRefs τ sig, s.mem (((c : Thread nD τ)).1, b) = W5 m ρ c b) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      show iprop(StableHlo.held (c : Thread nD τ) (Pipeline.ucRefs τ sig) (W5 m ρ c)
          ∗ (∃ r, prngReg c r) ∗ ∃ W, owes (c : Thread nD τ) (0 : CellTallies nD τ sig Unit) W)
        ⊢ iprop((StableHlo.held (c : Thread nD τ) (Pipeline.ucRefs τ sig) (W5 m ρ c) ∗ ∃ r, prngReg c r)
          ∗ ∃ W, owes (c : Thread nD τ) (0 : CellTallies nD τ sig Unit) W)
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := hQ)

/-- THE FRAME: every weakly fair execution of @main from `m` with zero counters terminates, nothing faulting, and every
    final state has the eight argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reads m ρ fun s h c =>
    ⟨(h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩

/-- THE RUN WITH ITS VALUE: the same, and the returned buffer `main_v9` ends at the last boundary's contents. -/
theorem run_value : θ_run defs (onTc (τ := τ) (main (F := F))) ⟨m, fun _ => 0, ρ⟩ (fun r => ∀ c : Dev nD,
      r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_reads m ρ fun s h c =>
    ⟨h c _ (mem_uc main_v9 (by decide)),
      (h c _ (mem_uc main_arg0 (by decide))).trans (W5_main_arg0 m ρ c),
      (h c _ (mem_uc main_arg1 (by decide))).trans (W5_main_arg1 m ρ c),
      (h c _ (mem_uc main_arg2 (by decide))).trans (W5_main_arg2 m ρ c),
      (h c _ (mem_uc main_arg3 (by decide))).trans (W5_main_arg3 m ρ c),
      (h c _ (mem_uc main_arg4 (by decide))).trans (W5_main_arg4 m ρ c),
      (h c _ (mem_uc main_arg5 (by decide))).trans (W5_main_arg5 m ρ c),
      (h c _ (mem_uc main_arg6 (by decide))).trans (W5_main_arg6 m ρ c),
      (h c _ (mem_uc main_arg7 (by decide))).trans (W5_main_arg7 m ρ c)⟩

end Cert.KernelIdeal.Hand

end
-- ==== Proof.KI.R0Pieces.lean ====
/-
  What one grid step of the first layer's tiled aggregation leaves behind, as plain functions of what it read.

  The step at reduction coordinate k reads its 4096 × 1024 tile of the adjacency matrix, rows 1024 k … 1024 k + 1023 of
  the resident projected features, and the running 4096 × 128 tile. A first step (k = 0) starts the running tile from
  zero; every step adds the tile product to it; the last step (k = 15) also writes, into the output block, the finished
  running tile plus the bias row, clamped below at zero.
-/
import proofs.«126341_j35888746725725_2_alg».proof.Proof.KI.R0Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

/-- The zero offsets of a whole-buffer rectangle. -/
theorem hz2 : (![0, 0] : Fin 2 → Nat) = fun _ => 0 := funext fun a => by fin_cases a <;> rfl

/-- A first step leaves in the accumulator the zero tile plus the product of the adjacency tile with the step's slice
    of the resident features. -/
theorem sout0_A_0_eq (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond0_0 i) (hc1 : ¬cond0_1 i) (x0 : Vec F S4096x1024 .f32) (x1 : Vec F S16384x128 .f32) (x2 : Vec F S1x128 .f32) :
    sout0_A_0 c i arg2 harg2 arg3 harg3 arg4 harg4 arg5 harg5 arg6 harg6 hc0 hc1 x0 x1 x2
      = k0_pay2 (View.ld x1 (Rect.unit (s := S16384x128) (k0_off1 i) S1024x128.size (k0_off1_inb i))) k0_pay1 x0 := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S4096x128) hz2, View.readCov_unit_zero (S := S4096x128) _ hz2]
  simp only [View.readAt_eq_ld, harg2.read_unread, harg3.read_unread, View.ld_unit_zero (S := S4096x1024) hz2]

/-- A middle step adds to the accumulator the product of the adjacency tile with the step's slice of the features. -/
theorem sout0_B_0_eq (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : ¬cond0_1 i) (x0 : Vec F S4096x1024 .f32) (x1 : Vec F S16384x128 .f32) (x2 : Vec F S1x128 .f32) (xs0 : Vec F S4096x128 .f32) :
    sout0_B_0 c i arg2 harg2 arg3 harg3 arg4 harg4 arg5 harg5 arg6 harg6 hc0 hc1 x0 x1 x2 xs0
      = k0_pay2 (View.ld x1 (Rect.unit (s := S16384x128) (k0_off1 i) S1024x128.size (k0_off1_inb i))) xs0 x0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero (S := S4096x128) hz2]
  simp only [View.readAt_eq_ld, harg2.read_unread, harg3.read_unread, harg6.read_unread, View.ld_unit_zero (S := S4096x1024) hz2,
    View.ld_unit_zero (S := S4096x128) hz2]

/-- So does the last step. -/
theorem sout0_C_0_eq (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) :
    sout0_C_0 c i arg2 harg2 arg3 harg3 arg4 harg4 arg5 harg5 arg6 harg6 hc0 hc1 x0 x1 x2 xs0
      = k0_pay2 (View.ld x1 (Rect.unit (s := S16384x128) (k0_off1 i) S1024x128.size (k0_off1_inb i))) xs0 x0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero (S := S4096x128) hz2]
  simp only [View.readAt_eq_ld, harg2.read_unread, harg3.read_unread, harg6.read_unread, View.ld_unit_zero (S := S4096x1024) hz2,
    View.ld_unit_zero (S := S4096x128) hz2]

/-- The last step stores into the output block the accumulator it has just completed plus the bias row, rectified. -/
theorem out0_C_3_eq (c : Dev nD) (i : grid0.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond0_0 i) (hc1 : cond0_1 i) (x0 : Vec F S4096x1024 .f32) (x1 : Vec F S16384x128 .f32) (x2 : Vec F S1x128 .f32) (xs0 : Vec F S4096x128 .f32) :
    out0_C_3 c i arg2 harg2 arg3 harg3 arg4 harg4 arg5 harg5 arg6 harg6 hc0 hc1 x0 x1 x2 xs0
      = k0_pay3 (k0_pay2 (View.ld x1 (Rect.unit (s := S16384x128) (k0_off1 i) S1024x128.size (k0_off1_inb i))) xs0 x0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero (S := S4096x128) hz2, View.readCov_unit_zero (S := S4096x128) _ hz2]
  simp only [View.readAt_eq_ld, harg2.read_unread, harg3.read_unread, harg4.read_unread, harg6.read_unread,
    View.ld_unit_zero (S := S4096x1024) hz2, View.ld_unit_zero (S := S4096x128) hz2, View.ld_unit_zero (S := S1x128) hz2]

end Cert.KernelIdeal.Hand

end
-- ==== Proof.KI.R0Blocks.lean ====
/-
  Where each block of a grid step sits in its array, for the first layer's tiled aggregation.

  The 64 steps run over a 4 × 16 grid in row-major order: step t has row-block i = t / 16 and reduction coordinate
  k = t % 16. Its adjacency tile is rows 4096 i … and columns 1024 k … of the adjacency matrix; the projected features
  and the bias row are resident, the same whole array at every step; the body's slice of the features is rows
  1024 k … 1024 k + 1023; the output block is rows 4096 i … 4096 i + 4095 of the result, so an index of the result
  lies in step t's output block exactly when its row divided by 4096 is i.
-/
import proofs.«126341_j35888746725725_2_alg».proof.Proof.KI.R0Base
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

/-! ## The grid in row-major order, and the block indices over it -/

/-- There are 64 steps. -/
theorem t0_lt (t : Fin cfg0.N) : t.val < 64 := lt_of_lt_of_eq t.isLt N_0

/-- Step t has row-block t / 16 and reduction coordinate t % 16. -/
theorem coords0 : ∀ t : Fin cfg0.N, (grid0.coords t 0).val = t.val / 16 ∧ (grid0.coords t 1).val = t.val % 16 :=
  (by decide +kernel : ∀ t : Fin grid0.N, (grid0.coords t 0).val = t.val / 16 ∧ (grid0.coords t 1).val = t.val % 16)

/-- The adjacency tile of step t is block (t / 16, t % 16). -/
theorem idx0_0 : ∀ t : Fin cfg0.N, win0_0.index t (0 : Fin 2) = t.val / 16 ∧ win0_0.index t (1 : Fin 2) = t.val % 16 :=
  (by decide +kernel : ∀ t : Fin grid0.N, win0_0.index t (0 : Fin 2) = t.val / 16 ∧ win0_0.index t (1 : Fin 2) = t.val % 16)
/-- The features' block never moves. -/
theorem idx0_1 : ∀ t : Fin cfg0.N, win0_1.index t (0 : Fin 2) = 0 ∧ win0_1.index t (1 : Fin 2) = 0 :=
  (by decide +kernel : ∀ t : Fin grid0.N, win0_1.index t (0 : Fin 2) = 0 ∧ win0_1.index t (1 : Fin 2) = 0)
/-- Nor does the bias row's. -/
theorem idx0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The output block of step t is block (t / 16, 0). -/
theorem idx0_3 : ∀ t : Fin cfg0.N, win0_3.index t (0 : Fin 2) = t.val / 16 ∧ win0_3.index t (1 : Fin 2) = 0 :=
  (by decide +kernel : ∀ t : Fin grid0.N, win0_3.index t (0 : Fin 2) = t.val / 16 ∧ win0_3.index t (1 : Fin 2) = 0)

/-- Row p of row-block t / 16 is one of the 16384 rows. -/
theorem row0_lt (t : Fin cfg0.N) (p : Fin 4096) : 4096 * (t.val / 16) + p.val < 16384 := by
  have := t0_lt t; have := p.isLt; omega
/-- Place r of run t % 16 is one of the 16384 places. -/
theorem run0_lt (t : Fin cfg0.N) (r : Fin 1024) : 1024 * (t.val % 16) + r.val < 16384 := by
  have := r.isLt; omega

variable (V : (c : Dev nD) → (b : Ref sig .tc) → Buf (Elt F) ((c : Thread nD τ).loc b))

/-! ## The three input blocks read in their arrays -/

/-- The adjacency tile of step t at (p, r) is the adjacency matrix at row 4096 (t / 16) + p, column 1024 (t % 16) + r. -/
theorem blk0_0_apply (c : Dev nD) (t : Fin cfg0.N) (p : Fin 4096) (r : Fin 1024) :
    (iblk0 V c 0 t : S4096x1024.Idx → Elt F .f32) (ix2 p r)
      = (V c main_arg1 : S16384x16384.Idx → Elt F .f32) (ix2 ⟨4096 * (t.val / 16) + p.val, row0_lt t p⟩ ⟨1024 * (t.val % 16) + r.val, run0_lt t r⟩) := by
  obtain ⟨e0, e1⟩ := idx0_0 t
  unfold iblk0
  rw [View.read_apply]
  show V c main_arg1 _ = V c main_arg1 _
  refine congrArg _ ?_
  funext a
  apply Fin.ext
  match a with
  | ⟨0, _⟩ => show win0_0.index t (0 : Fin 2) * 4096 + 1 * p.val = 4096 * (t.val / 16) + p.val; rw [e0]; omega
  | ⟨1, _⟩ => show win0_0.index t (1 : Fin 2) * 1024 + 1 * r.val = 1024 * (t.val % 16) + r.val; rw [e1]; omega

/-- The features' block at every step is the whole array of projected features. -/
theorem blk0_1_apply (c : Dev nD) (t : Fin cfg0.N) (j : Fin 16384) (q : Fin 128) :
    (iblk0 V c 1 t : S16384x128.Idx → Elt F .f32) (ix2 j q) = (V c main_v0 : S16384x128.Idx → Elt F .f32) (ix2 j q) := by
  obtain ⟨e0, e1⟩ := idx0_1 t
  unfold iblk0
  rw [View.read_apply]
  show V c main_v0 _ = V c main_v0 _
  refine congrArg _ ?_
  funext a
  apply Fin.ext
  match a with
  | ⟨0, _⟩ => show win0_1.index t (0 : Fin 2) * 16384 + 1 * j.val = j.val; rw [e0]; omega
  | ⟨1, _⟩ => show win0_1.index t (1 : Fin 2) * 128 + 1 * q.val = q.val; rw [e1]; omega

/-- The same, as one equation of arrays. -/
theorem blk0_1_eq (c : Dev nD) (t : Fin cfg0.N) :
    (iblk0 V c 1 t : S16384x128.Idx → Elt F .f32) = (V c main_v0 : S16384x128.Idx → Elt F .f32) := by
  funext y
  obtain ⟨j, q, rfl⟩ : ∃ (j : Fin 16384) (q : Fin 128), y = ix2 j q := ⟨y 0, y 1, eq_ix2 y⟩
  exact blk0_1_apply V c t j q

/-- The bias block at every step is the bias row. -/
theorem blk0_2_apply (c : Dev nD) (t : Fin cfg0.N) (u : Fin 1) (q : Fin 128) :
    (iblk0 V c 2 t : S1x128.Idx → Elt F .f32) (ix2 u q) = (V c main_v1 : S1x128.Idx → Elt F .f32) (ix2 u q) := by
  obtain ⟨e0, e1⟩ := idx0_2 t
  unfold iblk0
  rw [View.read_apply]
  show V c main_v1 _ = V c main_v1 _
  refine congrArg _ ?_
  funext a
  apply Fin.ext
  match a with
  | ⟨0, _⟩ => show win0_2.index t (0 : Fin 2) * 1 + 1 * u.val = u.val; rw [e0]; omega
  | ⟨1, _⟩ => show win0_2.index t (1 : Fin 2) * 128 + 1 * q.val = q.val; rw [e1]; omega

/-- The same, as one equation of arrays. -/
theorem blk0_2_eq (c : Dev nD) (t : Fin cfg0.N) :
    (iblk0 V c 2 t : S1x128.Idx → Elt F .f32) = (V c main_v1 : S1x128.Idx → Elt F .f32) := by
  funext y
  obtain ⟨u, q, rfl⟩ : ∃ (u : Fin 1) (q : Fin 128), y = ix2 u q := ⟨y 0, y 1, eq_ix2 y⟩
  exact blk0_2_apply V c t u q

/-! ## The body's slice of the resident features -/

/-- Place r of the run at reduction coordinate k is one of the 16384 places. -/
theorem runc0_lt (i : grid0.Coords) (r : Fin 1024) : 1024 * (i 1).val + r.val < 16384 := by
  have h : (i 1).val < 16 := (i 1).isLt
  have := r.isLt; omega

/-- At grid coordinates (i, k) the body reads rows 1024 k … 1024 k + 1023 of the features. -/
theorem slice0_apply_coords (x1 : Vec F S16384x128 .f32) (i : grid0.Coords) (r : Fin 1024) (q : Fin 128) :
    View.ld x1 (Rect.unit (s := S16384x128) (k0_off1 i) S1024x128.size (k0_off1_inb i)) (ix2 r q)
      = x1 (ix2 ⟨1024 * (i 1).val + r.val, runc0_lt i r⟩ q) := by
  have h0 : k0_off1 i 0 = 1024 * (i 1).val := congrFun (k0_off1_eq i) 0
  have h1 : k0_off1 i 1 = 0 := congrFun (k0_off1_eq i) 1
  show x1 _ = x1 _
  refine congrArg x1 ?_
  funext a
  apply Fin.ext
  match a with
  | ⟨0, _⟩ => show k0_off1 i 0 + 1 * r.val = 1024 * (i 1).val + r.val; rw [h0]; omega
  | ⟨1, _⟩ => show k0_off1 i 1 + 1 * q.val = q.val; rw [h1]; omega

/-- At step t these are rows 1024 (t % 16) … of the features. -/
theorem slice0_apply (x1 : Vec F S16384x128 .f32) (t : Fin cfg0.N) (r : Fin 1024) (q : Fin 128) :
    View.ld x1 (Rect.unit (s := S16384x128) (k0_off1 (grid0.coords t)) S1024x128.size (k0_off1_inb (grid0.coords t))) (ix2 r q)
      = x1 (ix2 ⟨1024 * (t.val % 16) + r.val, run0_lt t r⟩ q) := by
  rw [slice0_apply_coords]
  refine congrArg x1 ?_
  funext a
  apply Fin.ext
  match a with
  | ⟨0, _⟩ => show 1024 * (grid0.coords t 1).val + r.val = 1024 * (t.val % 16) + r.val; rw [(coords0 t).2]
  | ⟨1, _⟩ => rfl

/-! ## The output block in the result -/

/-- Entry (p, q) of step t's output block is entry (4096 (t / 16) + p, q) of the result. -/
theorem emb0_3 (t : Fin cfg0.N) (p : Fin 4096) (q : Fin 128) :
    (((cfg0.win 3).blk t).view.emb (ix2 p q) : S16384x128.Idx) = ix2 ⟨4096 * (t.val / 16) + p.val, row0_lt t p⟩ q := by
  obtain ⟨e0, e1⟩ := idx0_3 t
  funext a
  apply Fin.ext
  match a with
  | ⟨0, _⟩ => show win0_3.index t (0 : Fin 2) * 4096 + 1 * p.val = 4096 * (t.val / 16) + p.val; rw [e0]; omega
  | ⟨1, _⟩ => show win0_3.index t (1 : Fin 2) * 128 + 1 * q.val = q.val; rw [e1]; omega

/-- An index of the result lies in step t's output block exactly when its row-block is t / 16. -/
theorem mem_blk0_3 (t : Fin cfg0.N) (n : S16384x128.Idx) :
    n ∈ ((cfg0.win 3).blk t).view.set ↔ (n 0).val / 4096 = t.val / 16 := by
  obtain ⟨e0, e1⟩ := idx0_3 t
  have hn1 : (n 1).val < 128 := (n 1).isLt
  show n ∈ ((View.whole main_v2).slice (win0_3.rect t)).set ↔ _
  rw [View.set_slice_whole, Rect.mem_set_unit]
  constructor
  · intro h
    have b0 : win0_3.index t (0 : Fin 2) * 4096 ≤ (n 0).val ∧ (n 0).val < win0_3.index t (0 : Fin 2) * 4096 + 4096 := h 0
    omega
  · intro h a
    match a with
    | ⟨0, _⟩ => show win0_3.index t (0 : Fin 2) * 4096 ≤ (n 0).val ∧ (n 0).val < win0_3.index t (0 : Fin 2) * 4096 + 4096; omega
    | ⟨1, _⟩ => show win0_3.index t (1 : Fin 2) * 128 ≤ (n 1).val ∧ (n 1).val < win0_3.index t (1 : Fin 2) * 128 + 128; omega

/-- Every index of the result lies in the output block of a step that writes it back: the last step of its
    row-block. -/
theorem cover0_3 (n : S16384x128.Idx) :
    ∃ t : Fin cfg0.N, (cfg0.win 3).flush t = true ∧ n ∈ ((cfg0.win 3).blk t).view.set := by
  have hn0 : (n 0).val < 16384 := (n 0).isLt
  have hN : cfg0.N = 64 := N_0
  refine ⟨⟨16 * ((n 0).val / 4096) + 15, by rw [hN]; omega⟩, (flush0_3 _).mpr ?_, (mem_blk0_3 _ n).mpr ?_⟩
  · show (16 * ((n 0).val / 4096) + 15) % 16 = 15; omega
  · show (n 0).val / 4096 = (16 * ((n 0).val / 4096) + 15) / 16; omega

end Cert.KernelIdeal.Hand

end
-- ==== Proof.KI.Payload.lean ====
/-
  The values a grid step writes, read at one entry, over the extended reals.

  A step of either graph-convolution layer writes one of three tiles of 4096 rows and 128 columns: the zero tile
  (entry 0); the running tile plus the product of a 4096 × 1024 tile of the adjacency matrix with a 1024 × 128 slice
  of the projected features (entry (p, q): the old entry plus the sum over k < 1024 of a(p, k) · x(k, q)); and the
  rectified sum of the running tile and the bias row (entry (p, q): max (t(p, q) + b(0, q)) 0).
-/
import proofs.«126341_j35888746725725_2_alg».proof.Proof.Gen.KernelIdeal.Skeleton
import proofs.«126341_j35888746725725_2_alg».proof.Proof.Gen.KernelIdeal.Launch
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Hand.Pay

open Idealize.ShloMosaic Idealize.ShloMosaic.ValueIdx
open Cert.KernelIdeal Cert.KernelIdeal.Gen

/-! ## The tile product at an entry -/

/-- The left factor's row coordinate is the entry's row. -/
theorem lhs_0 (i : S4096x128.Idx) (c : dot_S4096x1024_S1024x128_S4096x128_1_0_0_1_n_n.contr.Idx) :
    (dot_S4096x1024_S1024x128_S4096x128_1_0_0_1_n_n.lhsIdx i c 0).val = (i 0).val := by
  unfold DotDims.lhsIdx
  rw [dif_neg (show ¬(0 : Fin S4096x1024.rank) ∈ dot_S4096x1024_S1024x128_S4096x128_1_0_0_1_n_n.lhsBatch by decide), dif_pos (show (0 : Fin S4096x1024.rank) ∈ dot_S4096x1024_S1024x128_S4096x128_1_0_0_1_n_n.lhsNonContracting by decide)]
  rfl
/-- The left factor's column coordinate is the summation index. -/
theorem lhs_1 (i : S4096x128.Idx) (c : dot_S4096x1024_S1024x128_S4096x128_1_0_0_1_n_n.contr.Idx) :
    (dot_S4096x1024_S1024x128_S4096x128_1_0_0_1_n_n.lhsIdx i c 1).val = (c ⟨0, by decide⟩).val :=
  dot_S4096x1024_S1024x128_S4096x128_1_0_0_1_n_n.lhsIdx_val_of_single rfl i c
/-- The right factor's row coordinate is the summation index. -/
theorem rhs_0 (i : S4096x128.Idx) (c : dot_S4096x1024_S1024x128_S4096x128_1_0_0_1_n_n.contr.Idx) :
    (dot_S4096x1024_S1024x128_S4096x128_1_0_0_1_n_n.rhsIdx i c 0).val = (c ⟨0, by decide⟩).val :=
  dot_S4096x1024_S1024x128_S4096x128_1_0_0_1_n_n.rhsIdx_val_of_single rfl i c
/-- The right factor's column coordinate is the entry's column. -/
theorem rhs_1 (i : S4096x128.Idx) (c : dot_S4096x1024_S1024x128_S4096x128_1_0_0_1_n_n.contr.Idx) :
    (dot_S4096x1024_S1024x128_S4096x128_1_0_0_1_n_n.rhsIdx i c 1).val = (i 1).val := by
  unfold DotDims.rhsIdx
  rw [dif_neg (show ¬(1 : Fin S1024x128.rank) ∈ dot_S4096x1024_S1024x128_S4096x128_1_0_0_1_n_n.rhsBatch by decide), dif_pos (show (1 : Fin S1024x128.rank) ∈ dot_S4096x1024_S1024x128_S4096x128_1_0_0_1_n_n.rhsNonContracting by decide)]
  rfl

/-- A 4096 × 1024 tile times a 1024 × 128 tile, accumulated into the zero tile, is at entry (p, q) the sum over
    k < 1024 of l(p, k) · r(k, q). -/
theorem matmul_tile_apply (l : FVec Ideal S4096x1024 .f32) (r : FVec Ideal S1024x128 .f32) (p : Fin 4096) (q : Fin 128) :
    matmul (F := Ideal) dot_S4096x1024_S1024x128_S4096x128_1_0_0_1_n_n (some .fp32) l r (constant (F := Ideal) S4096x128 .f32 0x00000000#32) (ix2 p q)
      = ∑ k : Fin 1024, l (ix2 p k) * r (ix2 k q) := by
  simp only [matmul]
  rw [Ideal.matmul_constant_zero_apply, ← Equiv.sum_comp (contrEquiv1 dot_S4096x1024_S1024x128_S4096x128_1_0_0_1_n_n 1024 rfl rfl).symm]
  refine Finset.sum_congr rfl fun k _ => ?_
  have hk := contrEquiv1_symm_val dot_S4096x1024_S1024x128_S4096x128_1_0_0_1_n_n 1024 rfl rfl k
  have el : dot_S4096x1024_S1024x128_S4096x128_1_0_0_1_n_n.lhsIdx (ix2 p q) ((contrEquiv1 dot_S4096x1024_S1024x128_S4096x128_1_0_0_1_n_n 1024 rfl rfl).symm k) = ix2 p k := funext fun a => Fin.ext (by
    match a with
    | ⟨0, _⟩ => exact lhs_0 _ _
    | ⟨1, _⟩ => exact (lhs_1 _ _).trans hk)
  have er : dot_S4096x1024_S1024x128_S4096x128_1_0_0_1_n_n.rhsIdx (ix2 p q) ((contrEquiv1 dot_S4096x1024_S1024x128_S4096x128_1_0_0_1_n_n 1024 rfl rfl).symm k) = ix2 k q := funext fun a => Fin.ext (by
    match a with
    | ⟨0, _⟩ => exact (rhs_0 _ _).trans hk
    | ⟨1, _⟩ => exact rhs_1 _ _)
  rw [el, er]

/-! ## The first layer's three tiles -/

/-- The tile a first step writes is zero everywhere. -/
theorem pay1_apply (p : Fin 4096) (q : Fin 128) : k0_pay1 (F := Ideal) (ix2 p q) = 0 := by
  unfold k0_pay1
  rw [shapeCast_self]
  exact Ideal.ofBits_zero_f32

/-- Every step adds to the running tile the product of its adjacency tile and its feature slice. -/
theorem pay2_apply (v6 : Vec Ideal S1024x128 .f32) (v8 : Vec Ideal S4096x128 .f32) (v9 : Vec Ideal S4096x1024 .f32)
    (p : Fin 4096) (q : Fin 128) :
    k0_pay2 v6 v8 v9 (ix2 p q) = v8 (ix2 p q) + ∑ k : Fin 1024, v9 (ix2 p k) * v6 (ix2 k q) := by
  unfold k0_pay2
  rw [shapeCast_self, shapeCast_self, addf_apply, matmul_tile_apply]

/-- The last step writes the running tile plus the bias row, rectified. -/
theorem pay3_apply (v18 : Vec Ideal S4096x128 .f32) (v19 : Vec Ideal S1x128 .f32) (p : Fin 4096) (q : Fin 128) :
    k0_pay3 v18 v19 (ix2 p q) = max (v18 (ix2 p q) + v19 (ix2 0 q)) 0 := by
  unfold k0_pay3
  rw [shapeCast_self, maximumf_apply, addf_apply, broadcastTo_1b_ab_apply, broadcast_apply]
  exact congrArg (max _) Ideal.ofBits_zero_f32

/-! ## The second layer's three tiles: the same arithmetic -/

/-- The tile a first step writes is zero everywhere. -/
theorem pay1_apply' (p : Fin 4096) (q : Fin 128) : k1_pay1 (F := Ideal) (ix2 p q) = 0 := by
  unfold k1_pay1
  rw [shapeCast_self]
  exact Ideal.ofBits_zero_f32

/-- Every step adds to the running tile the product of its adjacency tile and its feature slice. -/
theorem pay2_apply' (v6 : Vec Ideal S1024x128 .f32) (v8 : Vec Ideal S4096x128 .f32) (v9 : Vec Ideal S4096x1024 .f32)
    (p : Fin 4096) (q : Fin 128) :
    k1_pay2 v6 v8 v9 (ix2 p q) = v8 (ix2 p q) + ∑ k : Fin 1024, v9 (ix2 p k) * v6 (ix2 k q) := by
  unfold k1_pay2
  rw [shapeCast_self, shapeCast_self, addf_apply, matmul_tile_apply]

/-- The last step writes the running tile plus the bias row, rectified. -/
theorem pay3_apply' (v18 : Vec Ideal S4096x128 .f32) (v19 : Vec Ideal S1x128 .f32) (p : Fin 4096) (q : Fin 128) :
    k1_pay3 v18 v19 (ix2 p q) = max (v18 (ix2 p q) + v19 (ix2 0 q)) 0 := by
  unfold k1_pay3
  rw [shapeCast_self, maximumf_apply, addf_apply, broadcastTo_1b_ab_apply, broadcast_apply]
  exact congrArg (max _) Ideal.ofBits_zero_f32

end Cert.KernelIdeal.Hand.Pay

end
-- ==== Proof.LibSumRuns.lean ====
/-
  A sum of `m · n` terms taken in order is the sum of its `m` consecutive runs of `n` terms: term `s · n + r` is the
  `r`-th term of run `s`. (What joins a contraction taken whole with the same contraction taken tile by tile.)
-/
import Mathlib.Algebra.BigOperators.Fin
import Mathlib.Logic.Equiv.Fin.Basic

open scoped BigOperators

namespace Cert.Lib.SumRuns

/-- Term `r` of run `s` is below `m · n`. -/
theorem run_lt {m n : ℕ} (s : Fin m) (r : Fin n) : s.val * n + r.val < m * n := by
  have h1 : (s.val + 1) * n ≤ m * n := Nat.mul_le_mul_right n s.isLt
  have h2 : r.val < n := r.isLt
  rw [Nat.succ_mul] at h1
  omega

/-- A sum over `Fin (m * n)` is the double sum over the runs `s : Fin m` and the places `r : Fin n` in a run, the term at
    `s · n + r`. -/
theorem sum_runs {M : Type*} [AddCommMonoid M] (m n : ℕ) (g : Fin (m * n) → M) :
    ∑ k : Fin (m * n), g k = ∑ s : Fin m, ∑ r : Fin n, g ⟨s.val * n + r.val, run_lt s r⟩ := by
  rw [← Equiv.sum_comp (finProdFinEquiv (m := m) (n := n)) g, Fintype.sum_prod_type]
  refine Finset.sum_congr rfl fun s _ => Finset.sum_congr rfl fun r _ => congrArg g (Fin.ext ?_)
  show r.val + n * s.val = s.val * n + r.val
  rw [Nat.mul_comm, Nat.add_comm]

end Cert.Lib.SumRuns
-- ==== Proof.Spec.lean ====
/-
  The two-layer graph convolution, element by element, on the extended reals.

  A node-feature array [16384, 128] is first taken through a [128, 128] weight (`proj128`); one layer then
  aggregates over the graph, `out[n, c] = max (∑ j, adj[n, j] · loc[j, c] + b[c]) 0` (`layer`), and after two
  such layers a linear head [128, 2] with its bias gives the two class scores per node (`head`): `gcn`.

  The one law that joins an aggregation taken whole with the same aggregation taken tile by tile: a sum over the
  16384 neighbours is the sum of its 16 consecutive runs of 1024 terms (`sum_runs16`), and an accumulator that starts
  from zero plus the first run and adds the later runs one after another, left to right, holds after the last run the
  whole sum (`fold_runs`, `fold_runs16`). Only associativity and commutativity of addition on the extended reals are
  used, so nothing here asks the entries to be finite.
-/
import Idealize.ShloMosaic.PureOps.Ideal
import Idealize.ShloMosaic.PureOps.Ideal.Laws
import Idealize.ShloMosaic.Lib.ValueIdx
import proofs.«126341_j35888746725725_2_alg».proof.Proof.LibSumRuns

noncomputable section

open scoped BigOperators

namespace Cert.Spec

open Idealize.ShloMosaic Idealize.ShloMosaic.ValueIdx

/-- The float word of all zero bits is the real number zero. -/
theorem zero_word : Ideal.ofBits .f32 0x00000000#32 = (0 : EReal) := Ideal.ofBits_zero_f32

/-- Node features times a square weight: `out[n, c] = ∑ k, feat[n, k] · w[k, c]`. -/
def proj128 (feat : (⟨2, ![16384, 128]⟩ : Shape).Idx → EReal) (w : (⟨2, ![128, 128]⟩ : Shape).Idx → EReal) :
    (⟨2, ![16384, 128]⟩ : Shape).Idx → EReal :=
  fun i => ∑ k : Fin 128, feat (ix2 (n0 := 16384) (n1 := 128) (i 0) k) * w (ix2 (n0 := 128) (n1 := 128) k (i 1))

/-- One graph-convolution layer: aggregate the neighbours' rows, add the bias of the channel, clamp below at the zero
    word: `out[n, c] = max (∑ j, adj[n, j] · loc[j, c] + b[c]) 0`. -/
def layer (adj : (⟨2, ![16384, 16384]⟩ : Shape).Idx → EReal) (loc : (⟨2, ![16384, 128]⟩ : Shape).Idx → EReal)
    (b : (⟨1, ![128]⟩ : Shape).Idx → EReal) : (⟨2, ![16384, 128]⟩ : Shape).Idx → EReal :=
  fun i => max ((∑ j : Fin 16384, adj (ix2 (n0 := 16384) (n1 := 16384) (i 0) j) * loc (ix2 (n0 := 16384) (n1 := 128) j (i 1)))
    + b (ix1 (n := 128) (i 1))) (Ideal.ofBits .f32 0x00000000#32)

/-- The same layer with its bias given as a one-row array [1, 128] (the form a tile-by-tile evaluation holds it in). -/
def layer2 (adj : (⟨2, ![16384, 16384]⟩ : Shape).Idx → EReal) (loc : (⟨2, ![16384, 128]⟩ : Shape).Idx → EReal)
    (b2 : (⟨2, ![1, 128]⟩ : Shape).Idx → EReal) : (⟨2, ![16384, 128]⟩ : Shape).Idx → EReal :=
  fun i => max ((∑ j : Fin 16384, adj (ix2 (n0 := 16384) (n1 := 16384) (i 0) j) * loc (ix2 (n0 := 16384) (n1 := 128) j (i 1)))
    + b2 (ix2 (n0 := 1) (n1 := 128) 0 (i 1))) (Ideal.ofBits .f32 0x00000000#32)

/-- A bias row that reads the bias vector at the channel gives the same layer. -/
theorem layer2_eq_layer (adj : (⟨2, ![16384, 16384]⟩ : Shape).Idx → EReal) (loc : (⟨2, ![16384, 128]⟩ : Shape).Idx → EReal)
    (b2 : (⟨2, ![1, 128]⟩ : Shape).Idx → EReal) (b : (⟨1, ![128]⟩ : Shape).Idx → EReal)
    (h : ∀ q : Fin 128, b2 (ix2 (n0 := 1) (n1 := 128) 0 q) = b (ix1 (n := 128) q)) : layer2 adj loc b2 = layer adj loc b := by
  funext i
  exact congrArg (fun z => max ((∑ j : Fin 16384, adj (ix2 (n0 := 16384) (n1 := 16384) (i 0) j)
    * loc (ix2 (n0 := 16384) (n1 := 128) j (i 1))) + z) (Ideal.ofBits .f32 0x00000000#32)) (h (i 1))

/-- The linear head: `out[n, c] = ∑ k, feat[n, k] · w[k, c] + b[c]` for the two classes `c`. -/
def head (feat : (⟨2, ![16384, 128]⟩ : Shape).Idx → EReal) (w : (⟨2, ![128, 2]⟩ : Shape).Idx → EReal)
    (b : (⟨1, ![2]⟩ : Shape).Idx → EReal) : (⟨2, ![16384, 2]⟩ : Shape).Idx → EReal :=
  fun i => (∑ k : Fin 128, feat (ix2 (n0 := 16384) (n1 := 128) (i 0) k) * w (ix2 (n0 := 128) (n1 := 2) k (i 1)))
    + b (ix1 (n := 2) (i 1))

/-- The network: two layers, each over the projected features of the one before, then the head. -/
def gcn (x : (⟨2, ![16384, 128]⟩ : Shape).Idx → EReal) (adj : (⟨2, ![16384, 16384]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (w3 : (⟨2, ![128, 2]⟩ : Shape).Idx → EReal) (b3 : (⟨1, ![2]⟩ : Shape).Idx → EReal) :
    (⟨2, ![16384, 2]⟩ : Shape).Idx → EReal :=
  head (layer adj (proj128 (layer adj (proj128 x w1) b1) w2) b2) w3 b3

/-! ## The three maps at an index given by its coordinates -/

theorem proj128_ix2 (feat : (⟨2, ![16384, 128]⟩ : Shape).Idx → EReal) (w : (⟨2, ![128, 128]⟩ : Shape).Idx → EReal)
    (n : Fin 16384) (c : Fin 128) :
    proj128 feat w (ix2 n c) = ∑ k : Fin 128, feat (ix2 n k) * w (ix2 k c) := rfl

theorem layer_ix2 (adj : (⟨2, ![16384, 16384]⟩ : Shape).Idx → EReal) (loc : (⟨2, ![16384, 128]⟩ : Shape).Idx → EReal)
    (b : (⟨1, ![128]⟩ : Shape).Idx → EReal) (n : Fin 16384) (c : Fin 128) :
    layer adj loc b (ix2 n c)
      = max ((∑ j : Fin 16384, adj (ix2 n j) * loc (ix2 j c)) + b (ix1 c)) (Ideal.ofBits .f32 0x00000000#32) := rfl

theorem layer2_ix2 (adj : (⟨2, ![16384, 16384]⟩ : Shape).Idx → EReal) (loc : (⟨2, ![16384, 128]⟩ : Shape).Idx → EReal)
    (b2 : (⟨2, ![1, 128]⟩ : Shape).Idx → EReal) (n : Fin 16384) (c : Fin 128) :
    layer2 adj loc b2 (ix2 n c)
      = max ((∑ j : Fin 16384, adj (ix2 n j) * loc (ix2 j c)) + b2 (ix2 0 c)) (Ideal.ofBits .f32 0x00000000#32) := rfl

theorem head_ix2 (feat : (⟨2, ![16384, 128]⟩ : Shape).Idx → EReal) (w : (⟨2, ![128, 2]⟩ : Shape).Idx → EReal)
    (b : (⟨1, ![2]⟩ : Shape).Idx → EReal) (n : Fin 16384) (c : Fin 2) :
    head feat w b (ix2 n c) = (∑ k : Fin 128, feat (ix2 n k) * w (ix2 k c)) + b (ix1 c) := rfl

/-! ## A sum of 16384 terms by its 16 runs of 1024 -/

/-- Term `r` of run `k` is one of the 16384. -/
theorem run16_lt (k : Fin 16) (r : Fin 1024) : k.val * 1024 + r.val < 16384 := by omega

/-- The sum over the 16384 neighbours is the sum over the 16 runs of the sums of their 1024 terms. -/
theorem sum_runs16 (f : Fin 16384 → EReal) :
    (∑ j, f j) = ∑ k : Fin 16, ∑ r : Fin 1024, f ⟨k.val * 1024 + r.val, run16_lt k r⟩ :=
  Cert.Lib.SumRuns.sum_runs 16 1024 f

/-- An accumulator that starts at zero plus the first term and then adds the terms one after another holds, after term
    `n`, the sum of the terms up to `n` (stated for the first `N` terms only, so that the later steps need not be given). -/
theorem fold_runs (N : ℕ) (S acc : ℕ → EReal) (h0 : acc 0 = 0 + S 0)
    (hs : ∀ k, k + 1 < N → acc (k + 1) = acc k + S (k + 1)) :
    ∀ n, n < N → acc n = ∑ k ∈ Finset.range (n + 1), S k := by
  intro n
  induction n with
  | zero => intro _; rw [h0, zero_add, Finset.sum_range_one]
  | succ n ih =>
    intro hn
    rw [hs n hn, ih (by omega), Finset.sum_range_succ (fun k => S k) (n + 1)]

/-- The same for sixteen runs indexed by `Fin 16`: after the sixteenth the accumulator holds the sum of all of them. -/
theorem fold_runs16 (S acc : Fin 16 → EReal) (h0 : acc 0 = 0 + S 0)
    (hs : ∀ (k : ℕ) (h : k + 1 < 16), acc ⟨k + 1, h⟩ = acc ⟨k, by omega⟩ + S ⟨k + 1, h⟩) :
    acc 15 = ∑ k : Fin 16, S k := by
  have key := fold_runs 16 (fun k => if h : k < 16 then S ⟨k, h⟩ else 0) (fun k => if h : k < 16 then acc ⟨k, h⟩ else 0)
    (by simpa using h0)
    (fun k hk => by
      have hk' : k < 16 := by omega
      simp only [dif_pos hk, dif_pos hk']
      exact hs k hk)
    15 (by omega)
  simp only [show (15 : ℕ) < 16 by omega, dif_pos] at key
  rw [show (15 : Fin 16) = ⟨15, by omega⟩ from rfl, key, show (15 + 1 : ℕ) = 16 from rfl,
    ← Fin.sum_univ_eq_sum_range (fun k => if h : k < 16 then S ⟨k, h⟩ else 0) 16]
  refine Finset.sum_congr rfl fun k _ => ?_
  show (if h : k.val < 16 then S ⟨k.val, h⟩ else 0) = S k
  rw [dif_pos k.isLt]

/-- The tiled aggregation: sixteen runs of 1024 neighbours accumulated left to right from zero give the whole sum over
    the 16384 neighbours. -/
theorem fold_sum_runs16 (f : Fin 16384 → EReal) (acc : Fin 16 → EReal)
    (h0 : acc 0 = 0 + ∑ r : Fin 1024, f ⟨(0 : Fin 16).val * 1024 + r.val, run16_lt 0 r⟩)
    (hs : ∀ (k : ℕ) (h : k + 1 < 16), acc ⟨k + 1, h⟩
      = acc ⟨k, by omega⟩ + ∑ r : Fin 1024, f ⟨(⟨k + 1, h⟩ : Fin 16).val * 1024 + r.val, run16_lt ⟨k + 1, h⟩ r⟩) :
    acc 15 = ∑ j, f j := by
  rw [sum_runs16 f]
  exact fold_runs16 (fun k => ∑ r : Fin 1024, f ⟨k.val * 1024 + r.val, run16_lt k r⟩) acc h0 hs

end Cert.Spec

end
-- ==== Proof.KI.R0Value.lean ====
/-
  The first layer's tiled aggregation, read off its grid: the array the call writes is the layer of the specification.

  The grid has 4 row blocks of 4096 nodes by 16 reduction steps of 1024 neighbours. At step k of row block i the
  accumulator's entry (p, q) gains run k of node 4096 i + p's aggregation, ∑ r < 1024 of
  adj(4096 i + p, 1024 k + r) · loc(1024 k + r, q); the first step starts from zero. After the sixteenth step it holds
  the whole sum over the 16384 neighbours (a sum is the sum of its consecutive runs, taken in order), and that step
  stores the sum plus the bias of the channel, clamped below at zero, into the output block, which is written back as
  rows 4096 i … 4096 i + 4095 of the array. The four written-back blocks cover the array.
-/
import proofs.«126341_j35888746725725_2_alg».proof.Proof.KI.R0Pieces
import proofs.«126341_j35888746725725_2_alg».proof.Proof.KI.R0Blocks
import proofs.«126341_j35888746725725_2_alg».proof.Proof.KI.Payload
import proofs.«126341_j35888746725725_2_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Grid points, rows and the aggregation's terms -/

/-- The grid has 64 points: 4 row blocks by 16 reduction steps, the step running fastest. -/
theorem pt0_lt (i : Fin 4) (k : Fin 16) : 16 * i.val + k.val < cfg0.N := by
  rw [show cfg0.N = 64 from N_0]; omega

/-- The point of row block `i` at reduction step `k`. -/
abbrev pt0 (i : Fin 4) (k : Fin 16) : Fin cfg0.N := ⟨16 * i.val + k.val, pt0_lt i k⟩

/-- Row `p` of row block `i` of the graph. -/
abbrev rowOf (i : Fin 4) (p : Fin 4096) : Fin 16384 := ⟨4096 * i.val + p.val, by omega⟩

/-- Neighbour `j`'s contribution to node `n`, channel `q`: the edge weight times the neighbour's projected feature. -/
abbrev aggT (adj : (⟨2, ![16384, 16384]⟩ : Shape).Idx → EReal) (loc : (⟨2, ![16384, 128]⟩ : Shape).Idx → EReal)
    (n : Fin 16384) (q : Fin 128) (j : Fin 16384) : EReal :=
  adj (ix2 n j) * loc (ix2 j q)

/-- The same for the call's own arrays: the adjacency matrix and the projected features as the call finds them. -/
abbrev agg0 (c : Dev nD) (n : Fin 16384) (q : Fin 128) (j : Fin 16384) : EReal :=
  aggT (V c main_arg1) (V c main_v0) n q j

theorem outsAt0_idx (c : Dev nD) {n n' : ℕ} (e : n = n') (h : n < cfg0.N) (h' : n' < cfg0.N) :
    outsAt0 V c n h = outsAt0 V c n' h' := by subst e; rfl

/-! ## The blocks a step reads, by row block and step -/

/-- The adjacency tile of row block `i` at step `k`: rows `4096 i + p`, neighbours `1024 k + r`. -/
theorem blk0_at (c : Dev nD) (i : Fin 4) (k : Fin 16) (t : Fin cfg0.N) (ht : t.val = 16 * i.val + k.val) (p : Fin 4096) (r : Fin 1024) :
    (iblk0 V c 0 t : S4096x1024.Idx → EReal) (ix2 p r)
      = (V c main_arg1 : S16384x16384.Idx → EReal) (ix2 (rowOf i p) ⟨k.val * 1024 + r.val, Cert.Spec.run16_lt k r⟩) := by
  refine (blk0_0_apply V c t p r).trans ?_
  have e1 : (⟨4096 * (t.val / 16) + p.val, row0_lt t p⟩ : Fin 16384) = rowOf i p :=
    Fin.ext (by show 4096 * (t.val / 16) + p.val = 4096 * i.val + p.val; have := k.isLt; omega)
  have e2 : (⟨1024 * (t.val % 16) + r.val, run0_lt t r⟩ : Fin 16384) = ⟨k.val * 1024 + r.val, Cert.Spec.run16_lt k r⟩ :=
    Fin.ext (by show 1024 * (t.val % 16) + r.val = k.val * 1024 + r.val; have := k.isLt; omega)
  rw [e1, e2]

/-- The slice of the resident features a step at `k` loads: rows `1024 k + r`. -/
theorem slice0_at (c : Dev nD) (i : Fin 4) (k : Fin 16) (t : Fin cfg0.N) (ht : t.val = 16 * i.val + k.val) (r : Fin 1024) (q : Fin 128) :
    View.ld (iblk0 V c 1 t) (Rect.unit (s := S16384x128) (k0_off1 (grid0.coords t)) S1024x128.size (k0_off1_inb (grid0.coords t))) (ix2 r q)
      = (V c main_v0 : S16384x128.Idx → EReal) (ix2 ⟨k.val * 1024 + r.val, Cert.Spec.run16_lt k r⟩ q) := by
  refine (slice0_apply (iblk0 V c 1 t) t r q).trans ?_
  refine (blk0_1_apply V c t _ q).trans ?_
  have e2 : (⟨1024 * (t.val % 16) + r.val, run0_lt t r⟩ : Fin 16384) = ⟨k.val * 1024 + r.val, Cert.Spec.run16_lt k r⟩ :=
    Fin.ext (by show 1024 * (t.val % 16) + r.val = k.val * 1024 + r.val; have := k.isLt; omega)
  rw [e2]

/-- An entry of the output block the last step of row block `i` stores sits at row `4096 i + p` of the array. -/
theorem emb3_at (i : Fin 4) (p : Fin 4096) (q : Fin 128) :
    (((cfg0.win 3).blk (pt0 i 15)).view.emb (ix2 p q) : S16384x128.Idx) = ix2 (rowOf i p) q := by
  refine (emb0_3 (pt0 i 15) p q).trans ?_
  have e1 : (⟨4096 * ((pt0 i 15).val / 16) + p.val, row0_lt (pt0 i 15) p⟩ : Fin 16384) = rowOf i p :=
    Fin.ext (by show 4096 * ((16 * i.val + 15) / 16) + p.val = 4096 * i.val + p.val; omega)
  rw [e1]

/-! ## One step's contribution -/

/-- At step `k` of row block `i` the tile product adds, at entry (p, q), run `k` of node `4096 i + p`'s aggregation. -/
theorem step_acc0 (c : Dev nD) (i : Fin 4) (k : Fin 16) (t : Fin cfg0.N) (ht : t.val = 16 * i.val + k.val)
    (prev : Vec Ideal S4096x128 .f32) (p : Fin 4096) (q : Fin 128) :
    k0_pay2 (View.ld (iblk0 V c 1 t) (Rect.unit (s := S16384x128) (k0_off1 (grid0.coords t)) S1024x128.size (k0_off1_inb (grid0.coords t)))) prev (iblk0 V c 0 t) (ix2 p q)
      = prev (ix2 p q) + ∑ r : Fin 1024, agg0 V c (rowOf i p) q ⟨k.val * 1024 + r.val, Cert.Spec.run16_lt k r⟩ := by
  refine (Pay.pay2_apply _ _ _ p q).trans ?_
  refine congrArg (fun z => prev (ix2 p q) + z) (Finset.sum_congr rfl fun r _ => ?_)
  rw [blk0_at V c i k t ht p r, slice0_at V c i k t ht r q]

/-! ## The accumulator along a row block's sixteen steps -/

/-- After the last step of row block `i` the accumulator holds, at entry (p, q), node `4096 i + p`'s whole aggregation:
    it starts from zero plus the first run and takes the later runs one after another. -/
theorem acc_last0 (c : Dev nD) (i : Fin 4) (p : Fin 4096) (q : Fin 128) :
    (outsAt0 V c (pt0 i 15).val (pt0 i 15).isLt).2 (ix2 p q) = ∑ j : Fin 16384, agg0 V c (rowOf i p) q j := by
  have hN : cfg0.N = 64 := N_0
  refine Cert.Spec.fold_sum_runs16 (agg0 V c (rowOf i p) q)
    (fun k => (outsAt0 V c (pt0 i k).val (pt0 i k).isLt).2 (ix2 p q)) ?_ ?_
  · -- the first step
    have h0c : cond0_0 (grid0.coords (pt0 i 0)) := (hcond0_0 (pt0 i 0)).mpr (by show (16 * i.val + 0) % 16 = 0; omega)
    have h1c : ¬cond0_1 (grid0.coords (pt0 i 0)) := fun h => by
      have := (hcond0_1 (pt0 i 0)).mp h
      have e : (pt0 i 0).val = 16 * i.val + 0 := rfl
      omega
    show (outsAt0 V c (pt0 i 0).val (pt0 i 0).isLt).2 (ix2 p q) = _
    rw [outsAt0_A V c (pt0 i 0) h0c h1c]
    dsimp only
    rw [sout0_A_0_eq]
    refine (step_acc0 V c i 0 (pt0 i 0) rfl (k0_pay1 (F := Ideal)) p q).trans ?_
    rw [Pay.pay1_apply]
  · -- a later step
    intro k hk
    have e : (pt0 i ⟨k + 1, hk⟩).val = 16 * i.val + (k + 1) := rfl
    have hz : (pt0 i ⟨k + 1, hk⟩).val ≠ 0 := by omega
    have h0c : ¬cond0_0 (grid0.coords (pt0 i ⟨k + 1, hk⟩)) := fun h => by
      have := (hcond0_0 (pt0 i ⟨k + 1, hk⟩)).mp h
      omega
    have hprev : (outsAt0 V c ((pt0 i ⟨k + 1, hk⟩).val - 1) (Nat.lt_of_le_of_lt (Nat.sub_le _ _) (pt0 i ⟨k + 1, hk⟩).isLt))
        = outsAt0 V c (pt0 i ⟨k, by omega⟩).val (pt0 i ⟨k, by omega⟩).isLt :=
      outsAt0_idx V c (by show 16 * i.val + (k + 1) - 1 = 16 * i.val + k; omega) _ _
    show (outsAt0 V c (pt0 i ⟨k + 1, hk⟩).val (pt0 i ⟨k + 1, hk⟩).isLt).2 (ix2 p q) = _
    by_cases h1c : cond0_1 (grid0.coords (pt0 i ⟨k + 1, hk⟩))
    · rw [outsAt0_C V c (pt0 i ⟨k + 1, hk⟩) hz h0c h1c]
      dsimp only
      rw [sout0_C_0_eq, hprev]
      exact step_acc0 V c i ⟨k + 1, hk⟩ (pt0 i ⟨k + 1, hk⟩) rfl _ p q
    · rw [outsAt0_B V c (pt0 i ⟨k + 1, hk⟩) hz h0c h1c]
      dsimp only
      rw [sout0_B_0_eq, hprev]
      exact step_acc0 V c i ⟨k + 1, hk⟩ (pt0 i ⟨k + 1, hk⟩) rfl _ p q

/-! ## The output block a last step stores -/

/-- The last step of row block `i` stores, at entry (p, q) of the output block, the layer's value at node `4096 i + p`. -/
theorem out_last0 (c : Dev nD) (i : Fin 4) (p : Fin 4096) (q : Fin 128) :
    (outsAt0 V c (pt0 i 15).val (pt0 i 15).isLt).1 (ix2 p q)
      = Cert.Spec.layer2 (V c main_arg1) (V c main_v0) (V c main_v1) (ix2 (rowOf i p) q) := by
  have hN : cfg0.N = 64 := N_0
  have e : (pt0 i 15).val = 16 * i.val + 15 := rfl
  have hz : (pt0 i 15).val ≠ 0 := by omega
  have h1c : cond0_1 (grid0.coords (pt0 i 15)) := (hcond0_1 (pt0 i 15)).mpr (by omega)
  have h0c : ¬cond0_0 (grid0.coords (pt0 i 15)) := fun h => by
    have := (hcond0_0 (pt0 i 15)).mp h
    omega
  have hacc := acc_last0 V c i p q
  rw [outsAt0_C V c (pt0 i 15) hz h0c h1c] at hacc ⊢
  dsimp only at hacc ⊢
  rw [sout0_C_0_eq] at hacc
  rw [out0_C_3_eq]
  refine (Pay.pay3_apply _ _ p q).trans ?_
  rw [hacc, blk0_2_apply V c (pt0 i 15) 0 q, Cert.Spec.layer2_ix2, Cert.Spec.zero_word]

/-! ## The written-back blocks and the array -/

/-- What a write-back writes is its block of the layer's value. -/
theorem flushed0_eq (c : Dev nD) (t : Fin cfg0.N) (hf : (cfg0.win 3).flush t = true) :
    (dat0 V c).flushed 3 t
      = ((cfg0.win 3).blk t).view.read (Elt Ideal) (Cert.Spec.layer2 (V c main_arg1) (V c main_v0) (V c main_v1)) := by
  have h15 : t.val % 16 = 15 := (flush0_3 t).mp hf
  have hN : t.val < 64 := lt_of_lt_of_eq t.isLt (show cfg0.N = 64 from N_0)
  obtain ⟨i, rfl⟩ : ∃ i : Fin 4, t = pt0 i 15 :=
    ⟨⟨t.val / 16, by omega⟩, Fin.ext (by show t.val = 16 * (t.val / 16) + 15; omega)⟩
  show (cfg0.win 3).cut (grid0.coords (pt0 i 15)) ((dat0 V c).after 3 (pt0 i 15)) = _
  rw [after0_3]
  funext j
  obtain ⟨p, q, rfl⟩ : ∃ (p : Fin 4096) (q : Fin 128), j = ix2 p q := ⟨j 0, j 1, eq_ix2 j⟩
  show (outsAt0 V c (pt0 i 15).val (pt0 i 15).isLt).1 (ix2 p q)
    = Cert.Spec.layer2 (V c main_arg1) (V c main_v0) (V c main_v1) (((cfg0.win 3).blk (pt0 i 15)).view.emb (ix2 p q))
  rw [out_last0 V c i p q, emb3_at i p q]

/-- Every node's row lies in the block its row block's last step writes back, so the array ends holding the layer. -/
theorem arr0_eq (c : Dev nD) :
    (dat0 (F := Ideal) V c).arrAt 3 cfg0.N = Cert.Spec.layer2 (V c main_arg1) (V c main_v0) (V c main_v1) :=
  (dat0 V c).arrAt_eq_of_cover 3 _ (flushed0_eq V c) cover0_3

end Cert.KernelIdeal.Hand

end
-- ==== Proof.KI.R1Pieces.lean ====
/-
  What one grid step of the second layer's tiled aggregation leaves behind, as plain functions of what it read.

  The step at reduction coordinate k reads its 4096 × 1024 tile of the adjacency matrix, rows 1024 k … 1024 k + 1023 of
  the resident projected features, and the running 4096 × 128 tile. A first step (k = 0) starts the running tile from
  zero; every step adds the tile product to it; the last step (k = 15) also writes, into the output block, the finished
  running tile plus the bias row, clamped below at zero.
-/
import proofs.«126341_j35888746725725_2_alg».proof.Proof.KI.R1Frame
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

variable {F : FTy → Type} [FloatOps F]

/-- The zero offsets of a whole-buffer rectangle. -/
theorem hz2_1 : (![0, 0] : Fin 2 → Nat) = fun _ => 0 := funext fun a => by fin_cases a <;> rfl

/-- A first step leaves in the accumulator the zero tile plus the product of the adjacency tile with the step's slice
    of the resident features. -/
theorem sout1_A_0_eq (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : cond1_0 i) (hc1 : ¬cond1_1 i) (x0 : Vec F S4096x1024 .f32) (x1 : Vec F S16384x128 .f32) (x2 : Vec F S1x128 .f32) :
    sout1_A_0 c i arg2 harg2 arg3 harg3 arg4 harg4 arg5 harg5 arg6 harg6 hc0 hc1 x0 x1 x2
      = k1_pay2 (View.ld x1 (Rect.unit (s := S16384x128) (k1_off1 i) S1024x128.size (k1_off1_inb i))) k1_pay1 x0 := by
  unfold sout1_A_0
  rw [View.read_writes_eq_canon _ _ _ (scover1_A_0 c i arg2 harg2 arg3 harg3 arg4 harg4 arg5 harg5 arg6 harg6 hc0 hc1 x0 x1 x2)]
  unfold kernelRun1_A
  dsimp only
  sl_unfold_words
  rw [View.canon_cons_unit_zero (S := S4096x128) hz2_1, View.readCov_unit_zero (S := S4096x128) _ hz2_1]
  simp only [View.readAt_eq_ld, harg2.read_unread, harg3.read_unread, View.ld_unit_zero (S := S4096x1024) hz2_1]

/-- A middle step adds to the accumulator the product of the adjacency tile with the step's slice of the features. -/
theorem sout1_B_0_eq (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : ¬cond1_1 i) (x0 : Vec F S4096x1024 .f32) (x1 : Vec F S16384x128 .f32) (x2 : Vec F S1x128 .f32) (xs0 : Vec F S4096x128 .f32) :
    sout1_B_0 c i arg2 harg2 arg3 harg3 arg4 harg4 arg5 harg5 arg6 harg6 hc0 hc1 x0 x1 x2 xs0
      = k1_pay2 (View.ld x1 (Rect.unit (s := S16384x128) (k1_off1 i) S1024x128.size (k1_off1_inb i))) xs0 x0 := by
  unfold sout1_B_0
  rw [View.read_writes_eq_canon _ _ _ (scover1_B_0 c i arg2 harg2 arg3 harg3 arg4 harg4 arg5 harg5 arg6 harg6 hc0 hc1 x0 x1 x2 xs0)]
  unfold kernelRun1_B
  dsimp only
  sl_unfold_words
  rw [View.canon_unit_zero (S := S4096x128) hz2_1]
  simp only [View.readAt_eq_ld, harg2.read_unread, harg3.read_unread, harg6.read_unread, View.ld_unit_zero (S := S4096x1024) hz2_1,
    View.ld_unit_zero (S := S4096x128) hz2_1]

/-- So does the last step. -/
theorem sout1_C_0_eq (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) :
    sout1_C_0 c i arg2 harg2 arg3 harg3 arg4 harg4 arg5 harg5 arg6 harg6 hc0 hc1 x0 x1 x2 xs0
      = k1_pay2 (View.ld x1 (Rect.unit (s := S16384x128) (k1_off1 i) S1024x128.size (k1_off1_inb i))) xs0 x0 := by
  unfold sout1_C_0
  rw [View.read_writes_eq_canon _ _ _ (scover1_C_0 c i arg2 harg2 arg3 harg3 arg4 harg4 arg5 harg5 arg6 harg6 hc0 hc1 x0 x1 x2 xs0)]
  unfold kernelRun1_C
  dsimp only
  sl_unfold_words
  rw [View.canon_unit_zero (S := S4096x128) hz2_1]
  simp only [View.readAt_eq_ld, harg2.read_unread, harg3.read_unread, harg6.read_unread, View.ld_unit_zero (S := S4096x1024) hz2_1,
    View.ld_unit_zero (S := S4096x128) hz2_1]

/-- The last step stores into the output block the accumulator it has just completed plus the bias row, rectified. -/
theorem out1_C_3_eq (c : Dev nD) (i : grid1.Coords) (arg2 : Memref sig .tc .vmem S4096x1024 .f32) (harg2 : arg2.IsWhole) (arg3 : Memref sig .tc .vmem S16384x128 .f32) (harg3 : arg3.IsWhole) (arg4 : Memref sig .tc .vmem S1x128 .f32) (harg4 : arg4.IsWhole) (arg5 : Memref sig .tc .vmem S4096x128 .f32) (harg5 : arg5.IsWhole) (arg6 : Memref sig .tc .vmem S4096x128 .f32) (harg6 : arg6.IsWhole) (hc0 : ¬cond1_0 i) (hc1 : cond1_1 i) (x0 : Vec F S4096x1024 .f32) (x1 : Vec F S16384x128 .f32) (x2 : Vec F S1x128 .f32) (xs0 : Vec F S4096x128 .f32) :
    out1_C_3 c i arg2 harg2 arg3 harg3 arg4 harg4 arg5 harg5 arg6 harg6 hc0 hc1 x0 x1 x2 xs0
      = k1_pay3 (k1_pay2 (View.ld x1 (Rect.unit (s := S16384x128) (k1_off1 i) S1024x128.size (k1_off1_inb i))) xs0 x0) x2 := by
  unfold out1_C_3
  rw [View.read_writes_eq_canon _ _ _ (cover1_C_3 c i arg2 harg2 arg3 harg3 arg4 harg4 arg5 harg5 arg6 harg6 hc0 hc1 x0 x1 x2 xs0)]
  unfold kernelRun1_C
  dsimp only
  sl_unfold_words
  rw [View.canon_unit_zero (S := S4096x128) hz2_1, View.readCov_unit_zero (S := S4096x128) _ hz2_1]
  simp only [View.readAt_eq_ld, harg2.read_unread, harg3.read_unread, harg4.read_unread, harg6.read_unread,
    View.ld_unit_zero (S := S4096x1024) hz2_1, View.ld_unit_zero (S := S4096x128) hz2_1, View.ld_unit_zero (S := S1x128) hz2_1]

end Cert.KernelIdeal.Hand

end
-- ==== Proof.KI.R1Blocks.lean ====
/-
  Where each block of a grid step sits in its array, for the second layer's tiled aggregation.

  The 64 steps run over a 4 × 16 grid in row-major order: step t has row-block i = t / 16 and reduction coordinate
  k = t % 16. Its adjacency tile is rows 4096 i … and columns 1024 k … of the adjacency matrix; the projected features
  and the bias row are resident, the same whole array at every step; the body's slice of the features is rows
  1024 k … 1024 k + 1023; the output block is rows 4096 i … 4096 i + 4095 of the result, so an index of the result
  lies in step t's output block exactly when its row divided by 4096 is i.
-/
import proofs.«126341_j35888746725725_2_alg».proof.Proof.KI.R1Base
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable {F : FTy → Type} [FloatOps F]

/-! ## The grid in row-major order, and the block indices over it -/

/-- There are 64 steps. -/
theorem t1_lt (t : Fin cfg1.N) : t.val < 64 := lt_of_lt_of_eq t.isLt N_1

/-- Step t has row-block t / 16 and reduction coordinate t % 16. -/
theorem coords1 : ∀ t : Fin cfg1.N, (grid1.coords t 0).val = t.val / 16 ∧ (grid1.coords t 1).val = t.val % 16 :=
  (by decide +kernel : ∀ t : Fin grid1.N, (grid1.coords t 0).val = t.val / 16 ∧ (grid1.coords t 1).val = t.val % 16)

/-- The adjacency tile of step t is block (t / 16, t % 16). -/
theorem idx1_0 : ∀ t : Fin cfg1.N, win1_0.index t (0 : Fin 2) = t.val / 16 ∧ win1_0.index t (1 : Fin 2) = t.val % 16 :=
  (by decide +kernel : ∀ t : Fin grid1.N, win1_0.index t (0 : Fin 2) = t.val / 16 ∧ win1_0.index t (1 : Fin 2) = t.val % 16)
/-- The features' block never moves. -/
theorem idx1_1 : ∀ t : Fin cfg1.N, win1_1.index t (0 : Fin 2) = 0 ∧ win1_1.index t (1 : Fin 2) = 0 :=
  (by decide +kernel : ∀ t : Fin grid1.N, win1_1.index t (0 : Fin 2) = 0 ∧ win1_1.index t (1 : Fin 2) = 0)
/-- Nor does the bias row's. -/
theorem idx1_2 : ∀ t : Fin cfg1.N, win1_2.index t (0 : Fin 2) = 0 ∧ win1_2.index t (1 : Fin 2) = 0 :=
  (by decide +kernel : ∀ t : Fin grid1.N, win1_2.index t (0 : Fin 2) = 0 ∧ win1_2.index t (1 : Fin 2) = 0)
/-- The output block of step t is block (t / 16, 0). -/
theorem idx1_3 : ∀ t : Fin cfg1.N, win1_3.index t (0 : Fin 2) = t.val / 16 ∧ win1_3.index t (1 : Fin 2) = 0 :=
  (by decide +kernel : ∀ t : Fin grid1.N, win1_3.index t (0 : Fin 2) = t.val / 16 ∧ win1_3.index t (1 : Fin 2) = 0)

/-- Row p of row-block t / 16 is one of the 16384 rows. -/
theorem row1_lt (t : Fin cfg1.N) (p : Fin 4096) : 4096 * (t.val / 16) + p.val < 16384 := by
  have := t1_lt t; have := p.isLt; omega
/-- Place r of run t % 16 is one of the 16384 places. -/
theorem run1_lt (t : Fin cfg1.N) (r : Fin 1024) : 1024 * (t.val % 16) + r.val < 16384 := by
  have := r.isLt; omega

variable (V : (c : Dev nD) → (b : Ref sig .tc) → Buf (Elt F) ((c : Thread nD τ).loc b))

/-! ## The three input blocks read in their arrays -/

/-- The adjacency tile of step t at (p, r) is the adjacency matrix at row 4096 (t / 16) + p, column 1024 (t % 16) + r. -/
theorem blk1_0_apply (c : Dev nD) (t : Fin cfg1.N) (p : Fin 4096) (r : Fin 1024) :
    (iblk1 V c 0 t : S4096x1024.Idx → Elt F .f32) (ix2 p r)
      = (V c main_arg1 : S16384x16384.Idx → Elt F .f32) (ix2 ⟨4096 * (t.val / 16) + p.val, row1_lt t p⟩ ⟨1024 * (t.val % 16) + r.val, run1_lt t r⟩) := by
  obtain ⟨e0, e1⟩ := idx1_0 t
  unfold iblk1
  rw [View.read_apply]
  show V c main_arg1 _ = V c main_arg1 _
  refine congrArg _ ?_
  funext a
  apply Fin.ext
  match a with
  | ⟨0, _⟩ => show win1_0.index t (0 : Fin 2) * 4096 + 1 * p.val = 4096 * (t.val / 16) + p.val; rw [e0]; omega
  | ⟨1, _⟩ => show win1_0.index t (1 : Fin 2) * 1024 + 1 * r.val = 1024 * (t.val % 16) + r.val; rw [e1]; omega

/-- The features' block at every step is the whole array of projected features. -/
theorem blk1_1_apply (c : Dev nD) (t : Fin cfg1.N) (j : Fin 16384) (q : Fin 128) :
    (iblk1 V c 1 t : S16384x128.Idx → Elt F .f32) (ix2 j q) = (V c main_v3 : S16384x128.Idx → Elt F .f32) (ix2 j q) := by
  obtain ⟨e0, e1⟩ := idx1_1 t
  unfold iblk1
  rw [View.read_apply]
  show V c main_v3 _ = V c main_v3 _
  refine congrArg _ ?_
  funext a
  apply Fin.ext
  match a with
  | ⟨0, _⟩ => show win1_1.index t (0 : Fin 2) * 16384 + 1 * j.val = j.val; rw [e0]; omega
  | ⟨1, _⟩ => show win1_1.index t (1 : Fin 2) * 128 + 1 * q.val = q.val; rw [e1]; omega

/-- The same, as one equation of arrays. -/
theorem blk1_1_eq (c : Dev nD) (t : Fin cfg1.N) :
    (iblk1 V c 1 t : S16384x128.Idx → Elt F .f32) = (V c main_v3 : S16384x128.Idx → Elt F .f32) := by
  funext y
  obtain ⟨j, q, rfl⟩ : ∃ (j : Fin 16384) (q : Fin 128), y = ix2 j q := ⟨y 0, y 1, eq_ix2 y⟩
  exact blk1_1_apply V c t j q

/-- The bias block at every step is the bias row. -/
theorem blk1_2_apply (c : Dev nD) (t : Fin cfg1.N) (u : Fin 1) (q : Fin 128) :
    (iblk1 V c 2 t : S1x128.Idx → Elt F .f32) (ix2 u q) = (V c main_v4 : S1x128.Idx → Elt F .f32) (ix2 u q) := by
  obtain ⟨e0, e1⟩ := idx1_2 t
  unfold iblk1
  rw [View.read_apply]
  show V c main_v4 _ = V c main_v4 _
  refine congrArg _ ?_
  funext a
  apply Fin.ext
  match a with
  | ⟨0, _⟩ => show win1_2.index t (0 : Fin 2) * 1 + 1 * u.val = u.val; rw [e0]; omega
  | ⟨1, _⟩ => show win1_2.index t (1 : Fin 2) * 128 + 1 * q.val = q.val; rw [e1]; omega

/-- The same, as one equation of arrays. -/
theorem blk1_2_eq (c : Dev nD) (t : Fin cfg1.N) :
    (iblk1 V c 2 t : S1x128.Idx → Elt F .f32) = (V c main_v4 : S1x128.Idx → Elt F .f32) := by
  funext y
  obtain ⟨u, q, rfl⟩ : ∃ (u : Fin 1) (q : Fin 128), y = ix2 u q := ⟨y 0, y 1, eq_ix2 y⟩
  exact blk1_2_apply V c t u q

/-! ## The body's slice of the resident features -/

/-- Place r of the run at reduction coordinate k is one of the 16384 places. -/
theorem runc1_lt (i : grid1.Coords) (r : Fin 1024) : 1024 * (i 1).val + r.val < 16384 := by
  have h : (i 1).val < 16 := (i 1).isLt
  have := r.isLt; omega

/-- At grid coordinates (i, k) the body reads rows 1024 k … 1024 k + 1023 of the features. -/
theorem slice1_apply_coords (x1 : Vec F S16384x128 .f32) (i : grid1.Coords) (r : Fin 1024) (q : Fin 128) :
    View.ld x1 (Rect.unit (s := S16384x128) (k1_off1 i) S1024x128.size (k1_off1_inb i)) (ix2 r q)
      = x1 (ix2 ⟨1024 * (i 1).val + r.val, runc1_lt i r⟩ q) := by
  have h0 : k1_off1 i 0 = 1024 * (i 1).val := congrFun (k1_off1_eq i) 0
  have h1 : k1_off1 i 1 = 0 := congrFun (k1_off1_eq i) 1
  show x1 _ = x1 _
  refine congrArg x1 ?_
  funext a
  apply Fin.ext
  match a with
  | ⟨0, _⟩ => show k1_off1 i 0 + 1 * r.val = 1024 * (i 1).val + r.val; rw [h0]; omega
  | ⟨1, _⟩ => show k1_off1 i 1 + 1 * q.val = q.val; rw [h1]; omega

/-- At step t these are rows 1024 (t % 16) … of the features. -/
theorem slice1_apply (x1 : Vec F S16384x128 .f32) (t : Fin cfg1.N) (r : Fin 1024) (q : Fin 128) :
    View.ld x1 (Rect.unit (s := S16384x128) (k1_off1 (grid1.coords t)) S1024x128.size (k1_off1_inb (grid1.coords t))) (ix2 r q)
      = x1 (ix2 ⟨1024 * (t.val % 16) + r.val, run1_lt t r⟩ q) := by
  rw [slice1_apply_coords]
  refine congrArg x1 ?_
  funext a
  apply Fin.ext
  match a with
  | ⟨0, _⟩ => show 1024 * (grid1.coords t 1).val + r.val = 1024 * (t.val % 16) + r.val; rw [(coords1 t).2]
  | ⟨1, _⟩ => rfl

/-! ## The output block in the result -/

/-- Entry (p, q) of step t's output block is entry (4096 (t / 16) + p, q) of the result. -/
theorem emb1_3 (t : Fin cfg1.N) (p : Fin 4096) (q : Fin 128) :
    (((cfg1.win 3).blk t).view.emb (ix2 p q) : S16384x128.Idx) = ix2 ⟨4096 * (t.val / 16) + p.val, row1_lt t p⟩ q := by
  obtain ⟨e0, e1⟩ := idx1_3 t
  funext a
  apply Fin.ext
  match a with
  | ⟨0, _⟩ => show win1_3.index t (0 : Fin 2) * 4096 + 1 * p.val = 4096 * (t.val / 16) + p.val; rw [e0]; omega
  | ⟨1, _⟩ => show win1_3.index t (1 : Fin 2) * 128 + 1 * q.val = q.val; rw [e1]; omega

/-- An index of the result lies in step t's output block exactly when its row-block is t / 16. -/
theorem mem_blk1_3 (t : Fin cfg1.N) (n : S16384x128.Idx) :
    n ∈ ((cfg1.win 3).blk t).view.set ↔ (n 0).val / 4096 = t.val / 16 := by
  obtain ⟨e0, e1⟩ := idx1_3 t
  have hn1 : (n 1).val < 128 := (n 1).isLt
  show n ∈ ((View.whole main_v5).slice (win1_3.rect t)).set ↔ _
  rw [View.set_slice_whole, Rect.mem_set_unit]
  constructor
  · intro h
    have b0 : win1_3.index t (0 : Fin 2) * 4096 ≤ (n 0).val ∧ (n 0).val < win1_3.index t (0 : Fin 2) * 4096 + 4096 := h 0
    omega
  · intro h a
    match a with
    | ⟨0, _⟩ => show win1_3.index t (0 : Fin 2) * 4096 ≤ (n 0).val ∧ (n 0).val < win1_3.index t (0 : Fin 2) * 4096 + 4096; omega
    | ⟨1, _⟩ => show win1_3.index t (1 : Fin 2) * 128 ≤ (n 1).val ∧ (n 1).val < win1_3.index t (1 : Fin 2) * 128 + 128; omega

/-- Every index of the result lies in the output block of a step that writes it back: the last step of its
    row-block. -/
theorem cover1_3 (n : S16384x128.Idx) :
    ∃ t : Fin cfg1.N, (cfg1.win 3).flush t = true ∧ n ∈ ((cfg1.win 3).blk t).view.set := by
  have hn0 : (n 0).val < 16384 := (n 0).isLt
  have hN : cfg1.N = 64 := N_1
  refine ⟨⟨16 * ((n 0).val / 4096) + 15, by rw [hN]; omega⟩, (flush1_3 _).mpr ?_, (mem_blk1_3 _ n).mpr ?_⟩
  · show (16 * ((n 0).val / 4096) + 15) % 16 = 15; omega
  · show (n 0).val / 4096 = (16 * ((n 0).val / 4096) + 15) / 16; omega

end Cert.KernelIdeal.Hand

end
-- ==== Proof.KI.R1Value.lean ====
/-
  The second layer's tiled aggregation, read off its grid: the array the call writes is the layer of the specification.

  The grid has 4 row blocks of 4096 nodes by 16 reduction steps of 1024 neighbours. At step k of row block i the
  accumulator's entry (p, q) gains run k of node 4096 i + p's aggregation, ∑ r < 1024 of
  adj(4096 i + p, 1024 k + r) · loc(1024 k + r, q); the first step starts from zero. After the sixteenth step it holds
  the whole sum over the 16384 neighbours (a sum is the sum of its consecutive runs, taken in order), and that step
  stores the sum plus the bias of the channel, clamped below at zero, into the output block, which is written back as
  rows 4096 i … 4096 i + 4095 of the array. The four written-back blocks cover the array.
-/
import proofs.«126341_j35888746725725_2_alg».proof.Proof.KI.R1Pieces
import proofs.«126341_j35888746725725_2_alg».proof.Proof.KI.R1Blocks
import proofs.«126341_j35888746725725_2_alg».proof.Proof.KI.Payload
import proofs.«126341_j35888746725725_2_alg».proof.Proof.Spec
import Idealize.ShloMosaic.Lib.Pipeline.Value

set_option maxRecDepth 16384

noncomputable section

open scoped BigOperators

namespace Cert.KernelIdeal.Hand

open Idealize.ShloMosaic Idealize.ShloMosaic.TcCoe Idealize.ShloMosaic.Tactic Idealize.ShloMosaic.ValueIdx
open Idealize.SL.Sem
open Idealize.ShloMosaic.Pipeline (Dat Cfg Window)
open Cert.KernelIdeal Cert.KernelIdeal.Gen

variable (V : (c : Dev nD) → (b : Ref sig .tc) → Buf (Elt Ideal) ((c : Thread nD τ).loc b))

/-! ## Grid points, rows and the aggregation's terms -/

/-- The grid has 64 points: 4 row blocks by 16 reduction steps, the step running fastest. -/
theorem pt1_lt (i : Fin 4) (k : Fin 16) : 16 * i.val + k.val < cfg1.N := by
  rw [show cfg1.N = 64 from N_1]; omega

/-- The point of row block `i` at reduction step `k`. -/
abbrev pt1 (i : Fin 4) (k : Fin 16) : Fin cfg1.N := ⟨16 * i.val + k.val, pt1_lt i k⟩

/-- Row `p` of row block `i` of the graph. -/
abbrev rowOf1 (i : Fin 4) (p : Fin 4096) : Fin 16384 := ⟨4096 * i.val + p.val, by omega⟩

/-- Neighbour `j`'s contribution to node `n`, channel `q`: the edge weight times the neighbour's projected feature. -/
abbrev aggT1 (adj : (⟨2, ![16384, 16384]⟩ : Shape).Idx → EReal) (loc : (⟨2, ![16384, 128]⟩ : Shape).Idx → EReal)
    (n : Fin 16384) (q : Fin 128) (j : Fin 16384) : EReal :=
  adj (ix2 n j) * loc (ix2 j q)

/-- The same for the call's own arrays: the adjacency matrix and the projected features as the call finds them. -/
abbrev agg1 (c : Dev nD) (n : Fin 16384) (q : Fin 128) (j : Fin 16384) : EReal :=
  aggT1 (V c main_arg1) (V c main_v3) n q j

theorem outsAt1_idx (c : Dev nD) {n n' : ℕ} (e : n = n') (h : n < cfg1.N) (h' : n' < cfg1.N) :
    outsAt1 V c n h = outsAt1 V c n' h' := by subst e; rfl

/-! ## The blocks a step reads, by row block and step -/

/-- The adjacency tile of row block `i` at step `k`: rows `4096 i + p`, neighbours `1024 k + r`. -/
theorem blk1_at (c : Dev nD) (i : Fin 4) (k : Fin 16) (t : Fin cfg1.N) (ht : t.val = 16 * i.val + k.val) (p : Fin 4096) (r : Fin 1024) :
    (iblk1 V c 0 t : S4096x1024.Idx → EReal) (ix2 p r)
      = (V c main_arg1 : S16384x16384.Idx → EReal) (ix2 (rowOf1 i p) ⟨k.val * 1024 + r.val, Cert.Spec.run16_lt k r⟩) := by
  refine (blk1_0_apply V c t p r).trans ?_
  have e1 : (⟨4096 * (t.val / 16) + p.val, row1_lt t p⟩ : Fin 16384) = rowOf1 i p :=
    Fin.ext (by show 4096 * (t.val / 16) + p.val = 4096 * i.val + p.val; have := k.isLt; omega)
  have e2 : (⟨1024 * (t.val % 16) + r.val, run1_lt t r⟩ : Fin 16384) = ⟨k.val * 1024 + r.val, Cert.Spec.run16_lt k r⟩ :=
    Fin.ext (by show 1024 * (t.val % 16) + r.val = k.val * 1024 + r.val; have := k.isLt; omega)
  rw [e1, e2]

/-- The slice of the resident features a step at `k` loads: rows `1024 k + r`. -/
theorem slice1_at (c : Dev nD) (i : Fin 4) (k : Fin 16) (t : Fin cfg1.N) (ht : t.val = 16 * i.val + k.val) (r : Fin 1024) (q : Fin 128) :
    View.ld (iblk1 V c 1 t) (Rect.unit (s := S16384x128) (k1_off1 (grid1.coords t)) S1024x128.size (k1_off1_inb (grid1.coords t))) (ix2 r q)
      = (V c main_v3 : S16384x128.Idx → EReal) (ix2 ⟨k.val * 1024 + r.val, Cert.Spec.run16_lt k r⟩ q) := by
  refine (slice1_apply (iblk1 V c 1 t) t r q).trans ?_
  refine (blk1_1_apply V c t _ q).trans ?_
  have e2 : (⟨1024 * (t.val % 16) + r.val, run1_lt t r⟩ : Fin 16384) = ⟨k.val * 1024 + r.val, Cert.Spec.run16_lt k r⟩ :=
    Fin.ext (by show 1024 * (t.val % 16) + r.val = k.val * 1024 + r.val; have := k.isLt; omega)
  rw [e2]

/-- An entry of the output block the last step of row block `i` stores sits at row `4096 i + p` of the array. -/
theorem emb3_at1 (i : Fin 4) (p : Fin 4096) (q : Fin 128) :
    (((cfg1.win 3).blk (pt1 i 15)).view.emb (ix2 p q) : S16384x128.Idx) = ix2 (rowOf1 i p) q := by
  refine (emb1_3 (pt1 i 15) p q).trans ?_
  have e1 : (⟨4096 * ((pt1 i 15).val / 16) + p.val, row1_lt (pt1 i 15) p⟩ : Fin 16384) = rowOf1 i p :=
    Fin.ext (by show 4096 * ((16 * i.val + 15) / 16) + p.val = 4096 * i.val + p.val; omega)
  rw [e1]

/-! ## One step's contribution -/

/-- At step `k` of row block `i` the tile product adds, at entry (p, q), run `k` of node `4096 i + p`'s aggregation. -/
theorem step_acc1 (c : Dev nD) (i : Fin 4) (k : Fin 16) (t : Fin cfg1.N) (ht : t.val = 16 * i.val + k.val)
    (prev : Vec Ideal S4096x128 .f32) (p : Fin 4096) (q : Fin 128) :
    k1_pay2 (View.ld (iblk1 V c 1 t) (Rect.unit (s := S16384x128) (k1_off1 (grid1.coords t)) S1024x128.size (k1_off1_inb (grid1.coords t)))) prev (iblk1 V c 0 t) (ix2 p q)
      = prev (ix2 p q) + ∑ r : Fin 1024, agg1 V c (rowOf1 i p) q ⟨k.val * 1024 + r.val, Cert.Spec.run16_lt k r⟩ := by
  refine (Pay.pay2_apply' _ _ _ p q).trans ?_
  refine congrArg (fun z => prev (ix2 p q) + z) (Finset.sum_congr rfl fun r _ => ?_)
  rw [blk1_at V c i k t ht p r, slice1_at V c i k t ht r q]

/-! ## The accumulator along a row block's sixteen steps -/

/-- After the last step of row block `i` the accumulator holds, at entry (p, q), node `4096 i + p`'s whole aggregation:
    it starts from zero plus the first run and takes the later runs one after another. -/
theorem acc_last1 (c : Dev nD) (i : Fin 4) (p : Fin 4096) (q : Fin 128) :
    (outsAt1 V c (pt1 i 15).val (pt1 i 15).isLt).2 (ix2 p q) = ∑ j : Fin 16384, agg1 V c (rowOf1 i p) q j := by
  have hN : cfg1.N = 64 := N_1
  refine Cert.Spec.fold_sum_runs16 (agg1 V c (rowOf1 i p) q)
    (fun k => (outsAt1 V c (pt1 i k).val (pt1 i k).isLt).2 (ix2 p q)) ?_ ?_
  · -- the first step
    have h0c : cond1_0 (grid1.coords (pt1 i 0)) := (hcond1_0 (pt1 i 0)).mpr (by show (16 * i.val + 0) % 16 = 0; omega)
    have h1c : ¬cond1_1 (grid1.coords (pt1 i 0)) := fun h => by
      have := (hcond1_1 (pt1 i 0)).mp h
      have e : (pt1 i 0).val = 16 * i.val + 0 := rfl
      omega
    show (outsAt1 V c (pt1 i 0).val (pt1 i 0).isLt).2 (ix2 p q) = _
    rw [outsAt1_A V c (pt1 i 0) h0c h1c]
    dsimp only
    rw [sout1_A_0_eq]
    refine (step_acc1 V c i 0 (pt1 i 0) rfl (k1_pay1 (F := Ideal)) p q).trans ?_
    rw [Pay.pay1_apply']
  · -- a later step
    intro k hk
    have e : (pt1 i ⟨k + 1, hk⟩).val = 16 * i.val + (k + 1) := rfl
    have hz : (pt1 i ⟨k + 1, hk⟩).val ≠ 0 := by omega
    have h0c : ¬cond1_0 (grid1.coords (pt1 i ⟨k + 1, hk⟩)) := fun h => by
      have := (hcond1_0 (pt1 i ⟨k + 1, hk⟩)).mp h
      omega
    have hprev : (outsAt1 V c ((pt1 i ⟨k + 1, hk⟩).val - 1) (Nat.lt_of_le_of_lt (Nat.sub_le _ _) (pt1 i ⟨k + 1, hk⟩).isLt))
        = outsAt1 V c (pt1 i ⟨k, by omega⟩).val (pt1 i ⟨k, by omega⟩).isLt :=
      outsAt1_idx V c (by show 16 * i.val + (k + 1) - 1 = 16 * i.val + k; omega) _ _
    show (outsAt1 V c (pt1 i ⟨k + 1, hk⟩).val (pt1 i ⟨k + 1, hk⟩).isLt).2 (ix2 p q) = _
    by_cases h1c : cond1_1 (grid1.coords (pt1 i ⟨k + 1, hk⟩))
    · rw [outsAt1_C V c (pt1 i ⟨k + 1, hk⟩) hz h0c h1c]
      dsimp only
      rw [sout1_C_0_eq, hprev]
      exact step_acc1 V c i ⟨k + 1, hk⟩ (pt1 i ⟨k + 1, hk⟩) rfl _ p q
    · rw [outsAt1_B V c (pt1 i ⟨k + 1, hk⟩) hz h0c h1c]
      dsimp only
      rw [sout1_B_0_eq, hprev]
      exact step_acc1 V c i ⟨k + 1, hk⟩ (pt1 i ⟨k + 1, hk⟩) rfl _ p q

/-! ## The output block a last step stores -/

/-- The last step of row block `i` stores, at entry (p, q) of the output block, the layer's value at node `4096 i + p`. -/
theorem out_last1 (c : Dev nD) (i : Fin 4) (p : Fin 4096) (q : Fin 128) :
    (outsAt1 V c (pt1 i 15).val (pt1 i 15).isLt).1 (ix2 p q)
      = Cert.Spec.layer2 (V c main_arg1) (V c main_v3) (V c main_v4) (ix2 (rowOf1 i p) q) := by
  have hN : cfg1.N = 64 := N_1
  have e : (pt1 i 15).val = 16 * i.val + 15 := rfl
  have hz : (pt1 i 15).val ≠ 0 := by omega
  have h1c : cond1_1 (grid1.coords (pt1 i 15)) := (hcond1_1 (pt1 i 15)).mpr (by omega)
  have h0c : ¬cond1_0 (grid1.coords (pt1 i 15)) := fun h => by
    have := (hcond1_0 (pt1 i 15)).mp h
    omega
  have hacc := acc_last1 V c i p q
  rw [outsAt1_C V c (pt1 i 15) hz h0c h1c] at hacc ⊢
  dsimp only at hacc ⊢
  rw [sout1_C_0_eq] at hacc
  rw [out1_C_3_eq]
  refine (Pay.pay3_apply' _ _ p q).trans ?_
  rw [hacc, blk1_2_apply V c (pt1 i 15) 0 q, Cert.Spec.layer2_ix2, Cert.Spec.zero_word]

/-! ## The written-back blocks and the array -/

/-- What a write-back writes is its block of the layer's value. -/
theorem flushed1_eq (c : Dev nD) (t : Fin cfg1.N) (hf : (cfg1.win 3).flush t = true) :
    (dat1 V c).flushed 3 t
      = ((cfg1.win 3).blk t).view.read (Elt Ideal) (Cert.Spec.layer2 (V c main_arg1) (V c main_v3) (V c main_v4)) := by
  have h15 : t.val % 16 = 15 := (flush1_3 t).mp hf
  have hN : t.val < 64 := lt_of_lt_of_eq t.isLt (show cfg1.N = 64 from N_1)
  obtain ⟨i, rfl⟩ : ∃ i : Fin 4, t = pt1 i 15 :=
    ⟨⟨t.val / 16, by omega⟩, Fin.ext (by show t.val = 16 * (t.val / 16) + 15; omega)⟩
  show (cfg1.win 3).cut (grid1.coords (pt1 i 15)) ((dat1 V c).after 3 (pt1 i 15)) = _
  rw [after1_3]
  funext j
  obtain ⟨p, q, rfl⟩ : ∃ (p : Fin 4096) (q : Fin 128), j = ix2 p q := ⟨j 0, j 1, eq_ix2 j⟩
  show (outsAt1 V c (pt1 i 15).val (pt1 i 15).isLt).1 (ix2 p q)
    = Cert.Spec.layer2 (V c main_arg1) (V c main_v3) (V c main_v4) (((cfg1.win 3).blk (pt1 i 15)).view.emb (ix2 p q))
  rw [out_last1 V c i p q, emb3_at1 i p q]

/-- Every node's row lies in the block its row block's last step writes back, so the array ends holding the layer. -/
theorem arr1_eq (c : Dev nD) :
    (dat1 (F := Ideal) V c).arrAt 3 cfg1.N = Cert.Spec.layer2 (V c main_arg1) (V c main_v3) (V c main_v4) :=
  (dat1 V c).arrAt_eq_of_cover 3 _ (flushed1_eq V c) cover1_3

end Cert.KernelIdeal.Hand

end
-- ==== Proof.KI.HostStages.lean ====
/-
  The matrix products and bias layouts around the two graph-convolution layers, read at one entry, over the extended
  reals: a product with a 128-row matrix is the sum over k < 128 of the factors' entries; a bias vector laid out as a
  row, or repeated down the rows, reads the vector's entry at the column; the head is the product plus the bias.
-/
import proofs.«126341_j35888746725725_2_alg».proof.Proof.Gen.KernelIdeal.Skeleton
import proofs.«126341_j35888746725725_2_alg».proof.Proof.Gen.KernelIdeal.Launch
import Idealize.ShloMosaic.PureOps.Ideal.Laws
import Idealize.ShloMosaic.Lib.ValueIdx
import Idealize.ShloMosaic.Lib.ValueLayout
import Idealize.ShloMosaic.Lib.Pipeline.Value
import proofs.«126341_j35888746725725_2_alg».proof.Proof.Spec

noncomputable section

open scoped BigOperators

namespace Cert.KernelIdeal.Hand.Host

open Idealize.ShloMosaic Idealize.ShloMosaic.ValueIdx
open Cert.KernelIdeal Cert.KernelIdeal.Gen

/-! ## The projection onto 128 columns -/

/-- The left factor's row coordinate is the entry's row. -/
theorem lhs128_0 (i : S16384x128.Idx) (c : dot_S16384x128_S128x128_S16384x128_1_0_0_1_n_n.contr.Idx) :
    (dot_S16384x128_S128x128_S16384x128_1_0_0_1_n_n.lhsIdx i c 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
/-- The left factor's column coordinate is the summation index. -/
theorem lhs128_1 (i : S16384x128.Idx) (c : dot_S16384x128_S128x128_S16384x128_1_0_0_1_n_n.contr.Idx) :
    (dot_S16384x128_S128x128_S16384x128_1_0_0_1_n_n.lhsIdx i c 1).val = (c ⟨0, by decide⟩).val :=
  dot_S16384x128_S128x128_S16384x128_1_0_0_1_n_n.lhsIdx_val_of_single rfl i c
/-- The right factor's row coordinate is the summation index. -/
theorem rhs128_0 (i : S16384x128.Idx) (c : dot_S16384x128_S128x128_S16384x128_1_0_0_1_n_n.contr.Idx) :
    (dot_S16384x128_S128x128_S16384x128_1_0_0_1_n_n.rhsIdx i c 0).val = (c ⟨0, by decide⟩).val :=
  dot_S16384x128_S128x128_S16384x128_1_0_0_1_n_n.rhsIdx_val_of_single rfl i c
/-- The right factor's column coordinate is the entry's column. -/
theorem rhs128_1 (i : S16384x128.Idx) (c : dot_S16384x128_S128x128_S16384x128_1_0_0_1_n_n.contr.Idx) :
    (dot_S16384x128_S128x128_S16384x128_1_0_0_1_n_n.rhsIdx i c 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl

/-- A 16384 × 128 matrix times a 128 × 128 matrix is at entry (i, c) the sum over k < 128 of l(i, k) · r(k, c). -/
theorem dot128_apply (l : FVec Ideal S16384x128 .f32) (r : FVec Ideal S128x128 .f32) (i : Fin 16384) (c : Fin 128) :
    Idealize.ShloMosaic.Host.dotGeneral (F := Ideal) dot_S16384x128_S128x128_S16384x128_1_0_0_1_n_n (some .fp32) l r (ix2 i c)
      = ∑ k : Fin 128, l (ix2 i k) * r (ix2 k c) := by
  simp only [Idealize.ShloMosaic.Host.dotGeneral]
  rw [Ideal.dotGeneral_apply, ← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 i c) ((contrEquiv1 dot_S16384x128_S128x128_S16384x128_1_0_0_1_n_n 128 rfl rfl).symm k) = ix2 i k := funext fun a => Fin.ext (by
    match a with
    | ⟨0, _⟩ => exact lhs128_0 _ _
    | ⟨1, _⟩ => exact (lhs128_1 _ _).trans hk)
  have er : dot_S16384x128_S128x128_S16384x128_1_0_0_1_n_n.rhsIdx (ix2 i c) ((contrEquiv1 dot_S16384x128_S128x128_S16384x128_1_0_0_1_n_n 128 rfl rfl).symm k) = ix2 k c := funext fun a => Fin.ext (by
    match a with
    | ⟨0, _⟩ => exact (rhs128_0 _ _).trans hk
    | ⟨1, _⟩ => exact rhs128_1 _ _)
  rw [el, er]

/-! ## The projection onto 2 columns -/

/-- The left factor's row coordinate is the entry's row. -/
theorem lhs2_0 (i : S16384x2.Idx) (c : dot_S16384x128_S128x2_S16384x2_1_0_0_1_n_n.contr.Idx) :
    (dot_S16384x128_S128x2_S16384x2_1_0_0_1_n_n.lhsIdx i c 0).val = (i 0).val := by
  unfold DotDims.lhsIdx
  rw [dif_neg (show ¬(0 : Fin S16384x128.rank) ∈ dot_S16384x128_S128x2_S16384x2_1_0_0_1_n_n.lhsBatch by decide), dif_pos (show (0 : Fin S16384x128.rank) ∈ dot_S16384x128_S128x2_S16384x2_1_0_0_1_n_n.lhsNonContracting by decide)]
  rfl
/-- The left factor's column coordinate is the summation index. -/
theorem lhs2_1 (i : S16384x2.Idx) (c : dot_S16384x128_S128x2_S16384x2_1_0_0_1_n_n.contr.Idx) :
    (dot_S16384x128_S128x2_S16384x2_1_0_0_1_n_n.lhsIdx i c 1).val = (c ⟨0, by decide⟩).val :=
  dot_S16384x128_S128x2_S16384x2_1_0_0_1_n_n.lhsIdx_val_of_single rfl i c
/-- The right factor's row coordinate is the summation index. -/
theorem rhs2_0 (i : S16384x2.Idx) (c : dot_S16384x128_S128x2_S16384x2_1_0_0_1_n_n.contr.Idx) :
    (dot_S16384x128_S128x2_S16384x2_1_0_0_1_n_n.rhsIdx i c 0).val = (c ⟨0, by decide⟩).val :=
  dot_S16384x128_S128x2_S16384x2_1_0_0_1_n_n.rhsIdx_val_of_single rfl i c
/-- The right factor's column coordinate is the entry's column. -/
theorem rhs2_1 (i : S16384x2.Idx) (c : dot_S16384x128_S128x2_S16384x2_1_0_0_1_n_n.contr.Idx) :
    (dot_S16384x128_S128x2_S16384x2_1_0_0_1_n_n.rhsIdx i c 1).val = (i 1).val := by
  unfold DotDims.rhsIdx
  rw [dif_neg (show ¬(1 : Fin S128x2.rank) ∈ dot_S16384x128_S128x2_S16384x2_1_0_0_1_n_n.rhsBatch by decide), dif_pos (show (1 : Fin S128x2.rank) ∈ dot_S16384x128_S128x2_S16384x2_1_0_0_1_n_n.rhsNonContracting by decide)]
  rfl

/-- A 16384 × 128 matrix times a 128 × 2 matrix is at entry (i, c) the sum over k < 128 of l(i, k) · r(k, c). -/
theorem dot2_apply (l : FVec Ideal S16384x128 .f32) (r : FVec Ideal S128x2 .f32) (i : Fin 16384) (c : Fin 2) :
    Idealize.ShloMosaic.Host.dotGeneral (F := Ideal) dot_S16384x128_S128x2_S16384x2_1_0_0_1_n_n (some .fp32) l r (ix2 i c)
      = ∑ k : Fin 128, l (ix2 i k) * r (ix2 k c) := by
  simp only [Idealize.ShloMosaic.Host.dotGeneral]
  rw [Ideal.dotGeneral_apply, ← Equiv.sum_comp (contrEquiv1 dot_S16384x128_S128x2_S16384x2_1_0_0_1_n_n 128 rfl rfl).symm]
  refine Finset.sum_congr rfl fun k _ => ?_
  have hk := contrEquiv1_symm_val dot_S16384x128_S128x2_S16384x2_1_0_0_1_n_n 128 rfl rfl k
  have el : dot_S16384x128_S128x2_S16384x2_1_0_0_1_n_n.lhsIdx (ix2 i c) ((contrEquiv1 dot_S16384x128_S128x2_S16384x2_1_0_0_1_n_n 128 rfl rfl).symm k) = ix2 i k := funext fun a => Fin.ext (by
    match a with
    | ⟨0, _⟩ => exact lhs2_0 _ _
    | ⟨1, _⟩ => exact (lhs2_1 _ _).trans hk)
  have er : dot_S16384x128_S128x2_S16384x2_1_0_0_1_n_n.rhsIdx (ix2 i c) ((contrEquiv1 dot_S16384x128_S128x2_S16384x2_1_0_0_1_n_n 128 rfl rfl).symm k) = ix2 k c := funext fun a => Fin.ext (by
    match a with
    | ⟨0, _⟩ => exact (rhs2_0 _ _).trans hk
    | ⟨1, _⟩ => exact rhs2_1 _ _)
  rw [el, er]

/-! ## The bias as a row, and the biased head -/

/-- A vector of 128 entries laid out as one row reads, at (0, q), its entry q. -/
theorem biasRow_apply {α : Type} (b : S128.Idx → α) (q : Fin 128) :
    shapeCast S1x128 b shapeCasts_S128_S1x128 (ix2 (0 : Fin 1) q) = b (ix1 q) :=
  shapeCast_a_1a_apply b shapeCasts_S128_S1x128 0 q

/-- A vector of 2 entries repeated down 16384 rows reads, at (i, c), its entry c. -/
theorem biasRows2_apply {α : Type} (b : S2.Idx → α) (i : Fin 16384) (c : Fin 2) :
    broadcastInDim S16384x2 ![0, 1] bcast_S1x2_S16384x2_0_1 (broadcastInDim S1x2 ![1] bcast_S2_S1x2_1 b) (ix2 i c)
      = b (ix1 c) := by
  refine (broadcastInDim_apply _ bcast_S1x2_S16384x2_0_1 _ (ix2 i c) (ix2 (0 : Fin 1) c) (fun a => match a with
    | ⟨0, _⟩ => by show 0 = if (1 : Nat) = 1 then 0 else i.val; rw [if_pos rfl]
    | ⟨1, _⟩ => by show c.val = if (2 : Nat) = 1 then 0 else c.val; rw [if_neg (by decide)])).trans ?_
  exact broadcastInDim_apply _ bcast_S2_S1x2_1 b (ix2 (0 : Fin 1) c) (ix1 c) (fun a => match a with
    | ⟨0, _⟩ => by show c.val = if (2 : Nat) = 1 then 0 else c.val; rw [if_neg (by decide)])

/-- The head: the projection onto 2 columns plus the bias, at entry (i, c) the sum over k < 128 of h(i, k) · w(k, c),
    plus b(c). -/
theorem head_apply (h : FVec Ideal S16384x128 .f32) (w3 : FVec Ideal S128x2 .f32) (b3 : FVec Ideal S2 .f32)
    (i : Fin 16384) (c : Fin 2) :
    addf (F := Ideal) (Idealize.ShloMosaic.Host.dotGeneral (F := Ideal) dot_S16384x128_S128x2_S16384x2_1_0_0_1_n_n (some .fp32) h w3)
        (broadcastInDim S16384x2 ![0, 1] bcast_S1x2_S16384x2_0_1 (broadcastInDim S1x2 ![1] bcast_S2_S1x2_1 b3)) (ix2 i c)
      = (∑ k : Fin 128, h (ix2 i k) * w3 (ix2 k c)) + b3 (ix1 c) := by
  rw [addf_apply, dot2_apply, biasRows2_apply]

/-! ## The same stages as the specification's maps -/

/-- The projection onto 128 columns is the specification's projection. -/
theorem dot128_eq (l : FVec Ideal S16384x128 .f32) (r : FVec Ideal S128x128 .f32) :
    Idealize.ShloMosaic.Host.dotGeneral (F := Ideal) dot_S16384x128_S128x128_S16384x128_1_0_0_1_n_n (some .fp32) l r = Cert.Spec.proj128 l r := by
  funext j
  obtain ⟨i, c, rfl⟩ : ∃ (i : Fin 16384) (c : Fin 128), j = ix2 i c := ⟨j 0, j 1, eq_ix2 j⟩
  exact (dot128_apply l r i c).trans (Cert.Spec.proj128_ix2 l r i c).symm

/-- The product onto 2 columns plus the repeated bias is the specification's head. -/
theorem head_eq (h : FVec Ideal S16384x128 .f32) (w3 : FVec Ideal S128x2 .f32) (b3 : FVec Ideal S2 .f32) :
    addf (F := Ideal) (Idealize.ShloMosaic.Host.dotGeneral (F := Ideal) dot_S16384x128_S128x2_S16384x2_1_0_0_1_n_n (some .fp32) h w3)
        (broadcastInDim S16384x2 ![0, 1] bcast_S1x2_S16384x2_0_1 (broadcastInDim S1x2 ![1] bcast_S2_S1x2_1 b3))
      = Cert.Spec.head h w3 b3 := by
  funext j
  obtain ⟨i, c, rfl⟩ : ∃ (i : Fin 16384) (c : Fin 2), j = ix2 i c := ⟨j 0, j 1, eq_ix2 j⟩
  exact (head_apply h w3 b3 i c).trans (Cert.Spec.head_ix2 h w3 b3 i c).symm

/-- A bias vector laid out as one row reads, at any index of the row, the vector's entry at the column. -/
theorem biasRow_eq {α : Type} (b : S128.Idx → α) (j : S1x128.Idx) :
    shapeCast S1x128 b shapeCasts_S128_S1x128 j = b (ix1 (j 1)) := by
  obtain ⟨u, q, rfl⟩ : ∃ (u : Fin 1) (q : Fin 128), j = ix2 u q := ⟨j 0, j 1, eq_ix2 j⟩
  exact shapeCast_a_1a_apply b shapeCasts_S128_S1x128 u q

end Cert.KernelIdeal.Hand.Host

end
-- ==== Proof.KI.KernelValue.lean ====
import proofs.«126341_j35888746725725_2_alg».proof.Proof.KI.Segs
import proofs.«126341_j35888746725725_2_alg».proof.Proof.KI.R0Value
import proofs.«126341_j35888746725725_2_alg».proof.Proof.KI.R1Value
import proofs.«126341_j35888746725725_2_alg».proof.Proof.KI.HostStages
import proofs.«126341_j35888746725725_2_alg».proof.Proof.Spec

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx

variable (m : (ℓ : Loc nD τ sig) → Buf (Elt Ideal) ℓ) (ρ : Dev nD → PrngReg)

/-- The returned array, on the extended reals, is the two-layer network of the eight arguments: the last host
    stretch is the linear head of the second call's output; that output is the second layer of the adjacency, of the
    second projection of the first call's output, and of the second bias as a row; and so on down to the arguments.
    Each call's output array is a layer by the accumulation along the grid; each host product is a projection; a bias
    reshaped to one row is the bias. -/
theorem value_eq (c : Dev nD) :
    W5 (F := Ideal) m ρ c (Proc.devRef .tc main_v9)
      = Cert.Spec.gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) := by
  rw [W5_main_v9_eq m ρ c, Host.head_eq, arr1_eq (V3 m ρ) c, V3_main_arg1 m ρ c, V3_main_v3 m ρ c, V3_main_v4 m ρ c, Host.dot128_eq,
    arr0_eq (V1 m ρ) c, V1_main_arg1 m ρ c, V1_main_v0 m ρ c, V1_main_v1 m ρ c, Host.dot128_eq]
  rw [Cert.Spec.layer2_eq_layer _ _ _ (m ((c : Thread nD τ).loc main_arg3)) (fun q => Host.biasRow_apply _ q),
    Cert.Spec.layer2_eq_layer _ _ _ (m ((c : Thread nD τ).loc main_arg5)) (fun q => Host.biasRow_apply _ q)]
  rfl

/-- The idealized kernel's run with its result named. -/
theorem kernel_run : θ_run (defs (F := Ideal)) (onTc (τ := τ) (main (F := Ideal))) ⟨m, fun _ => 0, ρ⟩ (fun r => ∀ c : Dev nD,
      r.2.mem ((c.tc : Thread nD τ).loc main_v9) = Cert.Spec.gcn (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run (defs (F := Ideal)) _ _).mono (fun _ h c => ⟨(h c).1.trans (value_eq m ρ c), (h c).2⟩) (run_value (F := Ideal) m ρ)

end Cert.KernelIdeal.Hand

end
-- ==== Proof.RefValue.lean ====
/-
  The reference computes the two-layer graph convolution of the specification: index by index its result is
  `head (layer adj (proj128 (layer adj (proj128 x w1) b1) w2) b2) w3 b3` on the extended reals.

  Each contraction of the reference reads, at an output index `(n, c)`, row `n` of its left operand against column `c` of
  its right one; each bias is a vector over the channel axis laid along every row; the clamp is the maximum with the zero
  word laid over the whole array. Stage by stage these are `proj128`, `layer` and `head`.
-/
import proofs.«126341_j35888746725725_2_alg».proof.Defs
import proofs.«126341_j35888746725725_2_alg».proof.Proof.Gen.Pre_finite_inputs
import proofs.«126341_j35888746725725_2_alg».proof.Proof.Gen.ReferenceIdeal.Read
import proofs.«126341_j35888746725725_2_alg».proof.Proof.Spec

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.ValueIdx

/-! ## The operand indices of each stage, by coordinates -/

/-- Row `n` of the features, place `k`. -/
theorem lidx_v0 (i : S16384x128.Idx) (k : Fin 128) : lidx_main_v0 i k = ix2 (n0 := 16384) (n1 := 128) (i 0) k :=
  funext fun a => by match a with | ⟨0, _⟩ => rfl | ⟨1, _⟩ => rfl
/-- Place `k` of column `c` of the weight. -/
theorem ridx_v0 (i : S16384x128.Idx) (k : Fin 128) : ridx_main_v0 i k = ix2 (n0 := 128) (n1 := 128) k (i 1) :=
  funext fun a => by match a with | ⟨0, _⟩ => rfl | ⟨1, _⟩ => rfl
/-- Row `n` of the adjacency, neighbour `j`. -/
theorem lidx_v1 (i : S16384x128.Idx) (k : Fin 16384) : lidx_main_v1 i k = ix2 (n0 := 16384) (n1 := 16384) (i 0) k :=
  funext fun a => by match a with | ⟨0, _⟩ => rfl | ⟨1, _⟩ => rfl
/-- Neighbour `j`'s row, channel `c`. -/
theorem ridx_v1 (i : S16384x128.Idx) (k : Fin 16384) : ridx_main_v1 i k = ix2 (n0 := 16384) (n1 := 128) k (i 1) :=
  funext fun a => by match a with | ⟨0, _⟩ => rfl | ⟨1, _⟩ => rfl
/-- The bias laid along every row is read at the channel. -/
theorem idx_v3 (i : S16384x128.Idx) : idx_main_v2 (idx_main_v3 i) = ix1 (n := 128) (i 1) :=
  funext fun a => by match a with | ⟨0, _⟩ => rfl
theorem lidx_v6 (i : S16384x128.Idx) (k : Fin 128) : lidx_main_v6 i k = ix2 (n0 := 16384) (n1 := 128) (i 0) k :=
  funext fun a => by match a with | ⟨0, _⟩ => rfl | ⟨1, _⟩ => rfl
theorem ridx_v6 (i : S16384x128.Idx) (k : Fin 128) : ridx_main_v6 i k = ix2 (n0 := 128) (n1 := 128) k (i 1) :=
  funext fun a => by match a with | ⟨0, _⟩ => rfl | ⟨1, _⟩ => rfl
theorem lidx_v7 (i : S16384x128.Idx) (k : Fin 16384) : lidx_main_v7 i k = ix2 (n0 := 16384) (n1 := 16384) (i 0) k :=
  funext fun a => by match a with | ⟨0, _⟩ => rfl | ⟨1, _⟩ => rfl
theorem ridx_v7 (i : S16384x128.Idx) (k : Fin 16384) : ridx_main_v7 i k = ix2 (n0 := 16384) (n1 := 128) k (i 1) :=
  funext fun a => by match a with | ⟨0, _⟩ => rfl | ⟨1, _⟩ => rfl
theorem idx_v9 (i : S16384x128.Idx) : idx_main_v8 (idx_main_v9 i) = ix1 (n := 128) (i 1) :=
  funext fun a => by match a with | ⟨0, _⟩ => rfl
theorem lidx_v12 (i : S16384x2.Idx) (k : Fin 128) : lidx_main_v12 i k = ix2 (n0 := 16384) (n1 := 128) (i 0) k :=
  funext fun a => by match a with | ⟨0, _⟩ => rfl | ⟨1, _⟩ => rfl
theorem ridx_v12 (i : S16384x2.Idx) (k : Fin 128) : ridx_main_v12 i k = ix2 (n0 := 128) (n1 := 2) k (i 1) :=
  funext fun a => by match a with | ⟨0, _⟩ => rfl | ⟨1, _⟩ => rfl
theorem idx_v14 (i : S16384x2.Idx) : idx_main_v13 (idx_main_v14 i) = ix1 (n := 2) (i 1) :=
  funext fun a => by match a with | ⟨0, _⟩ => rfl

/-! ## Stage by stage -/

/-- The first projection: features times the first weight. -/
theorem v0_eq (x0 : (⟨S16384x128, .f32⟩ : BufTy).Contents (Elt Ideal)) (x2 : (⟨S128x128, .f32⟩ : BufTy).Contents (Elt Ideal)) :
    val_main_v0 (F := Ideal) x0 x2 = Cert.Spec.proj128 x0 x2 := by
  funext i
  rw [val_main_v0_apply]
  simp only [lidx_v0, ridx_v0]
  rfl

/-- The first layer over any projected features `loc`: aggregation, bias, clamp. -/
theorem v5_eq (x0 : (⟨S16384x128, .f32⟩ : BufTy).Contents (Elt Ideal)) (x1 : (⟨S16384x16384, .f32⟩ : BufTy).Contents (Elt Ideal)) (x2 : (⟨S128x128, .f32⟩ : BufTy).Contents (Elt Ideal)) (x3 : (⟨S128, .f32⟩ : BufTy).Contents (Elt Ideal)) :
    val_main_v5 (F := Ideal) x0 x1 x2 x3 = Cert.Spec.layer x1 (val_main_v0 (F := Ideal) x0 x2) x3 := by
  funext i
  rw [val_main_v5_apply, val_main_v4_apply, val_main_v1_apply, val_main_v3_apply, val_main_v2_apply,
    val_main_call0_v0_apply, val_main_call0_cst_apply]
  simp only [lidx_v1, ridx_v1, idx_v3, Ideal.maximumf_def, Ideal.addf_def, Ideal.ofBits_def]
  rfl

/-- The second projection: the first layer's rows times the second weight. -/
theorem v6_eq (x0 : (⟨S16384x128, .f32⟩ : BufTy).Contents (Elt Ideal)) (x1 : (⟨S16384x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) :
    val_main_v6 (F := Ideal) x0 x1 x2 x3 x4 = Cert.Spec.proj128 (val_main_v5 (F := Ideal) x0 x1 x2 x3) x4 := by
  funext i
  rw [val_main_v6_apply]
  simp only [lidx_v6, ridx_v6]
  rfl

/-- The second layer. -/
theorem v11_eq (x0 : (⟨S16384x128, .f32⟩ : BufTy).Contents (Elt Ideal)) (x1 : (⟨S16384x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    val_main_v11 (F := Ideal) x0 x1 x2 x3 x4 x5
      = Cert.Spec.layer x1 (val_main_v6 (F := Ideal) x0 x1 x2 x3 x4) x5 := by
  funext i
  rw [val_main_v11_apply, val_main_v10_apply, val_main_v7_apply, val_main_v9_apply, val_main_v8_apply,
    val_main_call1_v0_apply, val_main_call1_cst_apply]
  simp only [lidx_v7, ridx_v7, idx_v9, Ideal.maximumf_def, Ideal.addf_def, Ideal.ofBits_def]
  rfl

/-- The head: the second layer's rows times the last weight, plus its bias. -/
theorem v15_eq (x0 : (⟨S16384x128, .f32⟩ : BufTy).Contents (Elt Ideal)) (x1 : (⟨S16384x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x2, .f32⟩ : BufTy).Contents (Elt Ideal)) (x7 : (⟨S2, .f32⟩ : BufTy).Contents (Elt Ideal)) :
    val_main_v15 (F := Ideal) x0 x1 x2 x3 x4 x5 x6 x7
      = Cert.Spec.head (val_main_v11 (F := Ideal) x0 x1 x2 x3 x4 x5) x6 x7 := by
  funext i
  rw [val_main_v15_apply, val_main_v12_apply, val_main_v14_apply, val_main_v13_apply]
  simp only [lidx_v12, ridx_v12, idx_v14, Ideal.addf_def]
  rfl

/-- The reference's result, as a function of its eight arguments, is the specification's network. -/
theorem result_eq (x0 : (⟨S16384x128, .f32⟩ : BufTy).Contents (Elt Ideal)) (x1 : (⟨S16384x16384, .f32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x2, .f32⟩ : BufTy).Contents (Elt Ideal)) (x7 : (⟨S2, .f32⟩ : BufTy).Contents (Elt Ideal)) :
    val_main_v15 (F := Ideal) x0 x1 x2 x3 x4 x5 x6 x7 = Cert.Spec.gcn x0 x1 x2 x3 x4 x5 x6 x7 := by
  rw [v15_eq, v11_eq, v6_eq, v5_eq, v0_eq]
  rfl

/-! ## The reference's run -/

/-- Every weakly fair execution of the reference terminates with the network's value of the arguments in its result
    and the arguments unchanged. -/
theorem ref_run (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v15) = Cert.Spec.gcn (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)
        ∧ r.2.mem ((c.tc : Thread nD τ).loc main_arg4) = m' ((c.tc : Thread nD τ).loc main_arg4)
        ∧ r.2.mem ((c.tc : Thread nD τ).loc main_arg5) = m' ((c.tc : Thread nD τ).loc main_arg5)
        ∧ r.2.mem ((c.tc : Thread nD τ).loc main_arg6) = m' ((c.tc : Thread nD τ).loc main_arg6)
        ∧ r.2.mem ((c.tc : Thread nD τ).loc main_arg7) = m' ((c.tc : Thread nD τ).loc main_arg7)) :=
  (θ_run (Cert.ReferenceIdeal.defs (F := Ideal)) _ _).mono
    (fun _ h c => ⟨(h c).1.trans ((val_main_v15_eq _ _ _ _ _ _ _ _).trans (result_eq _ _ _ _ _ _ _ _)), (h c).2⟩)
    (Cert.ReferenceIdeal.Value.run (F := Ideal) m' ρ')

/-- The reference terminates, faults nowhere and leaves its arguments as they were: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  A two-layer graph convolution, h ↦ relu(A · (h · W) + b) twice and a linear head, computed by a program that
  forms each product A · L on a grid of (row block, column block) tiles — a 4096 × 128 accumulator is zeroed at the
  first column block, takes one 4096 × 1024 by 1024 × 128 partial product per grid point, and at the last column
  block is biased, clamped at zero and written out — against the same network written with whole matrix products.
  On the extended reals both are one function of the eight arguments: a sum over 16384 terms is its sixteen
  consecutive partial sums of 1024 terms added left to right onto zero, which uses only that addition is
  associative and commutative, so the arguments' finiteness is never used.
  The three frames: each program runs to the end without fault and leaves its arguments as launched. For the two
  kernel programs (the word-level one and its reading on the extended reals, the same text) the run is @main's five
  segments — host operations, a call, host operations, a call, host operations — each call a grid of 64 points whose
  invariant carries the accumulator from point to point. The reference's frame is its run with the result dropped.
-/
import proofs.«126341_j35888746725725_2_alg».proof.Defs
import proofs.«126341_j35888746725725_2_alg».proof.Proof.Gen.Kernel
import proofs.«126341_j35888746725725_2_alg».proof.Proof.Gen.KernelIdeal
import proofs.«126341_j35888746725725_2_alg».proof.Proof.Gen.ReferenceIdeal
import proofs.«126341_j35888746725725_2_alg».proof.Proof.Gen.Pre_finite_inputs
import proofs.«126341_j35888746725725_2_alg».proof.Proof.K.Segs
import proofs.«126341_j35888746725725_2_alg».proof.Proof.KI.Segs
import proofs.«126341_j35888746725725_2_alg».proof.Proof.KI.KernelValue
import proofs.«126341_j35888746725725_2_alg».proof.Proof.RefValue
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.Hand.frame (F := Bits) m ρ

theorem frame_ki : @Cert.frame_KernelIdeal Cert.KernelIdeal.Gen.facts Cert.Pre_finite_inputs.Gen.facts :=
  fun m ρ _ => Cert.KernelIdeal.Hand.frame (F := Ideal) m ρ

/-- From memories that agree on the arguments both idealized programs end with the network of those arguments in
    their result arrays. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2.1, (hagree c).2.2.2.2.1, (hagree c).2.2.2.2.2.1,
    (hagree c).2.2.2.2.2.2.1, (hagree c).2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefValue.frame_ri, trivial, algebraic⟩

end Cert.Proof

end
